-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8x2048x2048 : Shape := ⟨3, ![8, 2048, 2048]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x4096 .f32) (main_arg5 : FVec F S4096 .f32) (main_arg6 : FVec F S4096x1024 .f32) (main_arg7 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_v33

def fn {F : FTy → Type} [FloatOps F] (main_arg0 : FVec F S8x2048x1024 .f32) (main_arg1 : FVec F S1024x1024 .f32) (main_arg2 : FVec F S1024x1024 .f32) (main_arg3 : FVec F S1024x1024 .f32) (main_arg4 : FVec F S1024x4096 .f32) (main_arg5 : FVec F S4096 .f32) (main_arg6 : FVec F S4096x1024 .f32) (main_arg7 : FVec F S1024 .f32) (main_arg8 : IVec S8x2048x2048 1) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Kernel.lean ====
abbrev S8x2048x1024 : Shape := ⟨3, ![8, 2048, 1024]⟩
abbrev S1024x1024 : Shape := ⟨2, ![1024, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8x2048x2048 : Shape := ⟨3, ![8, 2048, 2048]⟩
abbrev S16384x1024 : Shape := ⟨2, ![16384, 1024]⟩
abbrev S1x512x1024 : Shape := ⟨3, ![1, 512, 1024]⟩
abbrev S1x512x512 : Shape := ⟨3, ![1, 512, 512]⟩
abbrev S512x1 : Shape := ⟨2, ![512, 1]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S1x1024 : Shape := ⟨2, ![1, 1024]⟩

abbrev nBuf : Space → Nat
  | .hbm => 23
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x4096, .f32⟩
  | .hbm, ⟨5, _⟩ => ⟨S4096, .f32⟩
  | .hbm, ⟨6, _⟩ => ⟨S4096x1024, .f32⟩
  | .hbm, ⟨7, _⟩ => ⟨S1024, .f32⟩
  | .hbm, ⟨8, _⟩ => ⟨S8x2048x2048, .i1⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1024x4096, .bf16⟩
  | .hbm, ⟨13, _⟩ => ⟨S4096x1024, .bf16⟩
  | .hbm, ⟨14, _⟩ => ⟨S16384x1024, .f32⟩
  | .hbm, ⟨15, _⟩ => ⟨S16384x1024, .bf16⟩
  | .hbm, ⟨16, _⟩ => ⟨S16384x1024, .bf16⟩
  | .hbm, ⟨17, _⟩ => ⟨S16384x1024, .bf16⟩
  | .hbm, ⟨18, _⟩ => ⟨S8x2048x1024, .bf16⟩
  | .hbm, ⟨19, _⟩ => ⟨S8x2048x1024, .bf16⟩
  | .hbm, ⟨20, _⟩ => ⟨S8x2048x1024, .bf16⟩
  | .hbm, ⟨21, _⟩ => ⟨S8x2048x2048, .i32⟩
  | .hbm, ⟨22, _⟩ => ⟨S8x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x512, .i32⟩
  | .local _ .vmem, ⟨18, _⟩ => ⟨S1x512x512, .i32⟩
  | .local _ .vmem, ⟨19, _⟩ => ⟨S1024x4096, .bf16⟩
  | .local _ .vmem, ⟨20, _⟩ => ⟨S4096, .f32⟩
  | .local _ .vmem, ⟨21, _⟩ => ⟨S4096x1024, .bf16⟩
  | .local _ .vmem, ⟨22, _⟩ => ⟨S1024, .f32⟩
  | .local _ .vmem, ⟨23, _⟩ => ⟨S1x512x1024, .f32⟩
  | .local _ .vmem, ⟨24, _⟩ => ⟨S1x512x1024, .f32⟩
  | .local _ .vmem, ⟨25, _⟩ => ⟨S512x1, .f32⟩
  | .local _ .vmem, ⟨26, _⟩ => ⟨S512x1, .f32⟩
  | .local _ .vmem, ⟨27, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg8_1 : Ref sig .tc := ⟨.vmem, 24, rfl⟩
abbrev cc1_scratch0 : Ref sig .tc := ⟨.vmem, 25, rfl⟩
abbrev cc1_scratch1 : Ref sig .tc := ⟨.vmem, 26, rfl⟩
abbrev cc1_scratch2 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem8_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v48 : BitVec 1 := Scalar.cmpi .eq arg2 c3_i32
  let v49 : BitVec 32 := Scalar.extui v48
  let c0_i32_32 : BitVec 32 := 0#32
  let v50 : BitVec 1 := Scalar.cmpi .ne v49 c0_i32_32
  v50

def k1_mult1 : BitVec 32 :=
  let c0_i32_38 : BitVec 32 := 0#32
  let c1024_i32 : BitVec 32 := 1024#32
  let v57 : BitVec 32 := Scalar.muli c0_i32_38 c1024_i32
  v57
def k1_off1 (c0_i32_38 : BitVec 32) : Fin 2 → Nat :=
  let c0_39 : Index := 0#32
  let c1024_i32 : BitVec 32 := 1024#32
  let v57 : BitVec 32 := Scalar.muli c0_i32_38 c1024_i32
  let v58 : BitVec 32 := v57
  let v59 : Index := Scalar.indexCast v58
  ![0, v59.toNat]
def k1_off2 (c0_i32_38 : BitVec 32) : Fin 1 → Nat :=
  let c1024_i32 : BitVec 32 := 1024#32
  let v57 : BitVec 32 := Scalar.muli c0_i32_38 c1024_i32
  let v58 : BitVec 32 := v57
  let v62 : Index := Scalar.indexCast v58
  ![v62.toNat]
def k1_off3 (c0_i32_38 : BitVec 32) : Fin 2 → Nat :=
  let c1024_i32 : BitVec 32 := 1024#32
  let v57 : BitVec 32 := Scalar.muli c0_i32_38 c1024_i32
  let v58 : BitVec 32 := v57
  let v71 : Index := Scalar.indexCast v58
  let c0_42 : Index := 0#32
  ![v71.toNat, 0]
def k1_mult2 : BitVec 32 :=
  let c1_i32 : BitVec 32 := 1#32
  let c1024_i32_44 : BitVec 32 := 1024#32
  let v76 : BitVec 32 := Scalar.muli c1_i32 c1024_i32_44
  v76
def k1_mult3 : BitVec 32 :=
  let c2_i32 : BitVec 32 := 2#32
  let c1024_i32_50 : BitVec 32 := 1024#32
  let v95 : BitVec 32 := Scalar.muli c2_i32 c1024_i32_50
  v95
def k1_mult4 : BitVec 32 :=
  let c3_i32_56 : BitVec 32 := 3#32
  let c1024_i32_57 : BitVec 32 := 1024#32
  let v114 : BitVec 32 := Scalar.muli c3_i32_56 c1024_i32_57
  v114
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_8 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 1 → Memref sig .tc .vmem S1024x4096 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S4096x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 1 → Memref sig .tc .vmem S1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false, false]

abbrev stage1_8 : Fin 2 → Memref sig .tc .vmem S1x512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, false]

class Facts₀ : Prop where
  bitsLt_bf16_f32 : FTy.bits .bf16 < FTy.bits .f32
  shapeCasts_S8x2048x1024_S16384x1024 : S8x2048x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S16384x1024_S8x2048x1024 : S16384x1024.ShapeCasts S8x2048x1024
  natLt_1_32 : 1 < 32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  h_S1024 : 0 < S1024.numel
  shapeCasts_S1024_S1x1024 : S1024.ShapeCasts S1x1024
  broadcasts_S1x1024_S512x1024 : S1x1024.Broadcasts S512x1024
  inb_S1024_S1024_0 : ∀ a, (![0] : Fin 1 → Nat) a + S1024.size a ≤ S1024.size a
  shapeCasts_S512x1024_S1x512x1024 : S512x1024.ShapeCasts S1x512x1024
  dot_S1024x1024_S1024x1024_S1024x1024_1_0_0_1_n_n_wf : DotDims.WF S1024x1024 S1024x1024 S1024x1024 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x1024.size a
  hwx0_4 : ∀ i : grid0.Coords, EltTy.bits .bf16 = 32 ∨ (Rect.block (s := S16384x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x1024.size a
  hwx0_5 : ∀ i : grid0.Coords, EltTy.bits .bf16 = 32 ∨ (Rect.block (s := S16384x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S16384x1024.size a
  hwx0_6 : ∀ i : grid0.Coords, EltTy.bits .bf16 = 32 ∨ (Rect.block (s := S16384x1024) S1024x1024.size (cc0_transform_6 i) (hinb0_6 i)).WholeWords (EltTy.packing .bf16)
  hrank1 : 0 < grid1.rank
  k1_mult1_dvd : ∀ i : grid1.Coords, ∀ (k1_h2 : k1_cond2 i = 1#1), 1024 ∣ k1_mult1.toNat
  k1_off1_inb : ∀ i : grid1.Coords, ∀ (k1_h2 : k1_cond2 i = 1#1), ∀ (r : Fin 4), ∀ a, (k1_off1 (BitVec.ofNat 32 r.val)) a + S1024x1024.size a ≤ S1024x4096.size a
  k1_off2_inb : ∀ i : grid1.Coords, ∀ (k1_h2 : k1_cond2 i = 1#1), ∀ (r : Fin 4), ∀ a, (k1_off2 (BitVec.ofNat 32 r.val)) a + S1024.size a ≤ S4096.size a
  k1_off3_inb : ∀ i : grid1.Coords, ∀ (k1_h2 : k1_cond2 i = 1#1), ∀ (r : Fin 4), ∀ a, (k1_off3 (BitVec.ofNat 32 r.val)) a + S1024x1024.size a ≤ S4096x1024.size a
  k1_mult2_dvd : ∀ i : grid1.Coords, ∀ (k1_h2 : k1_cond2 i = 1#1), 1024 ∣ k1_mult2.toNat
  k1_mult3_dvd : ∀ i : grid1.Coords, ∀ (k1_h2 : k1_cond2 i = 1#1), 1024 ∣ k1_mult3.toNat
  k1_mult4_dvd : ∀ i : grid1.Coords, ∀ (k1_h2 : k1_cond2 i = 1#1), 1024 ∣ k1_mult4.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x2048x1024.size a
  hwx1_0 : ∀ i : grid1.Coords, EltTy.bits .bf16 = 32 ∨ (Rect.block (s := S8x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S8x2048x1024.size a
  hwx1_1 : ∀ i : grid1.Coords, EltTy.bits .bf16 = 32 ∨ (Rect.block (s := S8x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S8x2048x1024.size a
  hwx1_2 : ∀ i : grid1.Coords, EltTy.bits .bf16 = 32 ∨ (Rect.block (s := S8x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x512.size a ≤ S8x2048x2048.size a
  hwx1_3 : ∀ i : grid1.Coords, EltTy.bits .i32 = 32 ∨ (Rect.block (s := S8x2048x2048) S1x512x512.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x4096.size a ≤ S1024x4096.size a
  hwx1_4 : ∀ i : grid1.Coords, EltTy.bits .bf16 = 32 ∨ (Rect.block (s := S1024x4096) S1024x4096.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4096.size a ≤ S4096.size a
  hwx1_5 : ∀ i : grid1.Coords, EltTy.bits .f32 = 32 ∨ (Rect.block (s := S4096) S4096.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4096x1024.size a ≤ S4096x1024.size a
  hwx1_6 : ∀ i : grid1.Coords, EltTy.bits .bf16 = 32 ∨ (Rect.block (s := S4096x1024) S4096x1024.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024.size a ≤ S1024.size a
  hwx1_7 : ∀ i : grid1.Coords, EltTy.bits .f32 = 32 ∨ (Rect.block (s := S1024) S1024.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x512x1024.size a ≤ S8x2048x1024.size a
  hwx1_8 : ∀ i : grid1.Coords, EltTy.bits .f32 = 32 ∨ (Rect.block (s := S8x2048x1024) S1x512x1024.size (cc1_transform_8 i) (hinb1_8 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v5) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1024x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_2) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v7) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1024x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S4096x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v11) S1x512x1024.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x2048x4096 : Shape := ⟨3, ![8, 2048, 4096]⟩
abbrev S1x1x4096 : Shape := ⟨3, ![1, 1, 4096]⟩
abbrev S1x1x1024 : Shape := ⟨3, ![1, 1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x4096, .f32⟩
  | .hbm, ⟨5, _⟩ => ⟨S4096, .f32⟩
  | .hbm, ⟨6, _⟩ => ⟨S4096x1024, .f32⟩
  | .hbm, ⟨7, _⟩ => ⟨S1024, .f32⟩
  | .hbm, ⟨8, _⟩ => ⟨S8x2048x2048, .i1⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x2048x2048, .f32⟩
  | .hbm, ⟨13, _⟩ => ⟨S_, .f32⟩
  | .hbm, ⟨14, _⟩ => ⟨S_, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048, .f32⟩
  | .hbm, ⟨22, _⟩ => ⟨S_, .f32⟩
  | .hbm, ⟨23, _⟩ => ⟨S8x2048, .f32⟩
  | .hbm, ⟨24, _⟩ => ⟨S8x2048, .f32⟩
  | .hbm, ⟨25, _⟩ => ⟨S8x2048x1, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x2048x1024, .f32⟩
  | .hbm, ⟨35, _⟩ => ⟨S8x2048x4096, .f32⟩
  | .hbm, ⟨36, _⟩ => ⟨S1x1x4096, .f32⟩
  | .hbm, ⟨37, _⟩ => ⟨S8x2048x4096, .f32⟩
  | .hbm, ⟨38, _⟩ => ⟨S8x2048x4096, .f32⟩
  | .hbm, ⟨39, _⟩ => ⟨S_, .f32⟩
  | .hbm, ⟨40, _⟩ => ⟨S8x2048x4096, .f32⟩
  | .hbm, ⟨41, _⟩ => ⟨S8x2048x4096, .f32⟩
  | .hbm, ⟨42, _⟩ => ⟨S8x2048x1024, .f32⟩
  | .hbm, ⟨43, _⟩ => ⟨S1x1x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_call0_v0 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  bcast_S_S8x2048x4096 : S_.BroadcastsInDim S8x2048x4096 (![] : Fin 0 → Fin S8x2048x4096.rank)
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]
  dot_S8x2048x1024_S1024x4096_S8x2048x4096_2_0_01_1_n_n_wf : DotDims.WF S8x2048x1024 S1024x4096 S8x2048x4096 [2] [0] [0, 1] [1] [] []
  dot_S8x2048x4096_S4096x1024_S8x2048x1024_2_0_01_1_n_n_wf : DotDims.WF S8x2048x4096 S4096x1024 S8x2048x1024 [2] [0] [0, 1] [1] [] []

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf
def dot_S8x2048x1024_S1024x4096_S8x2048x4096_2_0_01_1_n_n : DotDims S8x2048x1024 S1024x4096 S8x2048x4096 where
  lhsContracting := [2]
  rhsContracting := [0]
  lhsNonContracting := [0, 1]
  rhsNonContracting := [1]
  lhsBatch := []
  rhsBatch := []
  wf := dot_S8x2048x1024_S1024x4096_S8x2048x4096_2_0_01_1_n_n_wf
def dot_S8x2048x4096_S4096x1024_S8x2048x1024_2_0_01_1_n_n : DotDims S8x2048x4096 S4096x1024 S8x2048x1024 where
  lhsContracting := [2]
  rhsContracting := [0]
  lhsNonContracting := [0, 1]
  rhsNonContracting := [1]
  lhsBatch := []
  rhsBatch := []
  wf := dot_S8x2048x4096_S4096x1024_S8x2048x1024_2_0_01_1_n_n_wf

class Facts : Prop extends Facts₀ where

variable [Facts]
-- ==== Proof.Region0.lean ====
/-
  The projection region (the first of the program's two kernel launches), at ANY contents `V` of the core's buffers when
  the region is entered and at any float instance.  Each of the 16 grid points reads one block of 1024 rows of the
  flattened input and the three whole weight matrices, and stores the three products — one matrix product per output,
  each rounded to the narrow format — into the three output blocks.  Stated here: a window's block at a point, what the
  body leaves in each output's staging buffer as ONE store over the blocks it loaded, the body's triple, the proof data
  of the launch (inputs keep their blocks, outputs hold the stores' values, nothing carried from point to point) and the
  body obligation at every point.
-/
import proofs.«108464_j44547400794204_2_alg».proof.Proof.Gen.KernelIdeal.Launch
import proofs.«108464_j44547400794204_2_alg».proof.Proof.Gen.KernelIdeal.Skeleton
import proofs.«108464_j44547400794204_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the point fetches it or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the point fetches it or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the point fetches it or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The one rectangle every access of the body goes through: the whole 1024 × 1024 buffer. -/
abbrev rQ : Rect S1024x1024 := Rect.unit (s := S1024x1024) ![0, 0] S1024x1024.size inb_S1024x1024_S1024x1024_0_0

/-- What the body leaves in the staging buffer of each of the three outputs: one store of the whole block, the product
    of the rounded input block with that output's weight matrix. -/
def out0_4 (x0 : Vec F S1024x1024 .f32) (x1 : Vec F S1024x1024 .bf16) : Vec F S1024x1024 .bf16 :=
  View.canon [⟨rQ, k0_pay2 (View.ld x0 rQ) (View.ld x1 rQ)⟩]
def out0_5 (x0 : Vec F S1024x1024 .f32) (x2 : Vec F S1024x1024 .bf16) : Vec F S1024x1024 .bf16 :=
  View.canon [⟨rQ, k0_pay3 (View.ld x0 rQ) (View.ld x2 rQ)⟩]
def out0_6 (x0 : Vec F S1024x1024 .f32) (x3 : Vec F S1024x1024 .bf16) : Vec F S1024x1024 .bf16 :=
  View.canon [⟨rQ, k0_pay4 (View.ld x0 rQ) (View.ld x3 rQ)⟩]

/-- One store of the whole buffer covers it. -/
theorem coverQ (p0 : Vec F S1024x1024 .bf16) (y : S1024x1024.Idx) :
    ∃ pc ∈ ([⟨rQ, p0⟩] : List (View.Piece (Elt F) S1024x1024 .bf16)), y ∈ pc.1.set :=
  View.cover_of_tiled [⟨rQ, p0⟩] S1024x1024.size (by rfl) y

set_option maxHeartbeats 4000000 in
/-- The body on whole staging memrefs — the four inputs at their contents, the three outputs at anything — runs to the
    continuation with the inputs as they were and each output holding its one store. -/
theorem sound_kernel0 (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (arg7 : Memref sig .tc .vmem S1024x1024 .bf16) (harg7 : arg7.IsWhole)
    (x0 : Vec F S1024x1024 .f32) (x1 x2 x3 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x2) ∗ owns (c : Thread nD τ) arg7 fullShare (out0_6 x0 x3)) -∗ K ⟨⟩))
      ⊢ wp frame (wpE (defs₀ (F := F)) Variants.none c none) E (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverQ _)
  isplitl [H5]
  · iexists _; isplitr
    swap; · iexact H5
    ipureintro
    exact View.read_writes_eq_canon _ _ _ (coverQ _)
  iexists _; isplitr
  swap; · iexact H6
  ipureintro
  exact View.read_writes_eq_canon _ _ _ (coverQ _)

/-- The launch's proof data on core `c`: the arrays as the region finds them; after the body at point `t` each input's
    buffer at its block and each output's at its one store over the input blocks; nothing named from point to point
    (the scoped rest and the generator register pass through); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.R1Shared.lean ====
/-
  The attention region (the second kernel launch): what its three body runs are stated over.  The grid is
  8 batches × 4 query tiles × 4 key tiles, the key tile innermost, so a point's position mod 4 is its key tile.  The body
  branches twice on the key tile: at key tile 0 it resets the three running buffers (row maximum, row sum of exponentials,
  weighted value sum); at key tile 3 it normalises, applies the feed-forward layer and stores the output block.  Here: the
  two conditions decided over the grid, where the output window is idle and where it is written back, a window's block at
  a point, the staging and scratch memrefs by name, and the region's scoped rest with the three scratch buffers split out.
-/
import proofs.«108464_j44547400794204_2_alg».proof.Proof.Gen.KernelIdeal.Launch
import proofs.«108464_j44547400794204_2_alg».proof.Proof.Gen.KernelIdeal.Skeleton
import proofs.«108464_j44547400794204_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetches it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the point fetches it or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the point fetches it or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the point fetches it or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the point fetches it or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether the point fetches it or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether the point fetches it or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, whether the point fetches it or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two branch conditions -/

/-- "This is key tile 0": the reset of the running buffers is taken. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is key tile 3": the normalisation, the feed-forward layer and the output store are taken. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
/-- Away from key tile 3 the output window is idle (the body stores nothing into it) and is not written back. -/
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
/-- At key tile 3 it is live. -/
theorem liveAt1_8 : ∀ t : Fin cfg1.N, cond1_1 (grid1.coords t) → cfg1.idle 8 (grid1.coords t) = false := by decide +kernel

/-! ## The memrefs the body is called with -/

/-- One staging buffer of the output window, through which its contents are stated. -/
abbrev VO1_8 : View sig .tc .vmem S1x512x1024 .f32 := (Memref.whole cc1_stg8_0 : Memref sig .tc .vmem S1x512x1024 .f32).view
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x4096 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4096 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S4096x1024 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x512x1024 .f32 := win1_8.stage (cfg1.slots t 8)
abbrev hs1_8 (t : Fin cfg1.N) : (ms1_8 t).IsWhole := hstage1_8 ((cfg1.slots t 8).cast nbuf1_8)
/-- The three scratch operands: whole scoped buffers of the kernel's own — the running row maximum, the running row sum
    and the running weighted value sum. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev VS1_0 : View sig .tc .vmem S512x1 .f32 := scM1_0.view
abbrev VS1_1 : View sig .tc .vmem S512x1 .f32 := scM1_1.view
abbrev VS1_2 : View sig .tc .vmem S512x1024 .f32 := scM1_2.view

/-- The region's scoped buffers no window stages, as one chain: the first launch's eleven staging buffers, each whole at
    some contents and untouched here, then the three scratch operands in whatever state `P0 P1 P2` describe. -/
def scoped1 (c : Dev nD) (P0 P1 P2 : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ P0 ∗ P1 ∗ P2)

/-- The class invariant (the scoped rest and the generator register) with the scratch operands as memrefs owned at
    some contents: what the body obligation hands a run before the first point. -/
theorem PhiA1_eq (c : Dev nD) :
    (Pipeline.ΦA spec1 c : sProp 𝕄)
      = iprop(scoped1 c iprop(∃ d, owns (c : Thread nD τ) scM1_0 fullShare d) iprop(∃ d, owns (c : Thread nD τ) scM1_1 fullShare d) iprop(∃ d, owns (c : Thread nD τ) scM1_2 fullShare d) ∗ (∃ r, prngReg c r)) := by
  unfold Pipeline.ΦA scoped1; rw [scopedRest1_eq]; simp only [scM1_0, scM1_1, scM1_2, owns_whole]; try rfl

end Cert.KernelIdeal.Hand

end
-- ==== Proof.R1RunA.lean ====
/-
  The attention body at a point of key tile 0 (the reset is taken, the epilogue is not), run on whole memrefs: the
  eight inputs at their contents, the output buffer at any contents (it is not touched), the three running buffers at
  anything (they are reset before they are read).  The run ends with the inputs and the output as they were and each
  running buffer holding the pieces the run's stores wrote — the pieces are found by the symbolic run itself.
-/
import proofs.«108464_j44547400794204_2_alg».proof.Proof.R1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) :
    Σ' (LS0 : List (View.Piece (Elt F) S512x1 .f32)) (LS1 : List (View.Piece (Elt F) S512x1 .f32)), { LS2 : List (View.Piece (Elt F) S512x1024 .f32) //
      ∀ (xi8 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc1__attn_ffn_kernel i arg3 harg3 arg4 harg4 arg5 harg5 arg6 harg6 arg7 harg7 arg8 harg8 arg9 harg9 arg10 harg10 arg11 harg11 arg12 harg12 arg13 harg13 arg14 harg14) K } := by
  refine ⟨?_, ?_, ?_, fun xi8 E K => ?run⟩
  case run =>
    simp only [cc1__attn_ffn_kernel_eq_skeleton]; unfold cc1__attn_ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    obtain rfl := harg11.eq_unread hf8
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [HS0]; · iexists _; iexact HS0
    isplitl [HS1]; · iexists _; iexact HS1
    iexists _; iexact HS2

end Cert.KernelIdeal.Hand

end
-- ==== Proof.R1RunB.lean ====
/-
  The attention body at a point of key tile 1 or 2 (neither branch taken), run on whole memrefs: the eight inputs at
  their contents, the output buffer at any contents (untouched), the three running buffers at what the point before left.
  The run ends with the inputs and the output as they were and each running buffer holding the pieces the run's stores
  wrote — found by the symbolic run itself.
-/
import proofs.«108464_j44547400794204_2_alg».proof.Proof.R1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) :
    Σ' (LS0 : List (View.Piece (Elt F) S512x1 .f32)) (LS1 : List (View.Piece (Elt F) S512x1 .f32)), { LS2 : List (View.Piece (Elt F) S512x1024 .f32) //
      ∀ (xi8 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ owns (c : Thread nD τ) arg12 fullShare xs0 ∗ owns (c : Thread nD τ) arg13 fullShare xs1 ∗ owns (c : Thread nD τ) arg14 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc1__attn_ffn_kernel i arg3 harg3 arg4 harg4 arg5 harg5 arg6 harg6 arg7 harg7 arg8 harg8 arg9 harg9 arg10 harg10 arg11 harg11 arg12 harg12 arg13 harg13 arg14 harg14) K } := by
  refine ⟨?_, ?_, ?_, fun xi8 E K => ?run⟩
  case run =>
    simp only [cc1__attn_ffn_kernel_eq_skeleton]; unfold cc1__attn_ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [HS0]; · iexists _; iexact HS0
    isplitl [HS1]; · iexists _; iexact HS1
    iexists _; iexact HS2

end Cert.KernelIdeal.Hand

end
-- ==== Proof.R1RunC.lean ====
/-
  The attention body at a point of key tile 3 (no reset; the epilogue is taken), run on whole memrefs: the eight inputs at
  their contents, the output buffer at anything, the three running buffers at what the point before left.  The run ends
  with the inputs as they were, the output buffer holding the one stored block, and each running buffer holding the
  pieces the run's stores wrote — found by the symbolic run itself.
-/
import proofs.«108464_j44547400794204_2_alg».proof.Proof.R1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun1_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) :
    Σ' (L8 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs0 ∗ owns (c : Thread nD τ) arg13 fullShare xs1 ∗ owns (c : Thread nD τ) arg14 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc1__attn_ffn_kernel i arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc1__attn_ffn_kernel_eq_skeleton]; unfold cc1__attn_ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [HS0]; · iexists _; iexact HS0
    isplitl [HS1]; · iexists _; iexact HS1
    iexists _; iexact HS2

end Cert.KernelIdeal.Hand

end
-- ==== Proof.R1Frame.lean ====
/-
  The attention region's launch data.  What each of the body's three cases leaves in the output block and in the three
  running buffers (the pieces its run found, read back), the accumulation of these over the 128 grid points — key tile 0
  starts afresh, key tiles 1–3 continue from what the point before left —, the region invariant that carries the three
  running buffers from each point to the next at exactly those contents, the proof data, and the body obligation at every
  point (a case split on the key tile, each leaf that case's run).
-/
import proofs.«108464_j44547400794204_2_alg».proof.Proof.R1RunA
import proofs.«108464_j44547400794204_2_alg».proof.Proof.R1RunB
import proofs.«108464_j44547400794204_2_alg».proof.Proof.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A's pieces for scratch 0 tile it, so they cover it. -/
theorem scover1_A_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (y : S512x1.Idx) :
    ∃ pc ∈ (kernelRun1_A c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1, y ∈ pc.1.set :=
  View.cover_of_tiledL (kernelRun1_A c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1 S512x1.size (by sl_kernel_rfl) y

/-- What case A leaves in scratch 0: its pieces read back. -/
def sout1_A_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) : Vec F S512x1 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1)

/-- Case A's pieces for scratch 1 tile it, so they cover it. -/
theorem scover1_A_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (y : S512x1.Idx) :
    ∃ pc ∈ (kernelRun1_A c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1, y ∈ pc.1.set :=
  View.cover_of_tiledL (kernelRun1_A c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1 S512x1.size (by sl_kernel_rfl) y

/-- What case A leaves in scratch 1: its pieces read back. -/
def sout1_A_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) : Vec F S512x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1)

/-- Case A's pieces for scratch 2 tile it, so they cover it. -/
theorem scover1_A_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (y : S512x1024.Idx) :
    ∃ pc ∈ (kernelRun1_A c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1, y ∈ pc.1.set :=
  View.cover_of_tiledL (kernelRun1_A c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1 S512x1024.size (by sl_kernel_rfl) y

/-- What case A leaves in scratch 2: its pieces read back. -/
def sout1_A_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) : Vec F S512x1024 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1)

/-- Case B's pieces for scratch 0 tile it, so they cover it. -/
theorem scover1_B_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) (y : S512x1.Idx) :
    ∃ pc ∈ (kernelRun1_B c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).1, y ∈ pc.1.set :=
  View.cover_of_tiledL (kernelRun1_B c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).1 S512x1.size (by sl_kernel_rfl) y

/-- What case B leaves in scratch 0: its pieces read back. -/
def sout1_B_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) : Vec F S512x1 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).1)

/-- Case B's pieces for scratch 1 tile it, so they cover it. -/
theorem scover1_B_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) (y : S512x1.Idx) :
    ∃ pc ∈ (kernelRun1_B c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.1, y ∈ pc.1.set :=
  View.cover_of_tiledL (kernelRun1_B c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.1 S512x1.size (by sl_kernel_rfl) y

/-- What case B leaves in scratch 1: its pieces read back. -/
def sout1_B_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) : Vec F S512x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.1)

/-- Case B's pieces for scratch 2 tile it, so they cover it. -/
theorem scover1_B_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) (y : S512x1024.Idx) :
    ∃ pc ∈ (kernelRun1_B c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.2.1, y ∈ pc.1.set :=
  View.cover_of_tiledL (kernelRun1_B c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.2.1 S512x1024.size (by sl_kernel_rfl) y

/-- What case B leaves in scratch 2: its pieces read back. -/
def sout1_B_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) : Vec F S512x1024 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.2.1)

/-- Case C's one store into the output block covers it. -/
theorem cover1_C_8 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) (y : S1x512x1024.Idx) :
    ∃ pc ∈ (kernelRun1_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).1, y ∈ pc.1.set :=
  View.cover_of_tiledL (kernelRun1_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).1 S1x512x1024.size (by sl_kernel_rfl) y

/-- What case C leaves in the output window's staging buffer: its store read back. -/
def out1_C_8 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) : Vec F S1x512x1024 .f32 :=
  VO1_8.read (Elt F) (VO1_8.writes (Elt F) VO1_8.junk (kernelRun1_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).1)

/-- Case C's pieces for scratch 0 tile it, so they cover it. -/
theorem scover1_C_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) (y : S512x1.Idx) :
    ∃ pc ∈ (kernelRun1_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.1, y ∈ pc.1.set :=
  View.cover_of_tiledL (kernelRun1_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.1 S512x1.size (by sl_kernel_rfl) y

/-- What case C leaves in scratch 0: its pieces read back. -/
def sout1_C_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) : Vec F S512x1 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.1)

/-- Case C's pieces for scratch 1 tile it, so they cover it. -/
theorem scover1_C_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) (y : S512x1.Idx) :
    ∃ pc ∈ (kernelRun1_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.2.1, y ∈ pc.1.set :=
  View.cover_of_tiledL (kernelRun1_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.2.1 S512x1.size (by sl_kernel_rfl) y

/-- What case C leaves in scratch 1: its pieces read back. -/
def sout1_C_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) : Vec F S512x1 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.2.1)

/-- Case C's pieces for scratch 2 tile it, so they cover it. -/
theorem scover1_C_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) (y : S512x1024.Idx) :
    ∃ pc ∈ (kernelRun1_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.2.2.1, y ∈ pc.1.set :=
  View.cover_of_tiledL (kernelRun1_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.2.2.1 S512x1024.size (by sl_kernel_rfl) y

/-- What case C leaves in scratch 2: its pieces read back. -/
def sout1_C_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) : Vec F S512x1024 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.2.2.1)

/-- The output block's staging buffer at a point whose case stores nothing into it: a placeholder nothing consults (the
    window is idle there: neither written back nor read at the next point). -/
def outIdle1 : Vec F S1x512x1024 .f32 := VO1_8.read (Elt F) VO1_8.junk

section Region1

variable (V : (c : Dev nD) → (b : Ref sig .tc) → Buf (Elt F) ((c : Thread nD τ).loc b))

/-! ## The accumulation over the grid -/

/-- After a point of key tile 0: the running buffers hold what the reset and the first update leave; nothing earlier matters. -/
def caseA (c : Dev nD) (t : Fin cfg1.N) (h0 : t.val % 4 = 0) (h1 : ¬t.val % 4 = 3) : Vec F S1x512x1024 .f32 × Vec F S512x1 .f32 × Vec F S512x1 .f32 × Vec F S512x1024 .f32 :=
  (outIdle1,
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t),
   sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t))

/-- After a point of key tile 1 or 2: the running buffers updated from what the point before left (`p`). -/
def caseB (c : Dev nD) (t : Fin cfg1.N) (h0 : ¬t.val % 4 = 0) (h1 : ¬t.val % 4 = 3) (p : Vec F S1x512x1024 .f32 × Vec F S512x1 .f32 × Vec F S512x1 .f32 × Vec F S512x1024 .f32) : Vec F S1x512x1024 .f32 × Vec F S512x1 .f32 × Vec F S512x1 .f32 × Vec F S512x1024 .f32 :=
  (outIdle1,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) p.2.1 p.2.2.1 p.2.2.2,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) p.2.1 p.2.2.1 p.2.2.2,
   sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) p.2.1 p.2.2.1 p.2.2.2)

/-- After a point of key tile 3: the running buffers updated from `p`, and the output block stored. -/
def caseC (c : Dev nD) (t : Fin cfg1.N) (h0 : ¬t.val % 4 = 0) (h1 : t.val % 4 = 3) (p : Vec F S1x512x1024 .f32 × Vec F S512x1 .f32 × Vec F S512x1 .f32 × Vec F S512x1024 .f32) : Vec F S1x512x1024 .f32 × Vec F S512x1 .f32 × Vec F S512x1 .f32 × Vec F S512x1024 .f32 :=
  (out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) p.2.1 p.2.2.1 p.2.2.2,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) p.2.1 p.2.2.1 p.2.2.2,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) p.2.1 p.2.2.1 p.2.2.2,
   sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) p.2.1 p.2.2.1 p.2.2.2)

/-- THE ACCUMULATION: what the output window's staging buffer and the three running buffers hold after the body at
    position `n`, by recursion on the position — the case the key tile selects, run at the point's blocks, continuing
    from position `n - 1` unless the key tile is 0. -/
def outsAt1 (c : Dev nD) : (n : ℕ) → n < cfg1.N → Vec F S1x512x1024 .f32 × Vec F S512x1 .f32 × Vec F S512x1 .f32 × Vec F S512x1024 .f32
  | 0, hn => caseA V c ⟨0, hn⟩ (Nat.zero_mod _) (fun h => by simp at h)
  | n + 1, hn =>
    if h0 : (n + 1) % 4 = 0 then
      if h1 : (n + 1) % 4 = 3 then False.elim (by omega)
      else caseA V c ⟨n + 1, hn⟩ h0 h1
    else
      if h1 : (n + 1) % 4 = 3 then caseC V c ⟨n + 1, hn⟩ h0 h1 (outsAt1 c n (Nat.lt_of_succ_lt hn))
      else caseB V c ⟨n + 1, hn⟩ h0 h1 (outsAt1 c n (Nat.lt_of_succ_lt hn))

theorem outsAt1_A (c : Dev nD) (t : Fin cfg1.N) (h0 : t.val % 4 = 0) (h1 : ¬t.val % 4 = 3) :
    outsAt1 V c t.val t.isLt = caseA V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = caseB V c t h0 h1 (outsAt1 V c (t.val - 1) (Nat.lt_of_le_of_lt (Nat.sub_le _ _) t.isLt)) := by
  obtain ⟨n, hn⟩ := t
  cases n with
  | zero => exact (by exfalso; exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = caseC V c t h0 h1 (outsAt1 V c (t.val - 1) (Nat.lt_of_le_of_lt (Nat.sub_le _ _) t.isLt)) := by
  obtain ⟨n, hn⟩ := t
  cases n with
  | zero => exact (by exfalso; exact absurd (Nat.zero_mod _) h0)
  | succ n => exact (dif_neg h0).trans ((dif_pos h1).trans rfl)

/-! ## The invariant carried from point to point -/

/-- Before position `n`: before the first point the class's invariant (every scratch at anything); afterwards the scoped
    rest with the three running buffers at exactly what position `n - 1` left, and the generator register at some state. -/
def PhiS (c : Dev nD) : (n : ℕ) → n ≤ cfg1.N → sProp 𝕄
  | 0, _ => Pipeline.ΦA spec1 c
  | n + 1, hn => iprop(scoped1 c (owns (c : Thread nD τ) scM1_0 fullShare (outsAt1 V c n hn).2.1) (owns (c : Thread nD τ) scM1_1 fullShare (outsAt1 V c n hn).2.2.1) (owns (c : Thread nD τ) scM1_2 fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scoped1 c (owns (c : Thread nD τ) scM1_0 fullShare (outsAt1 V c n hn).2.1) (owns (c : Thread nD τ) scM1_1 fullShare (outsAt1 V c n hn).2.2.1) (owns (c : Thread nD τ) scM1_2 fullShare (outsAt1 V c n hn).2.2.2) ∗ (∃ r, prngReg c r)) := rfl

theorem PhiS_pos (c : Dev nD) (n : ℕ) (h : n ≤ cfg1.N) (hz : n ≠ 0) :
    PhiS V c n h = iprop(scoped1 c (owns (c : Thread nD τ) scM1_0 fullShare (outsAt1 V c (n - 1) (by omega)).2.1) (owns (c : Thread nD τ) scM1_1 fullShare (outsAt1 V c (n - 1) (by omega)).2.2.1) (owns (c : Thread nD τ) scM1_2 fullShare (outsAt1 V c (n - 1) (by omega)).2.2.2) ∗ (∃ r, prngReg c r)) := by
  cases n with
  | zero => exact absurd rfl hz
  | succ n => rfl

/-! ## The proof data -/

/-- The launch's proof data on core `c`: the arrays as the region finds them; after the body at point `t` each input's
    buffer at its block and the output's at the accumulation's first component; the invariant carrying the running buffers;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 16000000 in
/-- The body at any point.  The inputs' memrefs hold their blocks; the key tile says which case the point is in; the
    invariant hands the run the three running buffers at what the point before left (at anything before the first point)
    and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 4 = 0
  · by_cases h1 : t.val % 4 = 3
    · exfalso; omega
    · -- key tile 0
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [Dat.leavesExact_idle (dat1 V c) 8 t (idleAt1_8 t (fun h => h1 ((hcond1_1 t).mp h))) (noFlush1_8 t (fun h => h1 ((hcond1_1 t).mp h)))]
      rw [outsAt1_A V c t h0 h1]
      unfold caseA sout1_A_0 sout1_A_1 sout1_A_2; (try dsimp only)
      by_cases hz : t.val = 0
      · rw [PhiS_castSucc V c t, PhiS_zero V c _ _ hz, PhiA1_eq]
        unfold scoped1
        iintro ⟨⟨⟨Hr0, Hr1, Hr2, Hr3, Hr4, Hr5, Hr6, Hr7, Hr8, Hr9, Hr10, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        isplitl [HS2]; · iexact HS2
        iintro ⟨H0, H1, H2, H3, H4, H5, H6, H7, H8, ⟨%es0, HS0⟩, ⟨%es1, HS1⟩, ⟨%es2, HS2⟩⟩
        isplitl [Hr0 Hr1 Hr2 Hr3 Hr4 Hr5 Hr6 Hr7 Hr8 Hr9 Hr10 HS0 HS1 HS2 Hg]
        · isplitl [Hr0 Hr1 Hr2 Hr3 Hr4 Hr5 Hr6 Hr7 Hr8 Hr9 Hr10 HS0 HS1 HS2]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            isplitl [Hr10]; · iexact Hr10
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [PhiS_castSucc V c t, PhiS_pos V c _ _ hz]
        unfold scoped1
        iintro ⟨⟨⟨Hr0, Hr1, Hr2, Hr3, Hr4, Hr5, Hr6, Hr7, Hr8, Hr9, Hr10, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        isplitl [HS1]; · iexists _; iexact HS1
        isplitl [HS2]; · iexists _; iexact HS2
        iintro ⟨H0, H1, H2, H3, H4, H5, H6, H7, H8, ⟨%es0, HS0⟩, ⟨%es1, HS1⟩, ⟨%es2, HS2⟩⟩
        isplitl [Hr0 Hr1 Hr2 Hr3 Hr4 Hr5 Hr6 Hr7 Hr8 Hr9 Hr10 HS0 HS1 HS2 Hg]
        · isplitl [Hr0 Hr1 Hr2 Hr3 Hr4 Hr5 Hr6 Hr7 Hr8 Hr9 Hr10 HS0 HS1 HS2]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            isplitl [Hr10]; · iexact Hr10
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
  · have hz : t.val ≠ 0 := fun h => h0 (by rw [h])
    by_cases h1 : t.val % 4 = 3
    · -- key tile 3
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t ((hcond1_1 t).mpr h1)], after1_8]
      rw [outsAt1_C V c t h0 h1]
      unfold caseC out1_C_8 sout1_C_0 sout1_C_1 sout1_C_2; (try dsimp only)
      rw [PhiS_castSucc V c t, PhiS_pos V c _ _ hz]
      unfold scoped1
      iintro ⟨⟨⟨Hr0, Hr1, Hr2, Hr3, Hr4, Hr5, Hr6, Hr7, Hr8, Hr9, Hr10, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      iintro ⟨H0, H1, H2, H3, H4, H5, H6, H7, ⟨%e8, H8⟩, ⟨%es0, HS0⟩, ⟨%es1, HS1⟩, ⟨%es2, HS2⟩⟩
      isplitl [Hr0 Hr1 Hr2 Hr3 Hr4 Hr5 Hr6 Hr7 Hr8 Hr9 Hr10 HS0 HS1 HS2 Hg]
      · isplitl [Hr0 Hr1 Hr2 Hr3 Hr4 Hr5 Hr6 Hr7 Hr8 Hr9 Hr10 HS0 HS1 HS2]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          isplitl [Hr10]; · iexact Hr10
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_C_8 c _ _ _ _ _ _ _ _ _ _ _ _ _ _ _ _ _ _ _ _ _ _ _ _ _ _ _ _ _ _ _ _ _ _ _ _ _ _)
    · -- key tile 1 or 2
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [Dat.leavesExact_idle (dat1 V c) 8 t (idleAt1_8 t (fun h => h1 ((hcond1_1 t).mp h))) (noFlush1_8 t (fun h => h1 ((hcond1_1 t).mp h)))]
      rw [outsAt1_B V c t h0 h1]
      unfold caseB sout1_B_0 sout1_B_1 sout1_B_2; (try dsimp only)
      rw [PhiS_castSucc V c t, PhiS_pos V c _ _ hz]
      unfold scoped1
      iintro ⟨⟨⟨Hr0, Hr1, Hr2, Hr3, Hr4, Hr5, Hr6, Hr7, Hr8, Hr9, Hr10, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, ⟨%es0, HS0⟩, ⟨%es1, HS1⟩, ⟨%es2, HS2⟩⟩
      isplitl [Hr0 Hr1 Hr2 Hr3 Hr4 Hr5 Hr6 Hr7 Hr8 Hr9 Hr10 HS0 HS1 HS2 Hg]
      · isplitl [Hr0 Hr1 Hr2 Hr3 Hr4 Hr5 Hr6 Hr7 Hr8 Hr9 Hr10 HS0 HS1 HS2]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          isplitl [Hr10]; · iexact Hr10
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The launch library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the running buffers' named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiS V c (Fin.last cfg1.N).val (Nat.le_of_lt_succ (Fin.last cfg1.N).isLt) from rfl, PhiS_pos V c _ _ ht, PhiA1_eq]
  unfold scoped1
  iintro ⟨⟨Hr0, Hr1, Hr2, Hr3, Hr4, Hr5, Hr6, Hr7, Hr8, Hr9, Hr10, HS0, HS1, HS2⟩, Hg⟩
  isplitl [Hr0 Hr1 Hr2 Hr3 Hr4 Hr5 Hr6 Hr7 Hr8 Hr9 Hr10 HS0 HS1 HS2]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [HS0]; · iexists _; iexact HS0
    isplitl [HS1]; · iexists _; iexact HS1
    iexists _; iexact HS2
  iexact Hg

end Region1

end Cert.KernelIdeal.Hand

end
-- ==== Proof.Run.lean ====
/-
  The whole program's run.  @main is: six host lines (five weight matrices rounded to the narrow format, the input
  flattened to rows), the projection region, four host lines (the three projections reshaped back to batches, the mask
  widened to words), the attention region.  The core's buffer contents at each of the five boundaries are a fold from
  the launch memory — a host stretch applies its operations, a region replaces its windows' arrays by what its
  write-backs leave —; the run theorem says every weakly fair execution ends with EVERY unscoped buffer at the last
  boundary's contents.  Read at the nine arguments this is the frame claim (no line and no region writes an argument);
  read at the result buffer it names the result as the attention region's output array.
-/
import proofs.«108464_j44547400794204_2_alg».proof.Proof.Region0
import proofs.«108464_j44547400794204_2_alg».proof.Proof.R1Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 5).trans (((dat1 (V3 m ρ) c).arrAt_in 5 rfl _).trans (A_eq1 (V3 m ρ) c 5))
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 7).trans (((dat1 (V3 m ρ) c).arrAt_in 7 rfl _).trans (A_eq1 (V3 m ρ) c 7))
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- The result buffer ends at the attention region's output array. -/
theorem W4_main_v11 (c : Dev nD) : W4 m ρ c (Proc.devRef .tc main_v11) = (dat1 (V3 m ρ) c).arrAt 8 cfg1.N :=
  W4_arr m ρ c 8

/-! ## The proof data family and the thread state -/

abbrev adm : (p : Fin 2) → (pcfgs (F := F) p).Adm := fun p => (cfgs p).toPCfg_adm
/-- Every pipeline's proof data, each at its region's entry contents — a literal match on the pipeline. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region over the thread state: entered with every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered with every unscoped buffer at `W3`, left at `W4`; the generator
    register and the scoped rest go into the carried invariant before the first point and come back after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V3 m ρ) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The run read at the result buffer and the nine arguments: the result is the attention region's output array, and
    every argument ends as launched. -/
theorem run_named : θ_run defs (onTc (τ := τ) (main (F := F))) ⟨m, fun _ => 0, ρ⟩ (fun r => ∀ c : Dev nD,
      r.2.mem ((c.tc : Thread nD τ).loc main_v11) = (dat1 (V3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_v11 (by decide))).trans (W4_main_v11 m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩) (run_all m ρ)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_named m ρ)

end Cert.KernelIdeal.Hand

end
-- ==== Proof.WRegion0.lean ====
/-
  The projection region (the first of the program's two kernel launches), at ANY contents `V` of the core's buffers when
  the region is entered and at any float instance.  Each of the 16 grid points reads one block of 1024 rows of the
  flattened input and the three whole weight matrices, and stores the three products — one matrix product per output,
  each rounded to the narrow format — into the three output blocks.  Stated here: a window's block at a point, what the
  body leaves in each output's staging buffer as ONE store over the blocks it loaded, the body's triple, the proof data
  of the launch (inputs keep their blocks, outputs hold the stores' values, nothing carried from point to point) and the
  body obligation at every point.
-/
import proofs.«108464_j44547400794204_2_alg».proof.Proof.Gen.Kernel.Launch
import proofs.«108464_j44547400794204_2_alg».proof.Proof.Gen.Kernel.Skeleton
import proofs.«108464_j44547400794204_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the point fetches it or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the point fetches it or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the point fetches it or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The one rectangle every access of the body goes through: the whole 1024 × 1024 buffer. -/
abbrev rQ : Rect S1024x1024 := Rect.unit (s := S1024x1024) ![0, 0] S1024x1024.size inb_S1024x1024_S1024x1024_0_0

/-- What the body leaves in the staging buffer of each of the three outputs: one store of the whole block, the product
    of the rounded input block with that output's weight matrix. -/
def out0_4 (x0 : Vec F S1024x1024 .f32) (x1 : Vec F S1024x1024 .bf16) : Vec F S1024x1024 .bf16 :=
  View.canon [⟨rQ, k0_pay2 (View.ld x0 rQ) (View.ld x1 rQ)⟩]
def out0_5 (x0 : Vec F S1024x1024 .f32) (x2 : Vec F S1024x1024 .bf16) : Vec F S1024x1024 .bf16 :=
  View.canon [⟨rQ, k0_pay3 (View.ld x0 rQ) (View.ld x2 rQ)⟩]
def out0_6 (x0 : Vec F S1024x1024 .f32) (x3 : Vec F S1024x1024 .bf16) : Vec F S1024x1024 .bf16 :=
  View.canon [⟨rQ, k0_pay4 (View.ld x0 rQ) (View.ld x3 rQ)⟩]

/-- One store of the whole buffer covers it. -/
theorem coverQ (p0 : Vec F S1024x1024 .bf16) (y : S1024x1024.Idx) :
    ∃ pc ∈ ([⟨rQ, p0⟩] : List (View.Piece (Elt F) S1024x1024 .bf16)), y ∈ pc.1.set :=
  View.cover_of_tiled [⟨rQ, p0⟩] S1024x1024.size (by rfl) y

set_option maxHeartbeats 4000000 in
/-- The body on whole staging memrefs — the four inputs at their contents, the three outputs at anything — runs to the
    continuation with the inputs as they were and each output holding its one store. -/
theorem sound_kernel0 (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (arg7 : Memref sig .tc .vmem S1024x1024 .bf16) (harg7 : arg7.IsWhole)
    (x0 : Vec F S1024x1024 .f32) (x1 x2 x3 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x2) ∗ owns (c : Thread nD τ) arg7 fullShare (out0_6 x0 x3)) -∗ K ⟨⟩))
      ⊢ wp frame (wpE (defs₀ (F := F)) Variants.none c none) E (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverQ _)
  isplitl [H5]
  · iexists _; isplitr
    swap; · iexact H5
    ipureintro
    exact View.read_writes_eq_canon _ _ _ (coverQ _)
  iexists _; isplitr
  swap; · iexact H6
  ipureintro
  exact View.read_writes_eq_canon _ _ _ (coverQ _)

/-- The launch's proof data on core `c`: the arrays as the region finds them; after the body at point `t` each input's
    buffer at its block and each output's at its one store over the input blocks; nothing named from point to point
    (the scoped rest and the generator register pass through); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.WR1Shared.lean ====
/-
  The attention region (the second kernel launch): what its three body runs are stated over.  The grid is
  8 batches × 4 query tiles × 4 key tiles, the key tile innermost, so a point's position mod 4 is its key tile.  The body
  branches twice on the key tile: at key tile 0 it resets the three running buffers (row maximum, row sum of exponentials,
  weighted value sum); at key tile 3 it normalises, applies the feed-forward layer and stores the output block.  Here: the
  two conditions decided over the grid, where the output window is idle and where it is written back, a window's block at
  a point, the staging and scratch memrefs by name, and the region's scoped rest with the three scratch buffers split out.
-/
import proofs.«108464_j44547400794204_2_alg».proof.Proof.Gen.Kernel.Launch
import proofs.«108464_j44547400794204_2_alg».proof.Proof.Gen.Kernel.Skeleton
import proofs.«108464_j44547400794204_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetches it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the point fetches it or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the point fetches it or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the point fetches it or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the point fetches it or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether the point fetches it or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether the point fetches it or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, whether the point fetches it or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two branch conditions -/

/-- "This is key tile 0": the reset of the running buffers is taken. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is key tile 3": the normalisation, the feed-forward layer and the output store are taken. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
/-- Away from key tile 3 the output window is idle (the body stores nothing into it) and is not written back. -/
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
/-- At key tile 3 it is live. -/
theorem liveAt1_8 : ∀ t : Fin cfg1.N, cond1_1 (grid1.coords t) → cfg1.idle 8 (grid1.coords t) = false := by decide +kernel

/-! ## The memrefs the body is called with -/

/-- One staging buffer of the output window, through which its contents are stated. -/
abbrev VO1_8 : View sig .tc .vmem S1x512x1024 .f32 := (Memref.whole cc1_stg8_0 : Memref sig .tc .vmem S1x512x1024 .f32).view
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x4096 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4096 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S4096x1024 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x512x1024 .f32 := win1_8.stage (cfg1.slots t 8)
abbrev hs1_8 (t : Fin cfg1.N) : (ms1_8 t).IsWhole := hstage1_8 ((cfg1.slots t 8).cast nbuf1_8)
/-- The three scratch operands: whole scoped buffers of the kernel's own — the running row maximum, the running row sum
    and the running weighted value sum. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev VS1_0 : View sig .tc .vmem S512x1 .f32 := scM1_0.view
abbrev VS1_1 : View sig .tc .vmem S512x1 .f32 := scM1_1.view
abbrev VS1_2 : View sig .tc .vmem S512x1024 .f32 := scM1_2.view

/-- The region's scoped buffers no window stages, as one chain: the first launch's eleven staging buffers, each whole at
    some contents and untouched here, then the three scratch operands in whatever state `P0 P1 P2` describe. -/
def scoped1 (c : Dev nD) (P0 P1 P2 : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ P0 ∗ P1 ∗ P2)

/-- The class invariant (the scoped rest and the generator register) with the scratch operands as memrefs owned at
    some contents: what the body obligation hands a run before the first point. -/
theorem PhiA1_eq (c : Dev nD) :
    (Pipeline.ΦA spec1 c : sProp 𝕄)
      = iprop(scoped1 c iprop(∃ d, owns (c : Thread nD τ) scM1_0 fullShare d) iprop(∃ d, owns (c : Thread nD τ) scM1_1 fullShare d) iprop(∃ d, owns (c : Thread nD τ) scM1_2 fullShare d) ∗ (∃ r, prngReg c r)) := by
  unfold Pipeline.ΦA scoped1; rw [scopedRest1_eq]; simp only [scM1_0, scM1_1, scM1_2, owns_whole]; try rfl

end Cert.Kernel.Hand

end
-- ==== Proof.WR1RunA.lean ====
/-
  The attention body at a point of key tile 0 (the reset is taken, the epilogue is not), run on whole memrefs: the
  eight inputs at their contents, the output buffer at any contents (it is not touched), the three running buffers at
  anything (they are reset before they are read).  The run ends with the inputs and the output as they were and each
  running buffer holding the pieces the run's stores wrote — the pieces are found by the symbolic run itself.
-/
import proofs.«108464_j44547400794204_2_alg».proof.Proof.WR1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) :
    Σ' (LS0 : List (View.Piece (Elt F) S512x1 .f32)) (LS1 : List (View.Piece (Elt F) S512x1 .f32)), { LS2 : List (View.Piece (Elt F) S512x1024 .f32) //
      ∀ (xi8 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc1__attn_ffn_kernel i arg3 harg3 arg4 harg4 arg5 harg5 arg6 harg6 arg7 harg7 arg8 harg8 arg9 harg9 arg10 harg10 arg11 harg11 arg12 harg12 arg13 harg13 arg14 harg14) K } := by
  refine ⟨?_, ?_, ?_, fun xi8 E K => ?run⟩
  case run =>
    simp only [cc1__attn_ffn_kernel_eq_skeleton]; unfold cc1__attn_ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    obtain rfl := harg11.eq_unread hf8
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [HS0]; · iexists _; iexact HS0
    isplitl [HS1]; · iexists _; iexact HS1
    iexists _; iexact HS2

end Cert.Kernel.Hand

end
-- ==== Proof.WR1RunB.lean ====
/-
  The attention body at a point of key tile 1 or 2 (neither branch taken), run on whole memrefs: the eight inputs at
  their contents, the output buffer at any contents (untouched), the three running buffers at what the point before left.
  The run ends with the inputs and the output as they were and each running buffer holding the pieces the run's stores
  wrote — found by the symbolic run itself.
-/
import proofs.«108464_j44547400794204_2_alg».proof.Proof.WR1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) :
    Σ' (LS0 : List (View.Piece (Elt F) S512x1 .f32)) (LS1 : List (View.Piece (Elt F) S512x1 .f32)), { LS2 : List (View.Piece (Elt F) S512x1024 .f32) //
      ∀ (xi8 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ owns (c : Thread nD τ) arg12 fullShare xs0 ∗ owns (c : Thread nD τ) arg13 fullShare xs1 ∗ owns (c : Thread nD τ) arg14 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc1__attn_ffn_kernel i arg3 harg3 arg4 harg4 arg5 harg5 arg6 harg6 arg7 harg7 arg8 harg8 arg9 harg9 arg10 harg10 arg11 harg11 arg12 harg12 arg13 harg13 arg14 harg14) K } := by
  refine ⟨?_, ?_, ?_, fun xi8 E K => ?run⟩
  case run =>
    simp only [cc1__attn_ffn_kernel_eq_skeleton]; unfold cc1__attn_ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [HS0]; · iexists _; iexact HS0
    isplitl [HS1]; · iexists _; iexact HS1
    iexists _; iexact HS2

end Cert.Kernel.Hand

end
-- ==== Proof.WR1RunC.lean ====
/-
  The attention body at a point of key tile 3 (no reset; the epilogue is taken), run on whole memrefs: the eight inputs at
  their contents, the output buffer at anything, the three running buffers at what the point before left.  The run ends
  with the inputs as they were, the output buffer holding the one stored block, and each running buffer holding the
  pieces the run's stores wrote — found by the symbolic run itself.
-/
import proofs.«108464_j44547400794204_2_alg».proof.Proof.WR1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun1_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) :
    Σ' (L8 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs0 ∗ owns (c : Thread nD τ) arg13 fullShare xs1 ∗ owns (c : Thread nD τ) arg14 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc1__attn_ffn_kernel i arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc1__attn_ffn_kernel_eq_skeleton]; unfold cc1__attn_ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [HS0]; · iexists _; iexact HS0
    isplitl [HS1]; · iexists _; iexact HS1
    iexists _; iexact HS2

end Cert.Kernel.Hand

end
-- ==== Proof.WR1Frame.lean ====
/-
  The attention region's launch data.  What each of the body's three cases leaves in the output block and in the three
  running buffers (the pieces its run found, read back), the accumulation of these over the 128 grid points — key tile 0
  starts afresh, key tiles 1–3 continue from what the point before left —, the region invariant that carries the three
  running buffers from each point to the next at exactly those contents, the proof data, and the body obligation at every
  point (a case split on the key tile, each leaf that case's run).
-/
import proofs.«108464_j44547400794204_2_alg».proof.Proof.WR1RunA
import proofs.«108464_j44547400794204_2_alg».proof.Proof.WR1RunB
import proofs.«108464_j44547400794204_2_alg».proof.Proof.WR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A's pieces for scratch 0 tile it, so they cover it. -/
theorem scover1_A_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (y : S512x1.Idx) :
    ∃ pc ∈ (kernelRun1_A c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1, y ∈ pc.1.set :=
  View.cover_of_tiledL (kernelRun1_A c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1 S512x1.size (by sl_kernel_rfl) y

/-- What case A leaves in scratch 0: its pieces read back. -/
def sout1_A_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) : Vec F S512x1 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1)

/-- Case A's pieces for scratch 1 tile it, so they cover it. -/
theorem scover1_A_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (y : S512x1.Idx) :
    ∃ pc ∈ (kernelRun1_A c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1, y ∈ pc.1.set :=
  View.cover_of_tiledL (kernelRun1_A c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1 S512x1.size (by sl_kernel_rfl) y

/-- What case A leaves in scratch 1: its pieces read back. -/
def sout1_A_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) : Vec F S512x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1)

/-- Case A's pieces for scratch 2 tile it, so they cover it. -/
theorem scover1_A_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (y : S512x1024.Idx) :
    ∃ pc ∈ (kernelRun1_A c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1, y ∈ pc.1.set :=
  View.cover_of_tiledL (kernelRun1_A c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1 S512x1024.size (by sl_kernel_rfl) y

/-- What case A leaves in scratch 2: its pieces read back. -/
def sout1_A_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) : Vec F S512x1024 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1)

/-- Case B's pieces for scratch 0 tile it, so they cover it. -/
theorem scover1_B_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) (y : S512x1.Idx) :
    ∃ pc ∈ (kernelRun1_B c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).1, y ∈ pc.1.set :=
  View.cover_of_tiledL (kernelRun1_B c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).1 S512x1.size (by sl_kernel_rfl) y

/-- What case B leaves in scratch 0: its pieces read back. -/
def sout1_B_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) : Vec F S512x1 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).1)

/-- Case B's pieces for scratch 1 tile it, so they cover it. -/
theorem scover1_B_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) (y : S512x1.Idx) :
    ∃ pc ∈ (kernelRun1_B c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.1, y ∈ pc.1.set :=
  View.cover_of_tiledL (kernelRun1_B c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.1 S512x1.size (by sl_kernel_rfl) y

/-- What case B leaves in scratch 1: its pieces read back. -/
def sout1_B_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) : Vec F S512x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.1)

/-- Case B's pieces for scratch 2 tile it, so they cover it. -/
theorem scover1_B_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) (y : S512x1024.Idx) :
    ∃ pc ∈ (kernelRun1_B c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.2.1, y ∈ pc.1.set :=
  View.cover_of_tiledL (kernelRun1_B c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.2.1 S512x1024.size (by sl_kernel_rfl) y

/-- What case B leaves in scratch 2: its pieces read back. -/
def sout1_B_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) : Vec F S512x1024 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.2.1)

/-- Case C's one store into the output block covers it. -/
theorem cover1_C_8 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) (y : S1x512x1024.Idx) :
    ∃ pc ∈ (kernelRun1_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).1, y ∈ pc.1.set :=
  View.cover_of_tiledL (kernelRun1_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).1 S1x512x1024.size (by sl_kernel_rfl) y

/-- What case C leaves in the output window's staging buffer: its store read back. -/
def out1_C_8 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) : Vec F S1x512x1024 .f32 :=
  VO1_8.read (Elt F) (VO1_8.writes (Elt F) VO1_8.junk (kernelRun1_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).1)

/-- Case C's pieces for scratch 0 tile it, so they cover it. -/
theorem scover1_C_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) (y : S512x1.Idx) :
    ∃ pc ∈ (kernelRun1_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.1, y ∈ pc.1.set :=
  View.cover_of_tiledL (kernelRun1_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.1 S512x1.size (by sl_kernel_rfl) y

/-- What case C leaves in scratch 0: its pieces read back. -/
def sout1_C_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) : Vec F S512x1 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.1)

/-- Case C's pieces for scratch 1 tile it, so they cover it. -/
theorem scover1_C_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) (y : S512x1.Idx) :
    ∃ pc ∈ (kernelRun1_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.2.1, y ∈ pc.1.set :=
  View.cover_of_tiledL (kernelRun1_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.2.1 S512x1.size (by sl_kernel_rfl) y

/-- What case C leaves in scratch 1: its pieces read back. -/
def sout1_C_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) : Vec F S512x1 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.2.1)

/-- Case C's pieces for scratch 2 tile it, so they cover it. -/
theorem scover1_C_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) (y : S512x1024.Idx) :
    ∃ pc ∈ (kernelRun1_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.2.2.1, y ∈ pc.1.set :=
  View.cover_of_tiledL (kernelRun1_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.2.2.1 S512x1024.size (by sl_kernel_rfl) y

/-- What case C leaves in scratch 2: its pieces read back. -/
def sout1_C_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) : Vec F S512x1024 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2).2.2.2.1)

/-- The output block's staging buffer at a point whose case stores nothing into it: a placeholder nothing consults (the
    window is idle there: neither written back nor read at the next point). -/
def outIdle1 : Vec F S1x512x1024 .f32 := VO1_8.read (Elt F) VO1_8.junk

section Region1

variable (V : (c : Dev nD) → (b : Ref sig .tc) → Buf (Elt F) ((c : Thread nD τ).loc b))

/-! ## The accumulation over the grid -/

/-- After a point of key tile 0: the running buffers hold what the reset and the first update leave; nothing earlier matters. -/
def caseA (c : Dev nD) (t : Fin cfg1.N) (h0 : t.val % 4 = 0) (h1 : ¬t.val % 4 = 3) : Vec F S1x512x1024 .f32 × Vec F S512x1 .f32 × Vec F S512x1 .f32 × Vec F S512x1024 .f32 :=
  (outIdle1,
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t),
   sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t))

/-- After a point of key tile 1 or 2: the running buffers updated from what the point before left (`p`). -/
def caseB (c : Dev nD) (t : Fin cfg1.N) (h0 : ¬t.val % 4 = 0) (h1 : ¬t.val % 4 = 3) (p : Vec F S1x512x1024 .f32 × Vec F S512x1 .f32 × Vec F S512x1 .f32 × Vec F S512x1024 .f32) : Vec F S1x512x1024 .f32 × Vec F S512x1 .f32 × Vec F S512x1 .f32 × Vec F S512x1024 .f32 :=
  (outIdle1,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) p.2.1 p.2.2.1 p.2.2.2,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) p.2.1 p.2.2.1 p.2.2.2,
   sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) p.2.1 p.2.2.1 p.2.2.2)

/-- After a point of key tile 3: the running buffers updated from `p`, and the output block stored. -/
def caseC (c : Dev nD) (t : Fin cfg1.N) (h0 : ¬t.val % 4 = 0) (h1 : t.val % 4 = 3) (p : Vec F S1x512x1024 .f32 × Vec F S512x1 .f32 × Vec F S512x1 .f32 × Vec F S512x1024 .f32) : Vec F S1x512x1024 .f32 × Vec F S512x1 .f32 × Vec F S512x1 .f32 × Vec F S512x1024 .f32 :=
  (out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) p.2.1 p.2.2.1 p.2.2.2,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) p.2.1 p.2.2.1 p.2.2.2,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) p.2.1 p.2.2.1 p.2.2.2,
   sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) p.2.1 p.2.2.1 p.2.2.2)

/-- THE ACCUMULATION: what the output window's staging buffer and the three running buffers hold after the body at
    position `n`, by recursion on the position — the case the key tile selects, run at the point's blocks, continuing
    from position `n - 1` unless the key tile is 0. -/
def outsAt1 (c : Dev nD) : (n : ℕ) → n < cfg1.N → Vec F S1x512x1024 .f32 × Vec F S512x1 .f32 × Vec F S512x1 .f32 × Vec F S512x1024 .f32
  | 0, hn => caseA V c ⟨0, hn⟩ (Nat.zero_mod _) (fun h => by simp at h)
  | n + 1, hn =>
    if h0 : (n + 1) % 4 = 0 then
      if h1 : (n + 1) % 4 = 3 then False.elim (by omega)
      else caseA V c ⟨n + 1, hn⟩ h0 h1
    else
      if h1 : (n + 1) % 4 = 3 then caseC V c ⟨n + 1, hn⟩ h0 h1 (outsAt1 c n (Nat.lt_of_succ_lt hn))
      else caseB V c ⟨n + 1, hn⟩ h0 h1 (outsAt1 c n (Nat.lt_of_succ_lt hn))

theorem outsAt1_A (c : Dev nD) (t : Fin cfg1.N) (h0 : t.val % 4 = 0) (h1 : ¬t.val % 4 = 3) :
    outsAt1 V c t.val t.isLt = caseA V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = caseB V c t h0 h1 (outsAt1 V c (t.val - 1) (Nat.lt_of_le_of_lt (Nat.sub_le _ _) t.isLt)) := by
  obtain ⟨n, hn⟩ := t
  cases n with
  | zero => exact (by exfalso; exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = caseC V c t h0 h1 (outsAt1 V c (t.val - 1) (Nat.lt_of_le_of_lt (Nat.sub_le _ _) t.isLt)) := by
  obtain ⟨n, hn⟩ := t
  cases n with
  | zero => exact (by exfalso; exact absurd (Nat.zero_mod _) h0)
  | succ n => exact (dif_neg h0).trans ((dif_pos h1).trans rfl)

/-! ## The invariant carried from point to point -/

/-- Before position `n`: before the first point the class's invariant (every scratch at anything); afterwards the scoped
    rest with the three running buffers at exactly what position `n - 1` left, and the generator register at some state. -/
def PhiS (c : Dev nD) : (n : ℕ) → n ≤ cfg1.N → sProp 𝕄
  | 0, _ => Pipeline.ΦA spec1 c
  | n + 1, hn => iprop(scoped1 c (owns (c : Thread nD τ) scM1_0 fullShare (outsAt1 V c n hn).2.1) (owns (c : Thread nD τ) scM1_1 fullShare (outsAt1 V c n hn).2.2.1) (owns (c : Thread nD τ) scM1_2 fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scoped1 c (owns (c : Thread nD τ) scM1_0 fullShare (outsAt1 V c n hn).2.1) (owns (c : Thread nD τ) scM1_1 fullShare (outsAt1 V c n hn).2.2.1) (owns (c : Thread nD τ) scM1_2 fullShare (outsAt1 V c n hn).2.2.2) ∗ (∃ r, prngReg c r)) := rfl

theorem PhiS_pos (c : Dev nD) (n : ℕ) (h : n ≤ cfg1.N) (hz : n ≠ 0) :
    PhiS V c n h = iprop(scoped1 c (owns (c : Thread nD τ) scM1_0 fullShare (outsAt1 V c (n - 1) (by omega)).2.1) (owns (c : Thread nD τ) scM1_1 fullShare (outsAt1 V c (n - 1) (by omega)).2.2.1) (owns (c : Thread nD τ) scM1_2 fullShare (outsAt1 V c (n - 1) (by omega)).2.2.2) ∗ (∃ r, prngReg c r)) := by
  cases n with
  | zero => exact absurd rfl hz
  | succ n => rfl

/-! ## The proof data -/

/-- The launch's proof data on core `c`: the arrays as the region finds them; after the body at point `t` each input's
    buffer at its block and the output's at the accumulation's first component; the invariant carrying the running buffers;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 16000000 in
/-- The body at any point.  The inputs' memrefs hold their blocks; the key tile says which case the point is in; the
    invariant hands the run the three running buffers at what the point before left (at anything before the first point)
    and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 4 = 0
  · by_cases h1 : t.val % 4 = 3
    · exfalso; omega
    · -- key tile 0
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [Dat.leavesExact_idle (dat1 V c) 8 t (idleAt1_8 t (fun h => h1 ((hcond1_1 t).mp h))) (noFlush1_8 t (fun h => h1 ((hcond1_1 t).mp h)))]
      rw [outsAt1_A V c t h0 h1]
      unfold caseA sout1_A_0 sout1_A_1 sout1_A_2; (try dsimp only)
      by_cases hz : t.val = 0
      · rw [PhiS_castSucc V c t, PhiS_zero V c _ _ hz, PhiA1_eq]
        unfold scoped1
        iintro ⟨⟨⟨Hr0, Hr1, Hr2, Hr3, Hr4, Hr5, Hr6, Hr7, Hr8, Hr9, Hr10, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        isplitl [HS2]; · iexact HS2
        iintro ⟨H0, H1, H2, H3, H4, H5, H6, H7, H8, ⟨%es0, HS0⟩, ⟨%es1, HS1⟩, ⟨%es2, HS2⟩⟩
        isplitl [Hr0 Hr1 Hr2 Hr3 Hr4 Hr5 Hr6 Hr7 Hr8 Hr9 Hr10 HS0 HS1 HS2 Hg]
        · isplitl [Hr0 Hr1 Hr2 Hr3 Hr4 Hr5 Hr6 Hr7 Hr8 Hr9 Hr10 HS0 HS1 HS2]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            isplitl [Hr10]; · iexact Hr10
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [PhiS_castSucc V c t, PhiS_pos V c _ _ hz]
        unfold scoped1
        iintro ⟨⟨⟨Hr0, Hr1, Hr2, Hr3, Hr4, Hr5, Hr6, Hr7, Hr8, Hr9, Hr10, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        isplitl [HS1]; · iexists _; iexact HS1
        isplitl [HS2]; · iexists _; iexact HS2
        iintro ⟨H0, H1, H2, H3, H4, H5, H6, H7, H8, ⟨%es0, HS0⟩, ⟨%es1, HS1⟩, ⟨%es2, HS2⟩⟩
        isplitl [Hr0 Hr1 Hr2 Hr3 Hr4 Hr5 Hr6 Hr7 Hr8 Hr9 Hr10 HS0 HS1 HS2 Hg]
        · isplitl [Hr0 Hr1 Hr2 Hr3 Hr4 Hr5 Hr6 Hr7 Hr8 Hr9 Hr10 HS0 HS1 HS2]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            isplitl [Hr10]; · iexact Hr10
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
  · have hz : t.val ≠ 0 := fun h => h0 (by rw [h])
    by_cases h1 : t.val % 4 = 3
    · -- key tile 3
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t ((hcond1_1 t).mpr h1)], after1_8]
      rw [outsAt1_C V c t h0 h1]
      unfold caseC out1_C_8 sout1_C_0 sout1_C_1 sout1_C_2; (try dsimp only)
      rw [PhiS_castSucc V c t, PhiS_pos V c _ _ hz]
      unfold scoped1
      iintro ⟨⟨⟨Hr0, Hr1, Hr2, Hr3, Hr4, Hr5, Hr6, Hr7, Hr8, Hr9, Hr10, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      iintro ⟨H0, H1, H2, H3, H4, H5, H6, H7, ⟨%e8, H8⟩, ⟨%es0, HS0⟩, ⟨%es1, HS1⟩, ⟨%es2, HS2⟩⟩
      isplitl [Hr0 Hr1 Hr2 Hr3 Hr4 Hr5 Hr6 Hr7 Hr8 Hr9 Hr10 HS0 HS1 HS2 Hg]
      · isplitl [Hr0 Hr1 Hr2 Hr3 Hr4 Hr5 Hr6 Hr7 Hr8 Hr9 Hr10 HS0 HS1 HS2]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          isplitl [Hr10]; · iexact Hr10
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_C_8 c _ _ _ _ _ _ _ _ _ _ _ _ _ _ _ _ _ _ _ _ _ _ _ _ _ _ _ _ _ _ _ _ _ _ _ _ _ _)
    · -- key tile 1 or 2
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [Dat.leavesExact_idle (dat1 V c) 8 t (idleAt1_8 t (fun h => h1 ((hcond1_1 t).mp h))) (noFlush1_8 t (fun h => h1 ((hcond1_1 t).mp h)))]
      rw [outsAt1_B V c t h0 h1]
      unfold caseB sout1_B_0 sout1_B_1 sout1_B_2; (try dsimp only)
      rw [PhiS_castSucc V c t, PhiS_pos V c _ _ hz]
      unfold scoped1
      iintro ⟨⟨⟨Hr0, Hr1, Hr2, Hr3, Hr4, Hr5, Hr6, Hr7, Hr8, Hr9, Hr10, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, ⟨%es0, HS0⟩, ⟨%es1, HS1⟩, ⟨%es2, HS2⟩⟩
      isplitl [Hr0 Hr1 Hr2 Hr3 Hr4 Hr5 Hr6 Hr7 Hr8 Hr9 Hr10 HS0 HS1 HS2 Hg]
      · isplitl [Hr0 Hr1 Hr2 Hr3 Hr4 Hr5 Hr6 Hr7 Hr8 Hr9 Hr10 HS0 HS1 HS2]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          isplitl [Hr10]; · iexact Hr10
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The launch library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the running buffers' named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiS V c (Fin.last cfg1.N).val (Nat.le_of_lt_succ (Fin.last cfg1.N).isLt) from rfl, PhiS_pos V c _ _ ht, PhiA1_eq]
  unfold scoped1
  iintro ⟨⟨Hr0, Hr1, Hr2, Hr3, Hr4, Hr5, Hr6, Hr7, Hr8, Hr9, Hr10, HS0, HS1, HS2⟩, Hg⟩
  isplitl [Hr0 Hr1 Hr2 Hr3 Hr4 Hr5 Hr6 Hr7 Hr8 Hr9 Hr10 HS0 HS1 HS2]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [HS0]; · iexists _; iexact HS0
    isplitl [HS1]; · iexists _; iexact HS1
    iexists _; iexact HS2
  iexact Hg

end Region1

end Cert.Kernel.Hand

end
-- ==== Proof.WRun.lean ====
/-
  The whole program's run.  @main is: six host lines (five weight matrices rounded to the narrow format, the input
  flattened to rows), the projection region, four host lines (the three projections reshaped back to batches, the mask
  widened to words), the attention region.  The core's buffer contents at each of the five boundaries are a fold from
  the launch memory — a host stretch applies its operations, a region replaces its windows' arrays by what its
  write-backs leave —; the run theorem says every weakly fair execution ends with EVERY unscoped buffer at the last
  boundary's contents.  Read at the nine arguments this is the frame claim (no line and no region writes an argument);
  read at the result buffer it names the result as the attention region's output array.
-/
import proofs.«108464_j44547400794204_2_alg».proof.Proof.WRegion0
import proofs.«108464_j44547400794204_2_alg».proof.Proof.WR1Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 5).trans (((dat1 (V3 m ρ) c).arrAt_in 5 rfl _).trans (A_eq1 (V3 m ρ) c 5))
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 7).trans (((dat1 (V3 m ρ) c).arrAt_in 7 rfl _).trans (A_eq1 (V3 m ρ) c 7))
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- The result buffer ends at the attention region's output array. -/
theorem W4_main_v11 (c : Dev nD) : W4 m ρ c (Proc.devRef .tc main_v11) = (dat1 (V3 m ρ) c).arrAt 8 cfg1.N :=
  W4_arr m ρ c 8

/-! ## The proof data family and the thread state -/

abbrev adm : (p : Fin 2) → (pcfgs (F := F) p).Adm := fun p => (cfgs p).toPCfg_adm
/-- Every pipeline's proof data, each at its region's entry contents — a literal match on the pipeline. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region over the thread state: entered with every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered with every unscoped buffer at `W3`, left at `W4`; the generator
    register and the scoped rest go into the carried invariant before the first point and come back after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V3 m ρ) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The run read at the result buffer and the nine arguments: the result is the attention region's output array, and
    every argument ends as launched. -/
theorem run_named : θ_run defs (onTc (τ := τ) (main (F := F))) ⟨m, fun _ => 0, ρ⟩ (fun r => ∀ c : Dev nD,
      r.2.mem ((c.tc : Thread nD τ).loc main_v11) = (dat1 (V3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_v11 (by decide))).trans (W4_main_v11 m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩) (run_all m ρ)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_named m ρ)

end Cert.Kernel.Hand

end
-- ==== Proof.Frames.lean ====
/-
  Four of the certificate's five claims.  Each kernel program's frame — every weakly fair execution ends, nothing faults,
  the nine argument arrays end as launched — is the whole-program run read at the arguments, at the word-level instance for
  the program as printed and at the extended reals for its idealization.  The reference has no kernel: its frame is its
  run with the result dropped.  The idealization rewrote nothing, so there is nothing to preserve.
-/
import proofs.«108464_j44547400794204_2_alg».proof.Defs
import proofs.«108464_j44547400794204_2_alg».proof.Proof.Run
import proofs.«108464_j44547400794204_2_alg».proof.Proof.WRun
import proofs.«108464_j44547400794204_2_alg».proof.Proof.Gen.ReferenceIdeal.Run
import proofs.«108464_j44547400794204_2_alg».proof.Proof.Gen.Pre_finite_inputs

noncomputable section

namespace Cert.Proof.Claims

open Idealize.ShloMosaic Idealize.ShloMosaic.TcCoe Idealize.SL.Sem

theorem frame_p : Cert.frame_Kernel := fun m ρ _ => Cert.Kernel.Hand.frame (F := Bits) m ρ

theorem frame_pi : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

end Cert.Proof.Claims

end
-- ==== Proof.LibColumn.lean ====
/-
  Column-shaped layout operations read at an index: a column [a, 1] flattened to [a] and back, a column
  broadcast along its rows to [a, b], and a lane reduction of an [a, b] array read at a row as a sum or a
  maximum over the row. Each says which single element (or which row) of the operand an element of the result reads.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnIdx

open Idealize.ShloMosaic ValueIdx

variable {α : Type}

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of an `[a, b]` array (a `multi_reduction <add>` over axis 1 from the zero word), read at row `p`
    at the ideal instance: the sum of the row. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (funext fun ax => Fin.ext (by
      match ax with
      | ⟨0, _⟩ => rfl
      | ⟨1, _⟩ => rfl)))

/-- A lane maximum of an `[a, b]` array (a `multi_reduction <maximumf>` over axis 1 from the word of -∞), read at row
    `p` at the ideal instance: the fold of `max` over the row, from -∞. -/
theorem rowMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src _ h hφ hacc (ix1 p)).trans
    (congrArg ((Finset.univ : Finset (Fin b)).fold max (Ideal.ofBits .f32 0xFF800000#32)) (funext fun k =>
      congrArg src (funext fun ax => Fin.ext (by
        match ax with
        | ⟨0, _⟩ => rfl
        | ⟨1, _⟩ => rfl))))

/-- Seven columns `[a, 1]` joined side by side into `[a, 7]`: entry `(p, k)` is column `k`'s entry of row `p`. -/
theorem concat7_apply {a : ℕ} (x0 x1 x2 x3 x4 x5 x6 : (⟨2, ![a, 1]⟩ : Shape).Idx → α)
    (h : Shape.Concatenates (([⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] : List ((s : Shape) × (s.Idx → α))).map (·.1)) ⟨2, ![a, 7]⟩ 1)
    (p : Fin a) (k : Fin 7) :
    concatenate ⟨2, ![a, 7]⟩ 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] h (ix2 p k) = (![x0, x1, x2, x3, x4, x5, x6] k) (ix2 p (0 : Fin 1)) := by
  have hi : ∀ (n : Fin 7) (b : Fin (⟨2, ![a, 1]⟩ : Shape).rank), b.cast (rfl : (2 : ℕ) = 2) ≠ (1 : Fin 2) →
      ((ix2 p (0 : Fin 1) : (⟨2, ![a, 1]⟩ : Shape).Idx) b).val = ((ix2 p n : (⟨2, ![a, 7]⟩ : Shape).Idx) (b.cast rfl)).val := by
    intro n b hb
    match b with
    | ⟨0, _⟩ => rfl
    | ⟨1, _⟩ => exact absurd rfl hb
  match k with
  | ⟨0, _⟩ => exact concatenate_apply_piece 1 _ h _ 0 (by simp) _ x0 rfl rfl 0 rfl (ix2 p (0 : Fin 1)) (hi 0) rfl
  | ⟨1, _⟩ => exact concatenate_apply_piece 1 _ h _ 1 (by simp) _ x1 rfl rfl 1 rfl (ix2 p (0 : Fin 1)) (hi 1) rfl
  | ⟨2, _⟩ => exact concatenate_apply_piece 1 _ h _ 2 (by simp) _ x2 rfl rfl 2 rfl (ix2 p (0 : Fin 1)) (hi 2) rfl
  | ⟨3, _⟩ => exact concatenate_apply_piece 1 _ h _ 3 (by simp) _ x3 rfl rfl 3 rfl (ix2 p (0 : Fin 1)) (hi 3) rfl
  | ⟨4, _⟩ => exact concatenate_apply_piece 1 _ h _ 4 (by simp) _ x4 rfl rfl 4 rfl (ix2 p (0 : Fin 1)) (hi 4) rfl
  | ⟨5, _⟩ => exact concatenate_apply_piece 1 _ h _ 5 (by simp) _ x5 rfl rfl 5 rfl (ix2 p (0 : Fin 1)) (hi 5) rfl
  | ⟨6, _⟩ => exact concatenate_apply_piece 1 _ h _ 6 (by simp) _ x6 rfl rfl 6 rfl (ix2 p (0 : Fin 1)) (hi 6) rfl

end Idealize.ShloMosaic.ColumnIdx

end
-- ==== Proof.LibPlainProduct.lean ====
import Idealize.ShloMosaic.Lib.StackMember
import Idealize.ShloMosaic.Lib.IdealHost
import Idealize.ShloMosaic.Lib.Pipeline.Value

/-!
# Plain matrix products, a transpose, and the logistic function spelled out, read at an index over the extended reals

A dot-dimensions record that contracts the first operand's second axis with the second operand's first axis and has
no batch axis is the plain product of an `m × k` by a `k × n` matrix, whatever proof of well-formedness it carries.
For such a record the host's `dot_general` at `(a, b)` is the sum over the contracted coordinate `c` of
`A (a, c) * B (c, b)`, and a kernel's `matmul` into an accumulator is the accumulator's entry plus that sum. A transposed
matrix at `(a, b)` is the matrix at `(b, a)`. And the reference's expansion of the logistic function into negate,
exponential, add and divide, with its two ones broadcast from a scalar constant, is `Ideal.logistic` of the element.
-/

namespace PlainProduct

open Idealize.ShloMosaic Idealize.ShloMosaic.ValueIdx

/-- The host's product, for any record that is the plain one. -/
theorem dotGeneral_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into an accumulator, for any record that is the plain one: the accumulator's entry plus the
    sum. -/
theorem matmul_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (acc : FVec Ideal ⟨2, ![m, n]⟩ .f32) (a : Fin m) (b : Fin n) :
    matmul d prec A B acc (ix2 a b) = acc (ix2 a b) + ∑ c : Fin k, A (ix2 a c) * B (ix2 c b) := by
  have h := dotGeneral_at d hd prec A B a b
  show FloatOps.matmul d prec A B acc (ix2 a b) = _
  rw [Ideal.matmul_apply]
  refine congrArg (acc (ix2 a b) + ·) ?_
  rw [← h]
  show _ = FloatOps.dotGeneral d prec _ A B (ix2 a b)
  rw [Ideal.dotGeneral_apply]

/-- The reference's logistic function, spelled `1 / (1 + exp (-s))` with the ones broadcast from the scalar constant
    `1.0`, is the logistic function of the element. -/
theorem logistic_spelled_at {T : Shape} (h : (⟨0, ![]⟩ : Shape).BroadcastsInDim T ![]) (s : FVec Ideal T .f32) (i : T.Idx) :
    Host.divf (broadcastInDim T ![] h (constant (F := Ideal) ⟨0, ![]⟩ .f32 0x3F800000#32))
      (addf (broadcastInDim T ![] h (constant (F := Ideal) ⟨0, ![]⟩ .f32 0x3F800000#32)) (Host.exp (Host.negf s))) i
      = Ideal.logistic (s i) := by
  rw [hostDivf_apply, addf_apply, broadcastInDim_scalar_apply, constant_apply, Ideal.ofBits_one_f32]
  rfl

end PlainProduct
-- ==== Proof.LibSoftmaxRow.lean ====
/-
  A row of scores turned into softmax weights, over the extended reals, and what real rows give.

  For a row `s : Fin n → EReal`: `rowMax s` is the fold of `max` from -∞, `rowExp s t = exp (s t - rowMax s)`, and
  `rowWt s t = rowExp s t / ∑ u, rowExp s u` — the shape both a kernel's lane reductions and a host softmax take when read
  at an index. `rowWt_real`: for a nonempty row of REAL scores the weights are real numbers that sum to one (the maximum
  of finitely many reals is real, the exponentials are positive reals, the divisor is a positive real). `mix`: for real
  weights that sum to one, mixing affinely projected rows is projecting the mixed rows, `∑ t, w t · ((∑ d, κ t d · ω d) + β)
  = (∑ d, (∑ t, w t · κ t d) · ω d) + β` — the identity that lets a value projection and its bias be applied after the
  attention matmul instead of before. `coe_sum`: the coercion ℝ → EReal commutes with finite sums. `negInf`: the f32 word
  of -∞ denotes ⊥.
-/
import Mathlib
import Idealize.ShloMosaic.PureOps.Ideal
import Idealize.ShloMosaic.PureOps.Ideal.Laws

noncomputable section

namespace SoftmaxRow

open Idealize.ShloMosaic

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word of -∞ denotes the bottom of the extended reals. -/
theorem negInf : Ideal.ofBits .f32 0xFF800000#32 = (⊥ : EReal) := by simp [Ideal.ofBits, Ideal.ieee]

/-! ## A row of scores turned into weights -/

/-- The row's maximum, folded from -∞. -/
def rowMax {n : ℕ} (s : Fin n → EReal) : EReal :=
  (Finset.univ : Finset (Fin n)).fold max (Ideal.ofBits .f32 0xFF800000#32) s

/-- The exponential of an entry's distance below the row's maximum. -/
def rowExp {n : ℕ} (s : Fin n → EReal) (t : Fin n) : EReal := Ideal.exp (s t - rowMax s)

/-- The entry's weight: its exponential over the sum of the row's exponentials. -/
def rowWt {n : ℕ} (s : Fin n → EReal) (t : Fin n) : EReal := Ideal.div (rowExp s t) (∑ u : Fin n, rowExp s u)

/-- The weights of a nonempty real row are real numbers that sum to one: the maximum of finitely many reals is real,
    each exponential is a positive real, so the divisor is a positive real. -/
theorem rowWt_real {n : ℕ} (hn : 0 < n) (σ : Fin n → ℝ) :
    ∃ w : Fin n → ℝ, (∀ t, rowWt (fun t => (σ t : EReal)) t = (w t : EReal)) ∧ ∑ t, w t = 1 := by
  have hlt : rowMax (fun t => (σ t : EReal)) < ⊤ := by
    unfold rowMax
    rw [Finset.fold_max_lt]
    exact ⟨by rw [negInf]; exact bot_lt_top, fun x _ => EReal.coe_lt_top _⟩
  have hgt : ⊥ < rowMax (fun t => (σ t : EReal)) := by
    unfold rowMax
    rw [Finset.lt_fold_max]
    exact Or.inr ⟨⟨0, hn⟩, Finset.mem_univ _, EReal.bot_lt_coe _⟩
  obtain ⟨μ, hμ⟩ : ∃ μ : ℝ, rowMax (fun t => (σ t : EReal)) = (μ : EReal) :=
    ⟨_, (EReal.coe_toReal hlt.ne hgt.ne').symm⟩
  have hex : ∀ t, rowExp (fun t => (σ t : EReal)) t = ((Real.exp (σ t - μ) : ℝ) : EReal) := fun t => by
    unfold rowExp
    rw [hμ, ← EReal.coe_sub]
    rfl
  have hL : 0 < ∑ u : Fin n, Real.exp (σ u - μ) :=
    Finset.sum_pos (fun u _ => Real.exp_pos _) ⟨⟨0, hn⟩, Finset.mem_univ _⟩
  refine ⟨fun t => Real.exp (σ t - μ) / ∑ u : Fin n, Real.exp (σ u - μ), fun t => ?_, ?_⟩
  · unfold rowWt
    simp only [hex]
    rw [← coe_sum, Ideal.div_coe hL.ne', ← EReal.coe_mul]
    congr 1
    ring
  · rw [← Finset.sum_div]
    exact div_self hL.ne'

/-- Mixing projected rows is projecting the mixed rows, for real weights that sum to one: the bias is weighted by
    the weights' sum, which is one, and the two finite sums are exchanged. -/
theorem mix {T D : ℕ} (w : Fin T → ℝ) (hw : ∑ t, w t = 1) (κ : Fin T → Fin D → ℝ) (ω : Fin D → ℝ) (β : ℝ) :
    (∑ t : Fin T, (w t : EReal) * ((∑ d : Fin D, (κ t d : EReal) * (ω d : EReal)) + (β : EReal)))
      = (∑ d : Fin D, (∑ t : Fin T, (w t : EReal) * (κ t d : EReal)) * (ω d : EReal)) + (β : EReal) := by
  have hreal : ∑ t : Fin T, w t * (∑ d : Fin D, κ t d * ω d + β) = ∑ d : Fin D, (∑ t : Fin T, w t * κ t d) * ω d + β := by
    calc ∑ t : Fin T, w t * (∑ d : Fin D, κ t d * ω d + β)
        = ∑ t : Fin T, ∑ d : Fin D, w t * κ t d * ω d + (∑ t : Fin T, w t) * β := by
          rw [Finset.sum_mul, ← Finset.sum_add_distrib]
          refine Finset.sum_congr rfl fun t _ => ?_
          rw [mul_add, Finset.mul_sum]
          simp only [mul_assoc]
      _ = ∑ d : Fin D, (∑ t : Fin T, w t * κ t d) * ω d + β := by
          rw [hw, one_mul, Finset.sum_comm]
          simp only [Finset.sum_mul]
  have hl : (∑ t : Fin T, (w t : EReal) * ((∑ d : Fin D, (κ t d : EReal) * (ω d : EReal)) + (β : EReal)))
      = ((∑ t : Fin T, w t * (∑ d : Fin D, κ t d * ω d + β) : ℝ) : EReal) := by
    rw [coe_sum]
    refine Finset.sum_congr rfl fun t _ => ?_
    rw [EReal.coe_mul, EReal.coe_add, coe_sum]
    simp only [EReal.coe_mul]
  have hr : (∑ d : Fin D, (∑ t : Fin T, (w t : EReal) * (κ t d : EReal)) * (ω d : EReal)) + (β : EReal)
      = ((∑ d : Fin D, (∑ t : Fin T, w t * κ t d) * ω d + β : ℝ) : EReal) := by
    rw [EReal.coe_add, coe_sum]
    refine congrArg (· + (β : EReal)) (Finset.sum_congr rfl fun d _ => ?_)
    rw [EReal.coe_mul, coe_sum]
    simp only [EReal.coe_mul]
  rw [hl, hr, hreal]

end SoftmaxRow

end
-- ==== Proof.PayAt.lean ====
/-
  The attention body's payloads read at an index, at the ideal instance (floats are extended reals; a change of float
  format is the identity).
-/
import proofs.«108464_j44547400794204_2_alg».proof.Proof.Gen.KernelIdeal.Skeleton
import proofs.«108464_j44547400794204_2_alg».proof.Proof.LibColumn
import proofs.«108464_j44547400794204_2_alg».proof.Proof.LibPlainProduct
import proofs.«108464_j44547400794204_2_alg».proof.Proof.LibSoftmaxRow
import Idealize.ShloMosaic.Lib.ValueIdx
import Idealize.ShloMosaic.Lib.ValueLayout
import Idealize.ShloMosaic.Lib.Pipeline.Value
import Idealize.ShloMosaic.PureOps.Ideal.Laws

set_option maxRecDepth 16384
set_option pp.maxSteps 4000
set_option pp.deepTerms false
set_option pp.proofs false

noncomputable section

namespace Cert.KernelIdeal.PayAt

open Cert.KernelIdeal Cert.KernelIdeal.Gen
open Idealize.ShloMosaic Idealize.ShloMosaic.ValueIdx Idealize.ShloMosaic.ColumnIdx

/-- The fill a masked score takes, the scale 1/32, and -∞, as the body's words denote them. -/
abbrev NEGW : EReal := Ideal.ofBits .f32 0xCE6E6B28#32
abbrev C32 : EReal := Ideal.ofBits .f32 0x3D000000#32
abbrev NEGINF : EReal := Ideal.ofBits .f32 0xFF800000#32

/-- The masked, scaled score of row `r` of the query tile against key `k` of the key tile. -/
def sc (x0 x1 : Vec Ideal S1x512x1024 .bf16) (x3 : Vec Ideal S1x512x512 .i32) (r k : Fin 512) : EReal :=
  Scalar.select (Scalar.cmpi .ne (x3 (ix3 (0 : Fin 1) r k)) 0#32) NEGW
    ((∑ e : Fin 1024, x0 (ix3 (0 : Fin 1) r e) * x1 (ix3 (0 : Fin 1) k e)) * C32)

theorem pay16_at (x0 x1 : Vec Ideal S1x512x1024 .bf16) (x3 : Vec Ideal S1x512x512 .i32) (r k : Fin 512) :
    k1_pay16 x0 x1 x3 (ix2 r k) = sc x0 x1 x3 r k := by
  unfold k1_pay16 sc
  try dsimp only
  rw [select_apply, mulf_apply, broadcast_apply]
  refine congrArg₂ (Scalar.select · NEGW ·) ?_ ?_
  · show Scalar.cmpi .ne (shapeCast S512x512 x3 shapeCasts_S1x512x512_S512x512 (ix2 r k)) 0#32 = _
    rw [shapeCast_1ab_ab_apply]
  · refine congrArg (· * C32) ?_
    refine (PlainProduct.matmul_at _ rfl none _ _ _ r k).trans ?_
    rw [constant_apply, Ideal.ofBits_zero_f32, zero_add]
    refine Finset.sum_congr rfl fun e _ => ?_
    rw [transpose_ix2_apply, shapeCast_1ab_ab_apply, shapeCast_1ab_ab_apply]

/-- The new running maximum of row `r`: the old one against the tile's row maximum. -/
theorem pay17_at (x0 x1 : Vec Ideal S1x512x1024 .bf16) (x3 : Vec Ideal S1x512x512 .i32) (v18 : Vec Ideal S512x1 .f32) (r : Fin 512) :
    k1_pay17 x0 x1 x3 v18 (ix2 r (0 : Fin 1)) = max (v18 (ix2 r (0 : Fin 1))) (SoftmaxRow.rowMax fun k => sc x0 x1 x3 r k) := by
  unfold k1_pay17
  try dsimp only
  rw [maximumf_apply]
  refine congrArg (max (v18 (ix2 r (0 : Fin 1)))) ?_
  refine (shapeCast_a_a1_apply _ _ r 0).trans ?_
  refine (rowMax_apply _ _ _ _ r).trans ?_
  unfold SoftmaxRow.rowMax
  simp only [pay16_at]

/-- The exponential of a score's distance below the new maximum. -/
theorem pay18_at (x0 x1 : Vec Ideal S1x512x1024 .bf16) (x3 : Vec Ideal S1x512x512 .i32) (v18 : Vec Ideal S512x1 .f32) (r k : Fin 512) :
    k1_pay18 x0 x1 x3 v18 (ix2 r k) = Ideal.exp (sc x0 x1 x3 r k - k1_pay17 x0 x1 x3 v18 (ix2 r (0 : Fin 1))) := by
  unfold k1_pay18
  try dsimp only
  show Ideal.exp (subf (k1_pay16 x0 x1 x3) (broadcastTo S512x512 (k1_pay17 x0 x1 x3 v18) broadcasts_S512x1_S512x512) (ix2 r k)) = _
  rw [subf_apply, broadcastTo_a1_ab_apply, pay16_at]

/-- The rescaling factor: the exponential of the old maximum's distance below the new one. -/
theorem pay19_at (x0 x1 : Vec Ideal S1x512x1024 .bf16) (x3 : Vec Ideal S1x512x512 .i32) (v18 v25 : Vec Ideal S512x1 .f32) (r : Fin 512) :
    k1_pay19 x0 x1 x3 v18 v25 (ix2 r (0 : Fin 1)) = Ideal.exp (v25 (ix2 r (0 : Fin 1)) - k1_pay17 x0 x1 x3 v18 (ix2 r (0 : Fin 1))) := by
  unfold k1_pay19
  try dsimp only
  show Ideal.exp (subf v25 (k1_pay17 x0 x1 x3 v18) (ix2 r (0 : Fin 1))) = _
  rw [subf_apply]

theorem pay20_at (x0 x1 : Vec Ideal S1x512x1024 .bf16) (x3 : Vec Ideal S1x512x512 .i32) (v18 v25 v28 : Vec Ideal S512x1 .f32) (r : Fin 512) :
    k1_pay20 x0 x1 x3 v18 v25 v28 (ix2 r (0 : Fin 1)) = k1_pay19 x0 x1 x3 v18 v25 (ix2 r (0 : Fin 1)) * v28 (ix2 r (0 : Fin 1)) := by
  unfold k1_pay20
  try dsimp only
  rw [mulf_apply]

/-- The new running sum: the rescaled old one plus the tile's row sum of exponentials. -/
theorem pay1_at (v24 : FVec Ideal S512x512 .f32) (v29 : FVec Ideal S512x1 .f32) (r : Fin 512) :
    k1_pay1 v24 v29 (ix2 r (0 : Fin 1)) = v29 (ix2 r (0 : Fin 1)) + ∑ k : Fin 512, v24 (ix2 r k) := by
  unfold k1_pay1
  try dsimp only
  simp only [shapeCast_self]
  rw [addf_apply]
  refine congrArg (v29 (ix2 r (0 : Fin 1)) + ·) ?_
  refine (shapeCast_a_a1_apply _ _ r 0).trans ?_
  exact rowSum_apply _ _ _ _ r

/-- The new running weighted sum: the rescaled old one plus the tile's exponentials times the value tile. -/
theorem pay2_at (v8 : FVec Ideal S512x1024 .bf16) (v24 : FVec Ideal S512x512 .f32) (v27 : FVec Ideal S512x1 .f32) (v36 : Vec Ideal S512x1024 .f32)
    (r : Fin 512) (e : Fin 1024) :
    k1_pay2 v8 v24 v27 v36 (ix2 r e) = v27 (ix2 r (0 : Fin 1)) * v36 (ix2 r e) + ∑ k : Fin 512, v24 (ix2 r k) * v8 (ix2 k e) := by
  unfold k1_pay2
  try dsimp only
  simp only [shapeCast_self]
  rw [addf_apply, mulf_apply, broadcastTo_a1_ab_apply]
  refine congrArg (v27 (ix2 r (0 : Fin 1)) * v36 (ix2 r e) + ·) ?_
  refine (PlainProduct.matmul_at _ rfl none _ _ _ r e).trans ?_
  rw [constant_apply, Ideal.ofBits_zero_f32, zero_add]
  rfl

theorem pay15_at (v7 : Vec Ideal S1x512x1024 .bf16) (k : Fin 512) (e : Fin 1024) :
    k1_pay15 v7 (ix2 k e) = v7 (ix3 (0 : Fin 1) k e) := by
  unfold k1_pay15
  try dsimp only
  rw [shapeCast_1ab_ab_apply]

theorem pay3_eq (v21 : FVec Ideal S512x1 .f32) : k1_pay3 v21 = v21 := by
  unfold k1_pay3
  try dsimp only
  simp only [shapeCast_self]

/-- The three reset values: -∞, 0, 0. -/
theorem pay12_at (i : S512x1.Idx) : k1_pay12 (F := Ideal) i = NEGINF := by
  unfold k1_pay12; (try dsimp only); simp only [shapeCast_self]; rfl
theorem pay13_at (i : S512x1.Idx) : k1_pay13 (F := Ideal) i = 0 := by
  unfold k1_pay13; (try dsimp only); simp only [shapeCast_self]; exact Ideal.ofBits_zero_f32
theorem pay14_at (i : S512x1024.Idx) : k1_pay14 (F := Ideal) i = 0 := by
  unfold k1_pay14; (try dsimp only); simp only [shapeCast_self]; exact Ideal.ofBits_zero_f32

/-- The normalised attention output: the weighted sum over the sum. -/
theorem pay5_at (v51 : Vec Ideal S512x1024 .f32) (v52 : Vec Ideal S512x1 .f32) (r : Fin 512) (e : Fin 1024) :
    k1_pay5 v51 v52 (ix2 r e) = Ideal.div (v51 (ix2 r e)) (v52 (ix2 r (0 : Fin 1))) := by
  unfold k1_pay5
  try dsimp only
  rw [divf_apply, broadcastTo_a1_ab_apply]

theorem pay6_at (v51 : Vec Ideal S512x1024 .f32) (v52 : Vec Ideal S512x1 .f32) (r : Fin 512) (e : Fin 1024) :
    k1_pay6 v51 v52 (ix2 r e) = k1_pay5 v51 v52 (ix2 r e) := by
  unfold k1_pay6
  try dsimp only
  rfl

/-! ## The feed-forward layer, one 1024-wide slice of the hidden axis at a time -/

/-- A hidden unit of one slice: the rectified affine image of the row. -/
def hidv (c6 : FVec Ideal S512x1024 .bf16) (w1c : Vec Ideal S1024x1024 .bf16) (b1c : Vec Ideal S1024 .f32) (r : Fin 512) (j : Fin 1024) : EReal :=
  max ((∑ e : Fin 1024, c6 (ix2 r e) * w1c (ix2 e j)) + b1c (ix1 j)) 0

theorem pay8_at (v51 : Vec Ideal S512x1024 .f32) (v52 : Vec Ideal S512x1 .f32) (v79 : Vec Ideal S1024x1024 .bf16) (v82 : Vec Ideal S1024 .f32)
    (r : Fin 512) (j : Fin 1024) :
    k1_pay8 v51 v52 v79 v82 (ix2 r j) = hidv (k1_pay6 v51 v52) v79 v82 r j := by
  unfold k1_pay8 hidv
  try dsimp only
  simp only [shapeCast_self]
  rw [truncf_apply, maximumf_apply, broadcast_apply, addf_apply, broadcastTo_1b_ab_apply, shapeCast_a_1a_apply]
  refine congrArg₂ max (congrArg (· + v82 (ix1 j)) ?_) Ideal.ofBits_zero_f32
  refine (PlainProduct.matmul_at _ rfl none _ _ _ r j).trans ?_
  rw [constant_apply, Ideal.ofBits_zero_f32, zero_add]

theorem pay7_at (v51 : Vec Ideal S512x1024 .f32) (v52 : Vec Ideal S512x1 .f32) (v60 : Vec Ideal S1024x1024 .bf16) (v63 : Vec Ideal S1024 .f32)
    (v72 : Vec Ideal S1024x1024 .bf16) (r : Fin 512) (e : Fin 1024) :
    k1_pay7 v51 v52 v60 v63 v72 (ix2 r e) = 0 + ∑ j : Fin 1024, hidv (k1_pay6 v51 v52) v60 v63 r j * v72 (ix2 j e) := by
  unfold k1_pay7
  try dsimp only
  simp only [shapeCast_self]
  rw [addf_apply, broadcast_apply]
  refine congrArg₂ (· + ·) Ideal.ofBits_zero_f32 ?_
  refine (PlainProduct.matmul_at _ rfl none _ _ _ r e).trans ?_
  rw [constant_apply, Ideal.ofBits_zero_f32, zero_add]
  refine Finset.sum_congr rfl fun j _ => congrArg (· * v72 (ix2 j e)) ?_
  unfold hidv
  rw [truncf_apply, maximumf_apply, broadcast_apply, addf_apply, broadcastTo_1b_ab_apply, shapeCast_a_1a_apply]
  refine congrArg₂ max (congrArg (· + v63 (ix1 j)) ?_) Ideal.ofBits_zero_f32
  refine (PlainProduct.matmul_at _ rfl none _ _ _ r j).trans ?_
  rw [constant_apply, Ideal.ofBits_zero_f32, zero_add]

theorem pay9_eq (v91 : Vec Ideal S1024x1024 .bf16) : k1_pay9 v91 = v91 := by
  unfold k1_pay9
  try dsimp only
  simp only [shapeCast_self]

/-- The last three slices' contributions added onto the first: slice 1's product, then slices 2 and 3 each computed
    from the normalised row and multiplied into the output. -/
theorem pay10_at (v55 : FVec Ideal S512x1024 .bf16) (v75 : FVec Ideal S512x1024 .f32) (v89 : FVec Ideal S512x1024 .bf16) (v92 : FVec Ideal S1024x1024 .bf16)
    (v98 : Vec Ideal S1024x1024 .bf16) (v101 : Vec Ideal S1024 .f32) (v110 : Vec Ideal S1024x1024 .bf16)
    (v117 : Vec Ideal S1024x1024 .bf16) (v120 : Vec Ideal S1024 .f32) (v129 : Vec Ideal S1024x1024 .bf16) (r : Fin 512) (e : Fin 1024) :
    k1_pay10 v55 v75 v89 v92 v98 v101 v110 v117 v120 v129 (ix2 r e)
      = ((v75 (ix2 r e) + ∑ j : Fin 1024, v89 (ix2 r j) * v92 (ix2 j e))
          + ∑ j : Fin 1024, hidv v55 v98 v101 r j * v110 (ix2 j e))
          + ∑ j : Fin 1024, hidv v55 v117 v120 r j * v129 (ix2 j e) := by
  unfold k1_pay10
  try dsimp only
  simp only [shapeCast_self]
  rw [addf_apply, addf_apply, addf_apply]
  refine congrArg₂ (· + ·) (congrArg₂ (· + ·) (congrArg (v75 (ix2 r e) + ·) ?_) ?_) ?_
  · refine (PlainProduct.matmul_at _ rfl none _ _ _ r e).trans ?_
    rw [constant_apply, Ideal.ofBits_zero_f32, zero_add]
  · refine (PlainProduct.matmul_at _ rfl none _ _ _ r e).trans ?_
    rw [constant_apply, Ideal.ofBits_zero_f32, zero_add]
    refine Finset.sum_congr rfl fun j _ => congrArg (· * v110 (ix2 j e)) ?_
    unfold hidv
    rw [truncf_apply, maximumf_apply, broadcast_apply, addf_apply, broadcastTo_1b_ab_apply, shapeCast_a_1a_apply]
    refine congrArg₂ max (congrArg (· + v101 (ix1 j)) ?_) Ideal.ofBits_zero_f32
    refine (PlainProduct.matmul_at _ rfl none _ _ _ r j).trans ?_
    rw [constant_apply, Ideal.ofBits_zero_f32, zero_add]
  · refine (PlainProduct.matmul_at _ rfl none _ _ _ r e).trans ?_
    rw [constant_apply, Ideal.ofBits_zero_f32, zero_add]
    refine Finset.sum_congr rfl fun j _ => congrArg (· * v129 (ix2 j e)) ?_
    unfold hidv
    rw [truncf_apply, maximumf_apply, broadcast_apply, addf_apply, broadcastTo_1b_ab_apply, shapeCast_a_1a_apply]
    refine congrArg₂ max (congrArg (· + v120 (ix1 j)) ?_) Ideal.ofBits_zero_f32
    refine (PlainProduct.matmul_at _ rfl none _ _ _ r j).trans ?_
    rw [constant_apply, Ideal.ofBits_zero_f32, zero_add]

theorem pay11_at (v133 : Vec Ideal S1024 .f32) (r : Fin 512) (e : Fin 1024) : k1_pay11 v133 (ix2 r e) = v133 (ix1 e) := by
  unfold k1_pay11
  try dsimp only
  rw [broadcastTo_1b_ab_apply, shapeCast_a_1a_apply]

theorem pay4_at (v54 v132 v135 : FVec Ideal S512x1024 .f32) (r : Fin 512) (e : Fin 1024) :
    k1_pay4 v54 v132 v135 (ix3 (0 : Fin 1) r e) = (v132 (ix2 r e) + v135 (ix2 r e)) + v54 (ix2 r e) := by
  unfold k1_pay4
  try dsimp only
  rw [shapeCast_ab_1ab_apply, addf_apply, addf_apply]

end Cert.KernelIdeal.PayAt

end
-- ==== Proof.Blocks1.lean ====
/-
  The attention region's windows, block by block.  Grid point `t` of the 8 × 4 × 4 grid (key tile innermost) is batch
  `t / 16`, query tile `t / 4 % 4`, key tile `t % 4`.  The query window's block there is rows
  `(t / 4 % 4) · 512 …` of batch `t / 16`; the key and value windows' blocks are rows `(t % 4) · 512 …`; the mask window's
  block is that query tile against that key tile; the four feed-forward arrays are staged whole; the output window's block
  is the query tile's rows.  Each block read at an index is the region-entry array at the embedded index.
-/
import proofs.«108464_j44547400794204_2_alg».proof.Proof.R1Shared
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The printed index maps, decided over the 128 grid points. -/
theorem idx1 : ∀ t : Fin cfg1.N,
    (win1_0.index t (0 : Fin 3) = t.val / 16 ∧ win1_0.index t (1 : Fin 3) = t.val / 4 % 4 ∧ win1_0.index t (2 : Fin 3) = 0)
    ∧ (win1_1.index t (0 : Fin 3) = t.val / 16 ∧ win1_1.index t (1 : Fin 3) = t.val % 4 ∧ win1_1.index t (2 : Fin 3) = 0)
    ∧ (win1_2.index t (0 : Fin 3) = t.val / 16 ∧ win1_2.index t (1 : Fin 3) = t.val % 4 ∧ win1_2.index t (2 : Fin 3) = 0)
    ∧ (win1_3.index t (0 : Fin 3) = t.val / 16 ∧ win1_3.index t (1 : Fin 3) = t.val / 4 % 4 ∧ win1_3.index t (2 : Fin 3) = t.val % 4)
    ∧ (win1_4.index t (0 : Fin 2) = 0 ∧ win1_4.index t (1 : Fin 2) = 0)
    ∧ (win1_5.index t (0 : Fin 1) = 0)
    ∧ (win1_6.index t (0 : Fin 2) = 0 ∧ win1_6.index t (1 : Fin 2) = 0)
    ∧ (win1_7.index t (0 : Fin 1) = 0)
    ∧ (win1_8.index t (0 : Fin 3) = t.val / 16 ∧ win1_8.index t (1 : Fin 3) = t.val / 4 % 4 ∧ win1_8.index t (2 : Fin 3) = 0) :=
  (by decide +kernel : ∀ t : Fin grid1.N, _)

section Region1

variable (V : (c : Dev nD) → (b : Ref sig .tc) → Buf (Elt F) ((c : Thread nD τ).loc b))

/-- The query block: rows of the point's query tile. -/
theorem blk1_0_at (c : Dev nD) (t : Fin cfg1.N) (r : Fin 512) (e : Fin 1024) :
    iblk1 V c 0 t (ix3 (0 : Fin 1) r e)
      = V c main_v7 (ix3 (⟨t.val / 16, by have h1 := t.isLt; have h2 : cfg1.N = 128 := N_1; omega⟩ : Fin 8) (⟨t.val / 4 % 4 * 512 + r.val, by have h1 := t.isLt; have h2 : cfg1.N = 128 := N_1; have h3 := r.isLt; omega⟩ : Fin 2048) e) := by
  unfold iblk1
  show V c main_v7 (((cfg1.win 0).blk t).view.emb (ix3 (0 : Fin 1) r e)) = _
  refine congrArg (V c main_v7) ?_
  obtain ⟨⟨e0, e1, e2⟩, -⟩ := idx1 t
  funext a; apply Fin.ext
  match a with
  | ⟨0, _⟩ => show win1_0.index t (0 : Fin 3) * 1 + 1 * (0 : ℕ) = t.val / 16; omega
  | ⟨1, _⟩ => show win1_0.index t (1 : Fin 3) * 512 + 1 * r.val = t.val / 4 % 4 * 512 + r.val; omega
  | ⟨2, _⟩ => show win1_0.index t (2 : Fin 3) * 1024 + 1 * e.val = e.val; omega

/-- The key block: rows of the point's key tile. -/
theorem blk1_1_at (c : Dev nD) (t : Fin cfg1.N) (k : Fin 512) (e : Fin 1024) :
    iblk1 V c 1 t (ix3 (0 : Fin 1) k e)
      = V c main_v8 (ix3 (⟨t.val / 16, by have h1 := t.isLt; have h2 : cfg1.N = 128 := N_1; omega⟩ : Fin 8) (⟨t.val % 4 * 512 + k.val, by have h1 := t.isLt; have h2 : cfg1.N = 128 := N_1; have h3 := k.isLt; omega⟩ : Fin 2048) e) := by
  unfold iblk1
  show V c main_v8 (((cfg1.win 1).blk t).view.emb (ix3 (0 : Fin 1) k e)) = _
  refine congrArg (V c main_v8) ?_
  obtain ⟨-, ⟨e0, e1, e2⟩, -⟩ := idx1 t
  funext a; apply Fin.ext
  match a with
  | ⟨0, _⟩ => show win1_1.index t (0 : Fin 3) * 1 + 1 * (0 : ℕ) = t.val / 16; omega
  | ⟨1, _⟩ => show win1_1.index t (1 : Fin 3) * 512 + 1 * k.val = t.val % 4 * 512 + k.val; omega
  | ⟨2, _⟩ => show win1_1.index t (2 : Fin 3) * 1024 + 1 * e.val = e.val; omega

/-- The value block: rows of the point's key tile. -/
theorem blk1_2_at (c : Dev nD) (t : Fin cfg1.N) (k : Fin 512) (e : Fin 1024) :
    iblk1 V c 2 t (ix3 (0 : Fin 1) k e)
      = V c main_v9 (ix3 (⟨t.val / 16, by have h1 := t.isLt; have h2 : cfg1.N = 128 := N_1; omega⟩ : Fin 8) (⟨t.val % 4 * 512 + k.val, by have h1 := t.isLt; have h2 : cfg1.N = 128 := N_1; have h3 := k.isLt; omega⟩ : Fin 2048) e) := by
  unfold iblk1
  show V c main_v9 (((cfg1.win 2).blk t).view.emb (ix3 (0 : Fin 1) k e)) = _
  refine congrArg (V c main_v9) ?_
  obtain ⟨-, -, ⟨e0, e1, e2⟩, -⟩ := idx1 t
  funext a; apply Fin.ext
  match a with
  | ⟨0, _⟩ => show win1_2.index t (0 : Fin 3) * 1 + 1 * (0 : ℕ) = t.val / 16; omega
  | ⟨1, _⟩ => show win1_2.index t (1 : Fin 3) * 512 + 1 * k.val = t.val % 4 * 512 + k.val; omega
  | ⟨2, _⟩ => show win1_2.index t (2 : Fin 3) * 1024 + 1 * e.val = e.val; omega

/-- The mask block: the point's query tile against its key tile. -/
theorem blk1_3_at (c : Dev nD) (t : Fin cfg1.N) (r k : Fin 512) :
    iblk1 V c 3 t (ix3 (0 : Fin 1) r k)
      = V c main_v10 (ix3 (⟨t.val / 16, by have h1 := t.isLt; have h2 : cfg1.N = 128 := N_1; omega⟩ : Fin 8) (⟨t.val / 4 % 4 * 512 + r.val, by have h1 := t.isLt; have h2 : cfg1.N = 128 := N_1; have h3 := r.isLt; omega⟩ : Fin 2048) (⟨t.val % 4 * 512 + k.val, by have h1 := t.isLt; have h2 : cfg1.N = 128 := N_1; have h3 := k.isLt; omega⟩ : Fin 2048)) := by
  unfold iblk1
  show V c main_v10 (((cfg1.win 3).blk t).view.emb (ix3 (0 : Fin 1) r k)) = _
  refine congrArg (V c main_v10) ?_
  obtain ⟨-, -, -, ⟨e0, e1, e2⟩, -⟩ := idx1 t
  funext a; apply Fin.ext
  match a with
  | ⟨0, _⟩ => show win1_3.index t (0 : Fin 3) * 1 + 1 * (0 : ℕ) = t.val / 16; omega
  | ⟨1, _⟩ => show win1_3.index t (1 : Fin 3) * 512 + 1 * r.val = t.val / 4 % 4 * 512 + r.val; omega
  | ⟨2, _⟩ => show win1_3.index t (2 : Fin 3) * 512 + 1 * k.val = t.val % 4 * 512 + k.val; omega

/-- The four feed-forward arrays are staged whole. -/
theorem blk1_4_at (c : Dev nD) (t : Fin cfg1.N) (e : Fin 1024) (j : Fin 4096) :
    iblk1 V c 4 t (ix2 e j) = V c main_v3 (ix2 e j) := by
  unfold iblk1
  show V c main_v3 (((cfg1.win 4).blk t).view.emb (ix2 e j)) = _
  refine congrArg (V c main_v3) ?_
  obtain ⟨-, -, -, -, ⟨e0, e1⟩, -⟩ := idx1 t
  funext a; apply Fin.ext
  match a with
  | ⟨0, _⟩ => show win1_4.index t (0 : Fin 2) * 1024 + 1 * e.val = e.val; omega
  | ⟨1, _⟩ => show win1_4.index t (1 : Fin 2) * 4096 + 1 * j.val = j.val; omega

theorem blk1_5_at (c : Dev nD) (t : Fin cfg1.N) (j : Fin 4096) :
    iblk1 V c 5 t (ix1 j) = V c main_arg5 (ix1 j) := by
  unfold iblk1
  show V c main_arg5 (((cfg1.win 5).blk t).view.emb (ix1 j)) = _
  refine congrArg (V c main_arg5) ?_
  obtain ⟨-, -, -, -, -, e0, -⟩ := idx1 t
  funext a; apply Fin.ext
  match a with
  | ⟨0, _⟩ => show win1_5.index t (0 : Fin 1) * 4096 + 1 * j.val = j.val; omega

theorem blk1_6_at (c : Dev nD) (t : Fin cfg1.N) (j : Fin 4096) (e : Fin 1024) :
    iblk1 V c 6 t (ix2 j e) = V c main_v4 (ix2 j e) := by
  unfold iblk1
  show V c main_v4 (((cfg1.win 6).blk t).view.emb (ix2 j e)) = _
  refine congrArg (V c main_v4) ?_
  obtain ⟨-, -, -, -, -, -, ⟨e0, e1⟩, -⟩ := idx1 t
  funext a; apply Fin.ext
  match a with
  | ⟨0, _⟩ => show win1_6.index t (0 : Fin 2) * 4096 + 1 * j.val = j.val; omega
  | ⟨1, _⟩ => show win1_6.index t (1 : Fin 2) * 1024 + 1 * e.val = e.val; omega

theorem blk1_7_at (c : Dev nD) (t : Fin cfg1.N) (e : Fin 1024) :
    iblk1 V c 7 t (ix1 e) = V c main_arg7 (ix1 e) := by
  unfold iblk1
  show V c main_arg7 (((cfg1.win 7).blk t).view.emb (ix1 e)) = _
  refine congrArg (V c main_arg7) ?_
  obtain ⟨-, -, -, -, -, -, -, e0, -⟩ := idx1 t
  funext a; apply Fin.ext
  match a with
  | ⟨0, _⟩ => show win1_7.index t (0 : Fin 1) * 1024 + 1 * e.val = e.val; omega

end Region1

end Cert.KernelIdeal.Hand

end
-- ==== Proof.Pieces.lean ====
/-
  What the attention body's stores hold, as values.  The run of each case found, for the output block and for each of the
  three running buffers, the pieces its stores wrote; read back through the covering store they are the body's payloads
  of the blocks it loaded.  With `s₀ s₁ s₂` the running maximum, sum and weighted sum the point starts from (at key tile 0
  the three reset values, otherwise what the point before left): the new maximum is `max s₀ (row maxima of the scores)`,
  the new sum `exp(s₀ - m') · s₁ + (row sums of exp(score - m'))`, the new weighted sum
  `exp(s₀ - m') · s₂ + exp(score - m') · V`; at key tile 3 the output block is the feed-forward layer of
  (new weighted sum) / (new sum) over four 1024-wide slices of the hidden axis, plus the bias and the residual.
-/
import proofs.«108464_j44547400794204_2_alg».proof.Proof.R1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a <;> rfl

/-- The four 1024-wide slices of the hidden axis of the feed-forward arrays, as the body loads them. -/
def w1s (x4 : Vec F S1024x4096 .bf16) : Fin 4 → Vec F S1024x1024 .bf16
  | 0 => View.ld x4 (Rect.unit (s := S1024x4096) ![0, 0] S1024x1024.size (by decide))
  | 1 => View.ld x4 (Rect.unit (s := S1024x4096) ![0, 1024] S1024x1024.size (by decide))
  | 2 => View.ld x4 (Rect.unit (s := S1024x4096) ![0, 2048] S1024x1024.size (by decide))
  | 3 => View.ld x4 (Rect.unit (s := S1024x4096) ![0, 3072] S1024x1024.size (by decide))
def b1s (x5 : Vec F S4096 .f32) : Fin 4 → Vec F S1024 .f32
  | 0 => View.ld x5 (Rect.unit (s := S4096) ![0] S1024.size (by decide))
  | 1 => View.ld x5 (Rect.unit (s := S4096) ![1024] S1024.size (by decide))
  | 2 => View.ld x5 (Rect.unit (s := S4096) ![2048] S1024.size (by decide))
  | 3 => View.ld x5 (Rect.unit (s := S4096) ![3072] S1024.size (by decide))
def w2s (x6 : Vec F S4096x1024 .bf16) : Fin 4 → Vec F S1024x1024 .bf16
  | 0 => View.ld x6 (Rect.unit (s := S4096x1024) ![0, 0] S1024x1024.size (by decide))
  | 1 => View.ld x6 (Rect.unit (s := S4096x1024) ![1024, 0] S1024x1024.size (by decide))
  | 2 => View.ld x6 (Rect.unit (s := S4096x1024) ![2048, 0] S1024x1024.size (by decide))
  | 3 => View.ld x6 (Rect.unit (s := S4096x1024) ![3072, 0] S1024x1024.size (by decide))

/-! ## Key tiles 1 and 2 -/

theorem sout1_B_0_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) :
    sout1_B_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 = k1_pay3 (k1_pay17 x0 x1 x3 xs0) := by
  unfold sout1_B_0
  rw [View.read_writes_eq_canon _ _ _ (scover1_B_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2)]
  unfold kernelRun1_B
  dsimp only
  try sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x512x1024) hz3, View.ld_unit_zero (S := S1x512x512) hz3, View.ld_unit_zero (S := S512x1) hz2, View.ld_unit_zero (S := S512x1024) hz2, View.ld_unit_zero (S := S1024) hz1, View.readCov_unit_zero (S := S512x1) _ hz2, View.readCov_unit_zero (S := S512x1024) _ hz2]

theorem sout1_B_1_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) :
    sout1_B_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 = k1_pay1 (k1_pay18 x0 x1 x3 xs0) (k1_pay20 x0 x1 x3 xs0 xs0 xs1) := by
  unfold sout1_B_1
  rw [View.read_writes_eq_canon _ _ _ (scover1_B_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2)]
  unfold kernelRun1_B
  dsimp only
  try sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x512x1024) hz3, View.ld_unit_zero (S := S1x512x512) hz3, View.ld_unit_zero (S := S512x1) hz2, View.ld_unit_zero (S := S512x1024) hz2, View.ld_unit_zero (S := S1024) hz1, View.readCov_unit_zero (S := S512x1) _ hz2, View.readCov_unit_zero (S := S512x1024) _ hz2]

theorem sout1_B_2_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) :
    sout1_B_2 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 = k1_pay2 (k1_pay15 x2) (k1_pay18 x0 x1 x3 xs0) (k1_pay19 x0 x1 x3 xs0 xs0) xs2 := by
  unfold sout1_B_2
  rw [View.read_writes_eq_canon _ _ _ (scover1_B_2 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2)]
  unfold kernelRun1_B
  dsimp only
  try sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x512x1024) hz3, View.ld_unit_zero (S := S1x512x512) hz3, View.ld_unit_zero (S := S512x1) hz2, View.ld_unit_zero (S := S512x1024) hz2, View.ld_unit_zero (S := S1024) hz1, View.readCov_unit_zero (S := S512x1) _ hz2, View.readCov_unit_zero (S := S512x1024) _ hz2]

/-! ## Key tile 3 -/

theorem sout1_C_0_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) :
    sout1_C_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 = k1_pay3 (k1_pay17 x0 x1 x3 xs0) := by
  unfold sout1_C_0
  rw [View.read_writes_eq_canon _ _ _ (scover1_C_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2)]
  unfold kernelRun1_C
  dsimp only
  try sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x512x1024) hz3, View.ld_unit_zero (S := S1x512x512) hz3, View.ld_unit_zero (S := S512x1) hz2, View.ld_unit_zero (S := S512x1024) hz2, View.ld_unit_zero (S := S1024) hz1, View.readCov_unit_zero (S := S512x1) _ hz2, View.readCov_unit_zero (S := S512x1024) _ hz2]

theorem sout1_C_1_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) :
    sout1_C_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 = k1_pay1 (k1_pay18 x0 x1 x3 xs0) (k1_pay20 x0 x1 x3 xs0 xs0 xs1) := by
  unfold sout1_C_1
  rw [View.read_writes_eq_canon _ _ _ (scover1_C_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2)]
  unfold kernelRun1_C
  dsimp only
  try sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x512x1024) hz3, View.ld_unit_zero (S := S1x512x512) hz3, View.ld_unit_zero (S := S512x1) hz2, View.ld_unit_zero (S := S512x1024) hz2, View.ld_unit_zero (S := S1024) hz1, View.readCov_unit_zero (S := S512x1) _ hz2, View.readCov_unit_zero (S := S512x1024) _ hz2]

theorem sout1_C_2_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) :
    sout1_C_2 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 = k1_pay2 (k1_pay15 x2) (k1_pay18 x0 x1 x3 xs0) (k1_pay19 x0 x1 x3 xs0 xs0) xs2 := by
  unfold sout1_C_2
  rw [View.read_writes_eq_canon _ _ _ (scover1_C_2 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2)]
  unfold kernelRun1_C
  dsimp only
  try sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x512x1024) hz3, View.ld_unit_zero (S := S1x512x512) hz3, View.ld_unit_zero (S := S512x1) hz2, View.ld_unit_zero (S := S512x1024) hz2, View.ld_unit_zero (S := S1024) hz1, View.readCov_unit_zero (S := S512x1) _ hz2, View.readCov_unit_zero (S := S512x1024) _ hz2]

/-- The output block stored at key tile 3, over this point's new running sums. -/
theorem out1_C_8_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : ¬cond1_0 i) (hc1 : cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) (xs0 : Vec F S512x1 .f32) (xs1 : Vec F S512x1 .f32) (xs2 : Vec F S512x1024 .f32) :
    out1_C_8 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2
      = k1_pay4 (k1_pay5 (k1_pay2 (k1_pay15 x2) (k1_pay18 x0 x1 x3 xs0) (k1_pay19 x0 x1 x3 xs0 xs0) xs2) (k1_pay1 (k1_pay18 x0 x1 x3 xs0) (k1_pay20 x0 x1 x3 xs0 xs0 xs1)))
          (k1_pay10 (k1_pay6 (k1_pay2 (k1_pay15 x2) (k1_pay18 x0 x1 x3 xs0) (k1_pay19 x0 x1 x3 xs0 xs0) xs2) (k1_pay1 (k1_pay18 x0 x1 x3 xs0) (k1_pay20 x0 x1 x3 xs0 xs0 xs1)))
            (k1_pay7 (k1_pay2 (k1_pay15 x2) (k1_pay18 x0 x1 x3 xs0) (k1_pay19 x0 x1 x3 xs0 xs0) xs2) (k1_pay1 (k1_pay18 x0 x1 x3 xs0) (k1_pay20 x0 x1 x3 xs0 xs0 xs1)) (w1s x4 0) (b1s x5 0) (w2s x6 0))
            (k1_pay8 (k1_pay2 (k1_pay15 x2) (k1_pay18 x0 x1 x3 xs0) (k1_pay19 x0 x1 x3 xs0 xs0) xs2) (k1_pay1 (k1_pay18 x0 x1 x3 xs0) (k1_pay20 x0 x1 x3 xs0 xs0 xs1)) (w1s x4 1) (b1s x5 1))
            (k1_pay9 (w2s x6 1))
            (w1s x4 2) (b1s x5 2) (w2s x6 2) (w1s x4 3) (b1s x5 3) (w2s x6 3))
          (k1_pay11 x7) := by
  unfold out1_C_8
  rw [View.read_writes_eq_canon _ _ _ (cover1_C_8 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2)]
  unfold kernelRun1_C
  dsimp only
  sl_unfold_words
  rw [View.canon_unit_zero hz3]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x512x1024) hz3, View.ld_unit_zero (S := S1x512x512) hz3, View.ld_unit_zero (S := S512x1) hz2, View.ld_unit_zero (S := S512x1024) hz2, View.ld_unit_zero (S := S1024) hz1, View.readCov_unit_zero (S := S512x1) _ hz2, View.readCov_unit_zero (S := S512x1024) _ hz2]
  rfl

/-! ## Key tile 0: the same payloads over the three reset values -/

theorem sout1_A_0_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) :
    sout1_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k1_pay3 (k1_pay17 x0 x1 x3 k1_pay12) := by
  unfold sout1_A_0
  rw [View.read_writes_eq_canon _ _ _ (scover1_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  unfold kernelRun1_A
  dsimp only
  try sl_unfold_words
  rw [View.canon_cons_unit_zero (S := S512x1) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x512x1024) hz3, View.ld_unit_zero (S := S1x512x512) hz3, View.ld_unit_zero (S := S512x1) hz2, View.ld_unit_zero (S := S512x1024) hz2, View.ld_unit_zero (S := S1024) hz1, View.readCov_unit_zero (S := S512x1) _ hz2, View.readCov_unit_zero (S := S512x1024) _ hz2]

theorem sout1_A_1_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) :
    sout1_A_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k1_pay1 (k1_pay18 x0 x1 x3 k1_pay12) (k1_pay20 x0 x1 x3 k1_pay12 k1_pay12 k1_pay13) := by
  unfold sout1_A_1
  rw [View.read_writes_eq_canon _ _ _ (scover1_A_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  unfold kernelRun1_A
  dsimp only
  try sl_unfold_words
  rw [View.canon_cons_unit_zero (S := S512x1) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x512x1024) hz3, View.ld_unit_zero (S := S1x512x512) hz3, View.ld_unit_zero (S := S512x1) hz2, View.ld_unit_zero (S := S512x1024) hz2, View.ld_unit_zero (S := S1024) hz1, View.readCov_unit_zero (S := S512x1) _ hz2, View.readCov_unit_zero (S := S512x1024) _ hz2]

theorem sout1_A_2_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .i32) (harg6 : arg6.IsWhole) (arg7 : Memref sig .tc .vmem S1024x4096 .bf16) (harg7 : arg7.IsWhole) (arg8 : Memref sig .tc .vmem S4096 .f32) (harg8 : arg8.IsWhole) (arg9 : Memref sig .tc .vmem S4096x1024 .bf16) (harg9 : arg9.IsWhole) (arg10 : Memref sig .tc .vmem S1024 .f32) (harg10 : arg10.IsWhole) (arg11 : Memref sig .tc .vmem S1x512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (hc0 : cond1_0 i) (hc1 : ¬cond1_1 i)
    (x0 : Vec F S1x512x1024 .bf16) (x1 : Vec F S1x512x1024 .bf16) (x2 : Vec F S1x512x1024 .bf16) (x3 : Vec F S1x512x512 .i32) (x4 : Vec F S1024x4096 .bf16) (x5 : Vec F S4096 .f32) (x6 : Vec F S4096x1024 .bf16) (x7 : Vec F S1024 .f32) :
    sout1_A_2 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k1_pay2 (k1_pay15 x2) (k1_pay18 x0 x1 x3 k1_pay12) (k1_pay19 x0 x1 x3 k1_pay12 k1_pay12) k1_pay14 := by
  unfold sout1_A_2
  rw [View.read_writes_eq_canon _ _ _ (scover1_A_2 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  unfold kernelRun1_A
  dsimp only
  try sl_unfold_words
  rw [View.canon_cons_unit_zero (S := S512x1024) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x512x1024) hz3, View.ld_unit_zero (S := S1x512x512) hz3, View.ld_unit_zero (S := S512x1) hz2, View.ld_unit_zero (S := S512x1024) hz2, View.ld_unit_zero (S := S1024) hz1, View.readCov_unit_zero (S := S512x1) _ hz2, View.readCov_unit_zero (S := S512x1024) _ hz2]

end Cert.KernelIdeal.Hand

end
-- ==== Proof.Spec.lean ====
/-
  The result both programs compute, as one function over the REAL numbers.

  Inputs: a batch of 8 sequences of 2048 rows of 1024 features `x`; three 1024 × 1024 projections `wq wk wv`; a feed-forward
  layer `w1` (1024 × 4096), `b1`, `w2` (4096 × 1024), `b2`; and a boolean mask over (batch, query, key).
  * `proj x w b t f = ∑_e x b t e · w e f` — queries, keys and values.
  * `score b q k` — the query–key product over the features times 1/32 (= 1/√1024), or the constant `negw` where the mask is set.
  * `ctx b q e = (∑_k exp(score b q k) · V b k e) / (∑_k exp(score b q k))` — softmax attention, in unshifted form.
  * `hid b t j = max (∑_e ctx b t e · w1 e j + b1 j) 0` and
    `out b t e = (∑_j hid b t j · w2 j e + b2 e) + ctx b t e` — the feed-forward layer with its residual.
  Sums over the 2048 keys and the 4096 hidden units are also given blockwise (4 blocks of 512, 4 blocks of 1024): the
  kernel walks them that way.
-/
import Mathlib

noncomputable section

namespace Attn.Spec

variable (x : Fin 8 → Fin 2048 → Fin 1024 → ℝ) (wq wk wv : Fin 1024 → Fin 1024 → ℝ)
  (w1 : Fin 1024 → Fin 4096 → ℝ) (b1 : Fin 4096 → ℝ) (w2 : Fin 4096 → Fin 1024 → ℝ) (b2 : Fin 1024 → ℝ)
  (mask : Fin 8 → Fin 2048 → Fin 2048 → Bool) (negw : ℝ)

/-- A projection of the input rows. -/
def proj (w : Fin 1024 → Fin 1024 → ℝ) (b : Fin 8) (t : Fin 2048) (f : Fin 1024) : ℝ := ∑ e : Fin 1024, x b t e * w e f

/-- The masked, scaled score of a query against a key. -/
def score (b : Fin 8) (q k : Fin 2048) : ℝ :=
  if mask b q k then negw else (∑ e : Fin 1024, proj x wq b q e * proj x wk b k e) * (1 / 32)

/-- Softmax attention over the 2048 keys, unshifted. -/
def ctx (b : Fin 8) (q : Fin 2048) (e : Fin 1024) : ℝ :=
  (∑ k : Fin 2048, Real.exp (score x wq wk mask negw b q k) * proj x wv b k e) / (∑ k : Fin 2048, Real.exp (score x wq wk mask negw b q k))

/-- The hidden layer. -/
def hid (b : Fin 8) (t : Fin 2048) (j : Fin 4096) : ℝ :=
  max ((∑ e : Fin 1024, ctx x wq wk wv mask negw b t e * w1 e j) + b1 j) 0

/-- The result. -/
def out (b : Fin 8) (t : Fin 2048) (e : Fin 1024) : ℝ :=
  ((∑ j : Fin 4096, hid x wq wk wv w1 b1 mask negw b t j * w2 j e) + b2 e) + ctx x wq wk wv mask negw b t e

end Attn.Spec

end
-- ==== Proof.MathAttn.lean ====
/-
  The mathematics of attention computed tile by tile, over the extended reals, for REAL scores and values.

  A row's softmax weights do not depend on the shift: for real scores `σ` the weight of entry `t` is
  `exp σ_t / ∑_u exp σ_u`, whatever real maximum was subtracted (`rowWt_eq`).  The kernel never forms the whole row: it
  walks the keys tile by tile keeping a running maximum `m`, a running sum `l` of exponentials and a running weighted
  sum `a`, rescaling both by `exp (m_old - m_new)` at each tile.  `Tracks m l a S SV` says the running triple stands for
  the unshifted sums so far: `m` is a real `μ`, `l = exp(-μ) · S` and `a = exp(-μ) · SV` where `S = ∑ exp σ` and
  `SV = ∑ exp σ · ν` over the keys seen.  The first tile establishes it from (-∞, 0, 0) — `exp(-∞) = 0` kills the old
  terms —, every later tile preserves it (`exp(μ - μ') · exp(-μ) = exp(-μ')`), and at the end the quotient `a / l` is
  `SV / S`: the shift cancels.  All of this needs the scores and values to be real numbers: with an infinite score the
  rescaling identities fail.
-/
import Mathlib
import Idealize.ShloMosaic.PureOps.Ideal
import Idealize.ShloMosaic.PureOps.Ideal.Laws
import proofs.«108464_j44547400794204_2_alg».proof.Proof.LibSoftmaxRow

noncomputable section

namespace Attn

open Idealize.ShloMosaic SoftmaxRow

/-- The maximum of a nonempty row of reals, folded from -∞, is a real. -/
theorem rowMax_real {n : ℕ} (hn : 0 < n) (σ : Fin n → ℝ) : ∃ μ : ℝ, rowMax (fun t => (σ t : EReal)) = (μ : EReal) := by
  have hlt : rowMax (fun t => (σ t : EReal)) < ⊤ := by
    unfold rowMax
    rw [Finset.fold_max_lt]
    exact ⟨by rw [negInf]; exact bot_lt_top, fun x _ => EReal.coe_lt_top _⟩
  have hgt : ⊥ < rowMax (fun t => (σ t : EReal)) := by
    unfold rowMax
    rw [Finset.lt_fold_max]
    exact Or.inr ⟨⟨0, hn⟩, Finset.mem_univ _, EReal.bot_lt_coe _⟩
  exact ⟨_, (EReal.coe_toReal hlt.ne hgt.ne').symm⟩

/-- The softmax weight of an entry of a nonempty real row, in unshifted form. -/
theorem rowWt_eq {n : ℕ} (hn : 0 < n) (σ : Fin n → ℝ) (t : Fin n) :
    rowWt (fun t => (σ t : EReal)) t = ((Real.exp (σ t) / ∑ u, Real.exp (σ u) : ℝ) : EReal) := by
  obtain ⟨μ, hμ⟩ := rowMax_real hn σ
  have hex : ∀ t, rowExp (fun t => (σ t : EReal)) t = ((Real.exp (σ t - μ) : ℝ) : EReal) := fun t => by
    unfold rowExp
    rw [hμ, ← EReal.coe_sub]
    rfl
  have hL : 0 < ∑ u : Fin n, Real.exp (σ u - μ) :=
    Finset.sum_pos (fun u _ => Real.exp_pos _) ⟨⟨0, hn⟩, Finset.mem_univ _⟩
  have hS : 0 < ∑ u : Fin n, Real.exp (σ u) :=
    Finset.sum_pos (fun u _ => Real.exp_pos _) ⟨⟨0, hn⟩, Finset.mem_univ _⟩
  unfold rowWt
  simp only [hex]
  rw [← coe_sum, Ideal.div_coe hL.ne', ← EReal.coe_mul]
  congr 1
  have hsplit : ∀ u, Real.exp (σ u - μ) = Real.exp (σ u) * Real.exp (-μ) := fun u => by
    rw [sub_eq_add_neg, Real.exp_add]
  have hne : Real.exp (-μ) ≠ 0 := Real.exp_ne_zero _
  simp only [hsplit, ← Finset.sum_mul]
  field_simp

/-- The running triple stands for the unshifted sums `S`, `SV` of the keys seen so far. -/
def Tracks (m l a : EReal) (S SV : ℝ) : Prop :=
  ∃ μ : ℝ, m = (μ : EReal) ∧ l = ((Real.exp (-μ) * S : ℝ) : EReal) ∧ a = ((Real.exp (-μ) * SV : ℝ) : EReal)

/-- The first tile, from (-∞, 0, 0). -/
theorem tracks_first {n : ℕ} (hn : 0 < n) (σ ν : Fin n → ℝ) (m' l' a' : EReal)
    (hm : m' = max ⊥ (rowMax fun k => (σ k : EReal)))
    (hl : l' = Ideal.exp (⊥ - m') * 0 + ∑ k, Ideal.exp ((σ k : EReal) - m'))
    (ha : a' = Ideal.exp (⊥ - m') * 0 + ∑ k, Ideal.exp ((σ k : EReal) - m') * (ν k : EReal)) :
    Tracks m' l' a' (∑ k, Real.exp (σ k)) (∑ k, Real.exp (σ k) * ν k) := by
  obtain ⟨ρ, hρ⟩ := rowMax_real hn σ
  have hm' : m' = (ρ : EReal) := by rw [hm, hρ]; exact max_eq_right bot_le
  have hexp : ∀ k, Ideal.exp ((σ k : EReal) - m') = ((Real.exp (-ρ) * Real.exp (σ k) : ℝ) : EReal) := fun k => by
    rw [hm', ← EReal.coe_sub, Ideal.exp_coe, ← Real.exp_add]
    congr 2; ring
  refine ⟨ρ, hm', ?_, ?_⟩
  · rw [hl, mul_zero, zero_add]
    simp only [hexp]
    rw [← coe_sum, Finset.mul_sum]
  · rw [ha, mul_zero, zero_add]
    simp only [hexp, ← EReal.coe_mul]
    rw [← coe_sum, Finset.mul_sum]
    congr 1
    exact Finset.sum_congr rfl fun k _ => by ring

/-- A later tile. -/
theorem tracks_step {n : ℕ} (hn : 0 < n) (σ ν : Fin n → ℝ) (m l a : EReal) (S SV : ℝ) (h : Tracks m l a S SV)
    (m' l' a' : EReal) (hm : m' = max m (rowMax fun k => (σ k : EReal)))
    (hl : l' = Ideal.exp (m - m') * l + ∑ k, Ideal.exp ((σ k : EReal) - m'))
    (ha : a' = Ideal.exp (m - m') * a + ∑ k, Ideal.exp ((σ k : EReal) - m') * (ν k : EReal)) :
    Tracks m' l' a' (S + ∑ k, Real.exp (σ k)) (SV + ∑ k, Real.exp (σ k) * ν k) := by
  obtain ⟨μ, rfl, rfl, rfl⟩ := h
  obtain ⟨ρ, hρ⟩ := rowMax_real hn σ
  have hm' : m' = ((max μ ρ : ℝ) : EReal) := by rw [hm, hρ]; exact (EReal.coe_strictMono.monotone.map_max).symm
  have hexp : ∀ k, Ideal.exp ((σ k : EReal) - m') = ((Real.exp (-(max μ ρ)) * Real.exp (σ k) : ℝ) : EReal) := fun k => by
    rw [hm', ← EReal.coe_sub, Ideal.exp_coe, ← Real.exp_add]
    congr 2; ring
  have hα : Ideal.exp ((μ : EReal) - m') = ((Real.exp (μ - max μ ρ) : ℝ) : EReal) := by
    rw [hm', ← EReal.coe_sub, Ideal.exp_coe]
  have e1 : Real.exp (μ - max μ ρ) * Real.exp (-μ) = Real.exp (-(max μ ρ)) := by
    rw [← Real.exp_add]; congr 1; ring
  refine ⟨max μ ρ, hm', ?_, ?_⟩
  · rw [hl, hα]
    simp only [hexp]
    rw [← coe_sum, ← EReal.coe_mul, ← EReal.coe_add]
    congr 1
    rw [← mul_assoc, e1, ← Finset.mul_sum, mul_add]
  · rw [ha, hα]
    simp only [hexp, ← EReal.coe_mul]
    rw [← coe_sum, ← EReal.coe_add]
    congr 1
    rw [← mul_assoc, e1, mul_add, Finset.mul_sum]
    congr 1
    exact Finset.sum_congr rfl fun k _ => by ring

/-- At the end the quotient of the running sums is the quotient of the unshifted sums. -/
theorem tracks_div (m l a : EReal) (S SV : ℝ) (h : Tracks m l a S SV) (hS : 0 < S) :
    Ideal.div a l = ((SV / S : ℝ) : EReal) := by
  obtain ⟨μ, -, rfl, rfl⟩ := h
  have hne : Real.exp (-μ) ≠ 0 := Real.exp_ne_zero _
  rw [Ideal.div_coe (mul_ne_zero hne hS.ne'), ← EReal.coe_mul]
  congr 1
  field_simp

end Attn

end
-- ==== Proof.R1Track.lean ====
/-
  The attention region, tracked.  When the arrays the region is entered with hold REAL numbers — the three projections
  `Q K V`, the feed-forward arrays — and the mask words are 0 or 1, the three running buffers after grid point `n`
  stand, at every row `r` of the query tile (and column `e`), for the unshifted softmax sums over the keys of key tiles
  `0 … n % 4` of that row's scores: `Tracks m l a (accS …) (accSV …)`.  Key tile 0 starts from the reset values (-∞, 0, 0),
  every later key tile continues from what the point before left; the proof is an induction on the grid point.
-/
import proofs.«108464_j44547400794204_2_alg».proof.Proof.PayAt
import proofs.«108464_j44547400794204_2_alg».proof.Proof.Blocks1
import proofs.«108464_j44547400794204_2_alg».proof.Proof.Pieces
import proofs.«108464_j44547400794204_2_alg».proof.Proof.Spec
import proofs.«108464_j44547400794204_2_alg».proof.Proof.MathAttn

set_option maxRecDepth 16384
set_option pp.maxSteps 4000
set_option pp.deepTerms false
set_option pp.proofs false

noncomputable section

namespace Cert.KernelIdeal.Hand

open Cert.KernelIdeal Cert.KernelIdeal.Gen Cert.KernelIdeal.PayAt
open Idealize.ShloMosaic Idealize.ShloMosaic.TcCoe Idealize.ShloMosaic.ValueIdx Idealize.SL.Sem
open Attn

/-- The scale word is 1/32 and the fill word is -10⁹. -/
theorem c32_eq : Ideal.ofBits .f32 0x3D000000#32 = ((1 / 32 : ℝ) : EReal) := by
  simp [Ideal.ofBits, Ideal.ieee, -EReal.coe_mul]; norm_num
theorem negw_eq : Ideal.ofBits .f32 0xCE6E6B28#32 = ((-1000000000 : ℝ) : EReal) := by
  simp [Ideal.ofBits, Ideal.ieee, -EReal.coe_mul]; norm_num

/-- A grid point's batch, a row of its query tile, and a key of its key tile, as indices of the whole arrays. -/
def bOf (t : Fin cfg1.N) : Fin 8 := ⟨t.val / 16, by have h1 := t.isLt; have h2 : cfg1.N = 128 := N_1; omega⟩
def qOf (t : Fin cfg1.N) (r : Fin 512) : Fin 2048 := ⟨t.val / 4 % 4 * 512 + r.val, by have h3 := r.isLt; omega⟩
def kOf (t : Fin cfg1.N) (k : Fin 512) : Fin 2048 := ⟨t.val % 4 * 512 + k.val, by have h3 := k.isLt; omega⟩

section Region1

variable (V : (c : Dev nD) → (b : Ref sig .tc) → Buf (Elt Ideal) ((c : Thread nD τ).loc b)) (c : Dev nD)
variable (x : Fin 8 → Fin 2048 → Fin 1024 → ℝ) (wq wk wv : Fin 1024 → Fin 1024 → ℝ)
  (w1 : Fin 1024 → Fin 4096 → ℝ) (b1 : Fin 4096 → ℝ) (w2 : Fin 4096 → Fin 1024 → ℝ) (b2 : Fin 1024 → ℝ)
  (mask : Fin 8 → Fin 2048 → Fin 2048 → Bool) (negw : ℝ)

/-- What the region is entered with: real projections, 0/1 mask words, real feed-forward arrays, a real fill. -/
structure EntryReal : Prop where
  hq : ∀ b t e, V c main_v7 (ix3 b t e) = ((Spec.proj x wq b t e : ℝ) : EReal)
  hk : ∀ b t e, V c main_v8 (ix3 b t e) = ((Spec.proj x wk b t e : ℝ) : EReal)
  hv : ∀ b t e, V c main_v9 (ix3 b t e) = ((Spec.proj x wv b t e : ℝ) : EReal)
  hm : ∀ b q k, V c main_v10 (ix3 b q k) = if mask b q k then 1#32 else 0#32
  hw1 : ∀ e j, V c main_v3 (ix2 e j) = ((w1 e j : ℝ) : EReal)
  hb1 : ∀ j, V c main_arg5 (ix1 j) = ((b1 j : ℝ) : EReal)
  hw2 : ∀ j e, V c main_v4 (ix2 j e) = ((w2 j e : ℝ) : EReal)
  hb2 : ∀ e, V c main_arg7 (ix1 e) = ((b2 e : ℝ) : EReal)
  hneg : Ideal.ofBits .f32 0xCE6E6B28#32 = ((negw : ℝ) : EReal)

variable {V c x wq wk wv w1 b1 w2 b2 mask negw}

/-- A score of the point's tile is the real score of the whole arrays. -/
theorem score_real (h : EntryReal V c x wq wk wv w1 b1 w2 b2 mask negw) (t : Fin cfg1.N) (r k : Fin 512) :
    sc (iblk1 V c 0 t) (iblk1 V c 1 t) (iblk1 V c 3 t) r k
      = ((Spec.score x wq wk mask negw (bOf t) (qOf t r) (kOf t k) : ℝ) : EReal) := by
  unfold sc Spec.score
  have e3 : iblk1 V c 3 t (ix3 (0 : Fin 1) r k) = V c main_v10 (ix3 (bOf t) (qOf t r) (kOf t k)) := blk1_3_at V c t r k
  have e0 : ∀ e, iblk1 V c 0 t (ix3 (0 : Fin 1) r e) = V c main_v7 (ix3 (bOf t) (qOf t r) e) := fun e => blk1_0_at V c t r e
  have e1 : ∀ e, iblk1 V c 1 t (ix3 (0 : Fin 1) k e) = V c main_v8 (ix3 (bOf t) (kOf t k) e) := fun e => blk1_1_at V c t k e
  rw [e3, h.hm]
  simp only [e0, e1, h.hq, h.hk]
  by_cases hmk : mask (bOf t) (qOf t r) (kOf t k) = true
  · rw [if_pos hmk, if_pos hmk]
    show Scalar.select 1#1 _ _ = _
    rw [select_one]; exact h.hneg
  · rw [if_neg hmk, if_neg hmk]
    show Scalar.select 0#1 _ _ = _
    rw [select_zero, show (C32 : EReal) = ((1 / 32 : ℝ) : EReal) from c32_eq]
    simp only [← EReal.coe_mul]
    rw [← SoftmaxRow.coe_sum, ← EReal.coe_mul]

/-- A value of the point's tile is the real value projection. -/
theorem value_real (h : EntryReal V c x wq wk wv w1 b1 w2 b2 mask negw) (t : Fin cfg1.N) (k : Fin 512) (e : Fin 1024) :
    k1_pay15 (iblk1 V c 2 t) (ix2 k e) = ((Spec.proj x wv (bOf t) (kOf t k) e : ℝ) : EReal) := by
  rw [pay15_at]
  exact (blk1_2_at V c t k e).trans (h.hv _ _ _)

end Region1

/-! ## One tile's update of the running triple -/

/-- A later tile: the piece payloads over a tracked triple are tracked, with the tile's sums added. -/
theorem upd_tracks (x0 x1 x2 : Vec Ideal S1x512x1024 .bf16) (x3 : Vec Ideal S1x512x512 .i32) (s0 s1 : Vec Ideal S512x1 .f32)
    (s2 : Vec Ideal S512x1024 .f32) (r : Fin 512) (e : Fin 1024) (σ ν : Fin 512 → ℝ)
    (hσ : ∀ k, sc x0 x1 x3 r k = ((σ k : ℝ) : EReal)) (hν : ∀ k, k1_pay15 x2 (ix2 k e) = ((ν k : ℝ) : EReal))
    (S SV : ℝ) (h : Tracks (s0 (ix2 r (0 : Fin 1))) (s1 (ix2 r (0 : Fin 1))) (s2 (ix2 r e)) S SV) :
    Tracks (k1_pay3 (k1_pay17 x0 x1 x3 s0) (ix2 r (0 : Fin 1)))
      (k1_pay1 (k1_pay18 x0 x1 x3 s0) (k1_pay20 x0 x1 x3 s0 s0 s1) (ix2 r (0 : Fin 1)))
      (k1_pay2 (k1_pay15 x2) (k1_pay18 x0 x1 x3 s0) (k1_pay19 x0 x1 x3 s0 s0) s2 (ix2 r e))
      (S + ∑ k, Real.exp (σ k)) (SV + ∑ k, Real.exp (σ k) * ν k) := by
  refine Attn.tracks_step (by norm_num) σ ν _ _ _ S SV h _ _ _ ?_ ?_ ?_
  · rw [pay3_eq, pay17_at]; simp only [hσ]
  · rw [pay1_at, pay20_at, pay19_at]; simp only [pay18_at, pay3_eq, hσ]
  · rw [pay2_at, pay19_at]; simp only [pay18_at, pay3_eq, hσ, hν]

/-- The first tile: the same payloads over the three reset values. -/
theorem upd_first (x0 x1 x2 : Vec Ideal S1x512x1024 .bf16) (x3 : Vec Ideal S1x512x512 .i32)
    (r : Fin 512) (e : Fin 1024) (σ ν : Fin 512 → ℝ)
    (hσ : ∀ k, sc x0 x1 x3 r k = ((σ k : ℝ) : EReal)) (hν : ∀ k, k1_pay15 x2 (ix2 k e) = ((ν k : ℝ) : EReal)) :
    Tracks (k1_pay3 (k1_pay17 x0 x1 x3 (k1_pay12 (F := Ideal))) (ix2 r (0 : Fin 1)))
      (k1_pay1 (k1_pay18 x0 x1 x3 (k1_pay12 (F := Ideal))) (k1_pay20 x0 x1 x3 (k1_pay12 (F := Ideal)) (k1_pay12 (F := Ideal)) (k1_pay13 (F := Ideal))) (ix2 r (0 : Fin 1)))
      (k1_pay2 (k1_pay15 x2) (k1_pay18 x0 x1 x3 (k1_pay12 (F := Ideal))) (k1_pay19 x0 x1 x3 (k1_pay12 (F := Ideal)) (k1_pay12 (F := Ideal))) (k1_pay14 (F := Ideal)) (ix2 r e))
      (∑ k, Real.exp (σ k)) (∑ k, Real.exp (σ k) * ν k) := by
  refine Attn.tracks_first (by norm_num) σ ν _ _ _ ?_ ?_ ?_
  · rw [pay3_eq, pay17_at, pay12_at, (show (NEGINF : EReal) = ⊥ from SoftmaxRow.negInf)]; simp only [hσ]
  · rw [pay1_at, pay20_at, pay19_at, pay13_at, pay12_at, (show (NEGINF : EReal) = ⊥ from SoftmaxRow.negInf)]; simp only [pay18_at, pay3_eq, pay12_at, (show (NEGINF : EReal) = ⊥ from SoftmaxRow.negInf), hσ]
  · rw [pay2_at, pay19_at, pay14_at, pay12_at, (show (NEGINF : EReal) = ⊥ from SoftmaxRow.negInf)]; simp only [pay18_at, pay3_eq, pay12_at, (show (NEGINF : EReal) = ⊥ from SoftmaxRow.negInf), hσ, hν]

/-! ## The sums a grid point's running triple stands for -/

section Sums

variable (x : Fin 8 → Fin 2048 → Fin 1024 → ℝ) (wq wk wv : Fin 1024 → Fin 1024 → ℝ)
  (mask : Fin 8 → Fin 2048 → Fin 2048 → Bool) (negw : ℝ)

/-- The score and the value projection with the key as a natural number (0 past the last key). -/
def scoreN (b : Fin 8) (q : Fin 2048) (kk : ℕ) : ℝ := if hk : kk < 2048 then Spec.score x wq wk mask negw b q ⟨kk, hk⟩ else 0
def valN (b : Fin 8) (kk : ℕ) (e : Fin 1024) : ℝ := if hk : kk < 2048 then Spec.proj x wv b ⟨kk, hk⟩ e else 0

/-- Key tile `j`'s sum of exponentials, and of exponentials times values. -/
def tileS (b : Fin 8) (q : Fin 2048) (j : ℕ) : ℝ := ∑ k : Fin 512, Real.exp (scoreN x wq wk mask negw b q (j * 512 + k.val))
def tileSV (b : Fin 8) (q : Fin 2048) (e : Fin 1024) (j : ℕ) : ℝ :=
  ∑ k : Fin 512, Real.exp (scoreN x wq wk mask negw b q (j * 512 + k.val)) * valN x wv b (j * 512 + k.val) e

/-- The sums over key tiles `0 … j`. -/
def accS (b : Fin 8) (q : Fin 2048) (j : ℕ) : ℝ := ∑ i ∈ Finset.range (j + 1), tileS x wq wk mask negw b q i
def accSV (b : Fin 8) (q : Fin 2048) (e : Fin 1024) (j : ℕ) : ℝ := ∑ i ∈ Finset.range (j + 1), tileSV x wq wk wv mask negw b q e i

theorem accS_zero (b : Fin 8) (q : Fin 2048) : accS x wq wk mask negw b q 0 = tileS x wq wk mask negw b q 0 := by
  unfold accS; rw [Finset.sum_range_one]
theorem accSV_zero (b : Fin 8) (q : Fin 2048) (e : Fin 1024) : accSV x wq wk wv mask negw b q e 0 = tileSV x wq wk wv mask negw b q e 0 := by
  unfold accSV; rw [Finset.sum_range_one]
theorem accS_succ (b : Fin 8) (q : Fin 2048) (j : ℕ) : accS x wq wk mask negw b q (j + 1) = accS x wq wk mask negw b q j + tileS x wq wk mask negw b q (j + 1) := by
  unfold accS; rw [Finset.sum_range_succ]
theorem accSV_succ (b : Fin 8) (q : Fin 2048) (e : Fin 1024) (j : ℕ) :
    accSV x wq wk wv mask negw b q e (j + 1) = accSV x wq wk wv mask negw b q e j + tileSV x wq wk wv mask negw b q e (j + 1) := by
  unfold accSV; rw [Finset.sum_range_succ]

/-- The keys of a grid point's key tile are tile `t % 4`'s. -/
theorem tile_eq (t : Fin cfg1.N) (r : Fin 512) :
    ∑ k : Fin 512, Real.exp (Spec.score x wq wk mask negw (bOf t) (qOf t r) (kOf t k)) = tileS x wq wk mask negw (bOf t) (qOf t r) (t.val % 4) := by
  unfold tileS scoreN
  refine Finset.sum_congr rfl fun k _ => ?_
  have hk : t.val % 4 * 512 + k.val < 2048 := (kOf t k).isLt
  simp only [dif_pos hk]
  rfl
theorem tileV_eq (t : Fin cfg1.N) (r : Fin 512) (e : Fin 1024) :
    ∑ k : Fin 512, Real.exp (Spec.score x wq wk mask negw (bOf t) (qOf t r) (kOf t k)) * Spec.proj x wv (bOf t) (kOf t k) e
      = tileSV x wq wk wv mask negw (bOf t) (qOf t r) e (t.val % 4) := by
  unfold tileSV scoreN valN
  refine Finset.sum_congr rfl fun k _ => ?_
  have hk : t.val % 4 * 512 + k.val < 2048 := (kOf t k).isLt
  simp only [dif_pos hk]
  rfl

end Sums

/-! ## The induction over the grid -/

section Tracked

variable {V : (c : Dev nD) → (b : Ref sig .tc) → Buf (Elt Ideal) ((c : Thread nD τ).loc b)} {c : Dev nD}
variable {x : Fin 8 → Fin 2048 → Fin 1024 → ℝ} {wq wk wv : Fin 1024 → Fin 1024 → ℝ}
  {w1 : Fin 1024 → Fin 4096 → ℝ} {b1 : Fin 4096 → ℝ} {w2 : Fin 4096 → Fin 1024 → ℝ} {b2 : Fin 1024 → ℝ}
  {mask : Fin 8 → Fin 2048 → Fin 2048 → Bool} {negw : ℝ}

/-- After grid point `n` the running buffers stand for the sums over key tiles `0 … n % 4` of the point's rows. -/
theorem tracked (h : EntryReal V c x wq wk wv w1 b1 w2 b2 mask negw) :
    ∀ (n : ℕ) (hn : n < cfg1.N) (r : Fin 512) (e : Fin 1024),
      Tracks ((outsAt1 V c n hn).2.1 (ix2 r (0 : Fin 1))) ((outsAt1 V c n hn).2.2.1 (ix2 r (0 : Fin 1))) ((outsAt1 V c n hn).2.2.2 (ix2 r e))
        (accS x wq wk mask negw (bOf ⟨n, hn⟩) (qOf ⟨n, hn⟩ r) (n % 4)) (accSV x wq wk wv mask negw (bOf ⟨n, hn⟩) (qOf ⟨n, hn⟩ r) e (n % 4)) := by
  intro n
  induction n with
  | zero =>
    intro hn r e
    rw [outsAt1_A V c ⟨0, hn⟩ (Nat.zero_mod _) (show ¬ (0 : ℕ) % 4 = 3 from by decide)]
    unfold caseA
    dsimp only
    rw [sout1_A_0_eq, sout1_A_1_eq, sout1_A_2_eq]
    rw [show (0 : ℕ) % 4 = 0 from rfl, accS_zero, accSV_zero]
    have e1 := tile_eq x wq wk mask negw ⟨0, hn⟩ r
    have e2 := tileV_eq x wq wk wv mask negw ⟨0, hn⟩ r e
    rw [show (⟨0, hn⟩ : Fin cfg1.N).val % 4 = 0 from rfl] at e1 e2
    rw [← e1, ← e2]
    exact upd_first _ _ _ _ r e _ _ (fun k => score_real h ⟨0, hn⟩ r k) (fun k => value_real h ⟨0, hn⟩ k e)
  | succ n ih =>
    intro hn r e
    have hN : n + 1 < 128 := lt_of_lt_of_eq hn (show cfg1.N = 128 from N_1)
    have e1 := tile_eq x wq wk mask negw ⟨n + 1, hn⟩ r
    have e2 := tileV_eq x wq wk wv mask negw ⟨n + 1, hn⟩ r e
    by_cases h0 : (n + 1) % 4 = 0
    · rw [outsAt1_A V c ⟨n + 1, hn⟩ h0 (show ¬ (n + 1) % 4 = 3 from by omega)]
      unfold caseA
      dsimp only
      rw [sout1_A_0_eq, sout1_A_1_eq, sout1_A_2_eq]
      rw [show (⟨n + 1, hn⟩ : Fin cfg1.N).val % 4 = 0 from h0] at e1 e2
      rw [h0, accS_zero, accSV_zero, ← e1, ← e2]
      exact upd_first _ _ _ _ r e _ _ (fun k => score_real h ⟨n + 1, hn⟩ r k) (fun k => value_real h ⟨n + 1, hn⟩ k e)
    · have ihn := ih (Nat.lt_of_succ_lt hn) r e
      have hb : bOf (⟨n, Nat.lt_of_succ_lt hn⟩ : Fin cfg1.N) = bOf ⟨n + 1, hn⟩ := Fin.ext (by show n / 16 = (n + 1) / 16; omega)
      have hq : qOf (⟨n, Nat.lt_of_succ_lt hn⟩ : Fin cfg1.N) r = qOf ⟨n + 1, hn⟩ r :=
        Fin.ext (by show n / 4 % 4 * 512 + r.val = (n + 1) / 4 % 4 * 512 + r.val; omega)
      have hj : (n + 1) % 4 = n % 4 + 1 := by omega
      rw [hb, hq] at ihn
      rw [show (⟨n + 1, hn⟩ : Fin cfg1.N).val % 4 = n % 4 + 1 from hj] at e1 e2
      rw [hj, accS_succ, accSV_succ, ← e1, ← e2]
      by_cases h1 : (n + 1) % 4 = 3
      · rw [outsAt1_C V c ⟨n + 1, hn⟩ h0 h1]
        unfold caseC
        dsimp only
        rw [sout1_C_0_eq, sout1_C_1_eq, sout1_C_2_eq]
        exact upd_tracks _ _ _ _ _ _ _ r e _ _ (fun k => score_real h ⟨n + 1, hn⟩ r k) (fun k => value_real h ⟨n + 1, hn⟩ k e) _ _ ihn
      · rw [outsAt1_B V c ⟨n + 1, hn⟩ h0 h1]
        unfold caseB
        dsimp only
        rw [sout1_B_0_eq, sout1_B_1_eq, sout1_B_2_eq]
        exact upd_tracks _ _ _ _ _ _ _ r e _ _ (fun k => score_real h ⟨n + 1, hn⟩ r k) (fun k => value_real h ⟨n + 1, hn⟩ k e) _ _ ihn

end Tracked

end Cert.KernelIdeal.Hand

end
-- ==== Proof.LibBlockedSum.lean ====
import Mathlib.Algebra.BigOperators.Fin
import Mathlib.Algebra.BigOperators.Intervals

/-!
# Sums over a long axis, taken block by block

A contraction over an axis of length `nb * tk` can be taken in `nb` consecutive blocks of `tk` terms, the partial
sums added one after the other into a running total. In a commutative additive monoid — the extended reals among
them, where `+` is associative and commutative although it does not cancel — the running total after the last
block is the starting value plus the whole sum. Nothing here needs the terms to be finite.
-/

namespace BlockedSum

open Finset

variable {M : Type*} [AddCommMonoid M]

/-- A sum over `nb * tk` consecutive terms is the sum, over the `nb` blocks, of each block's `tk` terms:
    term `k = b * tk + j` is the `j`-th term of block `b`. -/
theorem sum_range_mul (f : ℕ → M) (nb tk : ℕ) :
    ∑ k ∈ range (nb * tk), f k = ∑ b ∈ range nb, ∑ j ∈ range tk, f (b * tk + j) := by
  induction nb with
  | zero => simp
  | succ n ih =>
    rw [Nat.succ_mul, sum_range_add, ih, sum_range_succ]

/-- The same over `Fin`: the index types a contraction over a literal extent is written with. -/
theorem sum_fin_mul (f : ℕ → M) (nb tk : ℕ) :
    ∑ k : Fin (nb * tk), f k.val = ∑ b : Fin nb, ∑ j : Fin tk, f (b.val * tk + j.val) := by
  rw [Fin.sum_univ_eq_sum_range (fun k => f k) (nb * tk), sum_range_mul,
    ← Fin.sum_univ_eq_sum_range (fun b => ∑ j ∈ range tk, f (b * tk + j)) nb]
  refine sum_congr rfl fun b _ => ?_
  rw [← Fin.sum_univ_eq_sum_range (fun j => f (b.val * tk + j)) tk]

/-- A running total that starts at `a₀` and takes one more term at each step holds, after `n` steps, `a₀` plus the
    first `n` terms. -/
theorem running_total (acc : ℕ → M) (d : ℕ → M) (a₀ : M) (h0 : acc 0 = a₀) (hs : ∀ b, acc (b + 1) = acc b + d b) (n : ℕ) :
    acc n = a₀ + ∑ b ∈ range n, d b := by
  induction n with
  | zero => simp [h0]
  | succ n ih => rw [hs, ih, sum_range_succ, add_assoc]

/-- Accumulating a contraction block by block: starting from `a₀` and adding, at step `b`, the partial sum of block
    `b`, the total after all `nb` blocks is `a₀` plus the whole contraction. -/
theorem accumulate_blocks (acc : ℕ → M) (f : ℕ → M) (a₀ : M) (nb tk : ℕ) (h0 : acc 0 = a₀)
    (hs : ∀ b, acc (b + 1) = acc b + ∑ j ∈ range tk, f (b * tk + j)) :
    acc nb = a₀ + ∑ k ∈ range (nb * tk), f k := by
  rw [running_total acc _ a₀ h0 hs nb, sum_range_mul]

end BlockedSum
-- ==== Proof.R1Out.lean ====
/-
  The attention region's output array.  At a grid point of key tile 3 the running sums stand for the softmax sums over all
  four key tiles, i.e. over all 2048 keys; their quotient is the attention output of the row, and the stored block is the
  feed-forward layer of it — the hidden axis walked in four slices of 1024 — plus the bias and the residual.  Blocked sums
  are the flat sums (keys: 4 × 512; hidden units: 4 × 1024).  The region writes the output window back exactly at those
  points, each block the rows of its batch and query tile, and these blocks cover the array: after the region the output
  array holds `Spec.out` at every index.
-/
import proofs.«108464_j44547400794204_2_alg».proof.Proof.R1Track
import proofs.«108464_j44547400794204_2_alg».proof.Proof.LibBlockedSum

set_option maxRecDepth 16384
set_option pp.maxSteps 4000
set_option pp.deepTerms false
set_option pp.proofs false

noncomputable section

namespace Cert.KernelIdeal.Hand

open Cert.KernelIdeal Cert.KernelIdeal.Gen Cert.KernelIdeal.PayAt
open Idealize.ShloMosaic Idealize.ShloMosaic.TcCoe Idealize.ShloMosaic.ValueIdx Idealize.SL.Sem
open Idealize.ShloMosaic.Pipeline (Dat)
open Attn

/-! ## Blocked sums are flat sums -/

/-- Four blocks of 512 consecutive terms are the 2048 terms. -/
theorem flat4x512 (f : ℕ → ℝ) : ∑ i ∈ Finset.range (3 + 1), ∑ k : Fin 512, f (i * 512 + k.val) = ∑ kk : Fin 2048, f kk.val := by
  show ∑ i ∈ Finset.range 4, ∑ k : Fin 512, f (i * 512 + k.val) = _
  rw [← Fin.sum_univ_eq_sum_range (fun i => ∑ k : Fin 512, f (i * 512 + k.val)) 4]
  exact (BlockedSum.sum_fin_mul f 4 512).symm

/-- Four blocks of 1024 consecutive terms are the 4096 terms. -/
theorem flat4x1024 (f : ℕ → ℝ) : (((0 + ∑ j : Fin 1024, f (0 * 1024 + j.val)) + ∑ j : Fin 1024, f (1 * 1024 + j.val)) + ∑ j : Fin 1024, f (2 * 1024 + j.val))
      + ∑ j : Fin 1024, f (3 * 1024 + j.val) = ∑ J : Fin 4096, f J.val := by
  have h := BlockedSum.sum_fin_mul f 4 1024
  rw [Fin.sum_univ_four] at h
  rw [zero_add]
  exact h.symm

section Sums

variable (x : Fin 8 → Fin 2048 → Fin 1024 → ℝ) (wq wk wv : Fin 1024 → Fin 1024 → ℝ)
  (mask : Fin 8 → Fin 2048 → Fin 2048 → Bool) (negw : ℝ)

theorem accS_three (b : Fin 8) (q : Fin 2048) : accS x wq wk mask negw b q 3 = ∑ k : Fin 2048, Real.exp (Spec.score x wq wk mask negw b q k) := by
  unfold accS tileS
  rw [flat4x512 (fun n => Real.exp (scoreN x wq wk mask negw b q n))]
  refine Finset.sum_congr rfl fun kk _ => ?_
  unfold scoreN
  rw [dif_pos kk.isLt]

theorem accSV_three (b : Fin 8) (q : Fin 2048) (e : Fin 1024) :
    accSV x wq wk wv mask negw b q e 3 = ∑ k : Fin 2048, Real.exp (Spec.score x wq wk mask negw b q k) * Spec.proj x wv b k e := by
  unfold accSV tileSV
  rw [flat4x512 (fun n => Real.exp (scoreN x wq wk mask negw b q n) * valN x wv b n e)]
  refine Finset.sum_congr rfl fun kk _ => ?_
  unfold scoreN valN
  rw [dif_pos kk.isLt, dif_pos kk.isLt]

theorem accS_three_pos (b : Fin 8) (q : Fin 2048) : 0 < accS x wq wk mask negw b q 3 := by
  rw [accS_three]
  exact Finset.sum_pos (fun k _ => Real.exp_pos _) ⟨⟨0, by norm_num⟩, Finset.mem_univ _⟩

end Sums

/-! ## The feed-forward layer, slice by slice -/

theorem w1s_at (x4 : Vec Ideal S1024x4096 .bf16) (cc : Fin 4) (e' j : Fin 1024) :
    w1s x4 cc (ix2 e' j) = x4 (ix2 e' (⟨cc.val * 1024 + j.val, by have := cc.isLt; have := j.isLt; omega⟩ : Fin 4096)) := by
  fin_cases cc <;>
  · show x4 _ = x4 _
    refine congrArg x4 (funext fun a => Fin.ext ?_)
    match a with
    | ⟨0, _⟩ => show (0 : ℕ) + 1 * e'.val = e'.val; omega
    | ⟨1, _⟩ => first
      | (show (0 : ℕ) + 1 * j.val = 0 * 1024 + j.val; omega)
      | (show (1024 : ℕ) + 1 * j.val = 1 * 1024 + j.val; omega)
      | (show (2048 : ℕ) + 1 * j.val = 2 * 1024 + j.val; omega)
      | (show (3072 : ℕ) + 1 * j.val = 3 * 1024 + j.val; omega)

theorem b1s_at (x5 : Vec Ideal S4096 .f32) (cc : Fin 4) (j : Fin 1024) :
    b1s x5 cc (ix1 j) = x5 (ix1 (⟨cc.val * 1024 + j.val, by have := cc.isLt; have := j.isLt; omega⟩ : Fin 4096)) := by
  fin_cases cc <;>
  · show x5 _ = x5 _
    refine congrArg x5 (funext fun a => Fin.ext ?_)
    match a with
    | ⟨0, _⟩ => first
      | (show (0 : ℕ) + 1 * j.val = 0 * 1024 + j.val; omega)
      | (show (1024 : ℕ) + 1 * j.val = 1 * 1024 + j.val; omega)
      | (show (2048 : ℕ) + 1 * j.val = 2 * 1024 + j.val; omega)
      | (show (3072 : ℕ) + 1 * j.val = 3 * 1024 + j.val; omega)

theorem w2s_at (x6 : Vec Ideal S4096x1024 .bf16) (cc : Fin 4) (j e : Fin 1024) :
    w2s x6 cc (ix2 j e) = x6 (ix2 (⟨cc.val * 1024 + j.val, by have := cc.isLt; have := j.isLt; omega⟩ : Fin 4096) e) := by
  fin_cases cc <;>
  · show x6 _ = x6 _
    refine congrArg x6 (funext fun a => Fin.ext ?_)
    match a with
    | ⟨0, _⟩ => first
      | (show (0 : ℕ) + 1 * j.val = 0 * 1024 + j.val; omega)
      | (show (1024 : ℕ) + 1 * j.val = 1 * 1024 + j.val; omega)
      | (show (2048 : ℕ) + 1 * j.val = 2 * 1024 + j.val; omega)
      | (show (3072 : ℕ) + 1 * j.val = 3 * 1024 + j.val; omega)
    | ⟨1, _⟩ => show (0 : ℕ) + 1 * e.val = e.val; omega

/-- The hidden unit of a slice, for a real row: the real hidden unit. -/
theorem hidv_real (c6 : FVec Ideal S512x1024 .bf16) (x4 : Vec Ideal S1024x4096 .bf16) (x5 : Vec Ideal S4096 .f32) (r : Fin 512)
    (cx : Fin 1024 → ℝ) (w1r : Fin 1024 → Fin 4096 → ℝ) (b1r : Fin 4096 → ℝ)
    (hcx : ∀ e', c6 (ix2 r e') = ((cx e' : ℝ) : EReal)) (hw1 : ∀ e' J, x4 (ix2 e' J) = ((w1r e' J : ℝ) : EReal))
    (hb1 : ∀ J, x5 (ix1 J) = ((b1r J : ℝ) : EReal)) (cc : Fin 4) (j : Fin 1024) :
    hidv c6 (w1s x4 cc) (b1s x5 cc) r j
      = ((max ((∑ e' : Fin 1024, cx e' * w1r e' ⟨cc.val * 1024 + j.val, by have := cc.isLt; have := j.isLt; omega⟩)
          + b1r ⟨cc.val * 1024 + j.val, by have := cc.isLt; have := j.isLt; omega⟩) 0 : ℝ) : EReal) := by
  unfold hidv
  simp only [w1s_at, b1s_at, hcx, hw1, hb1, ← EReal.coe_mul]
  rw [← SoftmaxRow.coe_sum, ← EReal.coe_add, ← EReal.coe_zero]
  exact (EReal.coe_strictMono.monotone.map_max).symm

/-- THE STORED BLOCK over variables: for a real normalised row `cx` and real feed-forward arrays, the body's output
    payload at `(r, e)` is the feed-forward layer of the row over all 4096 hidden units, plus the bias and the row. -/
theorem out_formula (A : FVec Ideal S512x1024 .f32) (L : FVec Ideal S512x1 .f32) (x4 : Vec Ideal S1024x4096 .bf16) (x5 : Vec Ideal S4096 .f32)
    (x6 : Vec Ideal S4096x1024 .bf16) (x7 : Vec Ideal S1024 .f32) (r : Fin 512) (e : Fin 1024)
    (cx : Fin 1024 → ℝ) (w1r : Fin 1024 → Fin 4096 → ℝ) (b1r : Fin 4096 → ℝ) (w2r : Fin 4096 → Fin 1024 → ℝ) (b2r : Fin 1024 → ℝ)
    (hcx : ∀ e', k1_pay5 (F := Ideal) A L (ix2 r e') = ((cx e' : ℝ) : EReal)) (hw1 : ∀ e' J, x4 (ix2 e' J) = ((w1r e' J : ℝ) : EReal))
    (hb1 : ∀ J, x5 (ix1 J) = ((b1r J : ℝ) : EReal)) (hw2 : ∀ J e, x6 (ix2 J e) = ((w2r J e : ℝ) : EReal))
    (hb2 : ∀ e, x7 (ix1 e) = ((b2r e : ℝ) : EReal)) :
    k1_pay4 (F := Ideal) (k1_pay5 (F := Ideal) A L)
        (k1_pay10 (F := Ideal) (k1_pay6 (F := Ideal) A L) (k1_pay7 (F := Ideal) A L (w1s x4 0) (b1s x5 0) (w2s x6 0)) (k1_pay8 (F := Ideal) A L (w1s x4 1) (b1s x5 1)) (k1_pay9 (w2s x6 1))
          (w1s x4 2) (b1s x5 2) (w2s x6 2) (w1s x4 3) (b1s x5 3) (w2s x6 3))
        (k1_pay11 x7) (ix3 (0 : Fin 1) r e)
      = ((((∑ J : Fin 4096, max ((∑ e' : Fin 1024, cx e' * w1r e' J) + b1r J) 0 * w2r J e) + b2r e) + cx e : ℝ) : EReal) := by
  have hc6 : ∀ e', k1_pay6 (F := Ideal) A L (ix2 r e') = ((cx e' : ℝ) : EReal) := fun e' => (pay6_at A L r e').trans (hcx e')
  have hh : ∀ (cc : Fin 4) (j : Fin 1024), hidv (k1_pay6 (F := Ideal) A L) (w1s x4 cc) (b1s x5 cc) r j = _ :=
    fun cc j => hidv_real (k1_pay6 (F := Ideal) A L) x4 x5 r cx w1r b1r hc6 hw1 hb1 cc j
  rw [pay4_at, pay10_at, pay7_at, pay11_at, hb2, hcx]
  simp only [pay8_at, pay9_eq, hh, w2s_at, hw2, ← EReal.coe_mul]
  simp only [← SoftmaxRow.coe_sum]
  rw [← EReal.coe_zero]
  simp only [← EReal.coe_add]
  refine congrArg (fun y : ℝ => (y : EReal)) ?_
  refine congrArg (· + cx e) (congrArg (· + b2r e) ?_)
  exact flat4x1024 (fun n => if hn : n < 4096 then max ((∑ e' : Fin 1024, cx e' * w1r e' ⟨n, hn⟩) + b1r ⟨n, hn⟩) 0 * w2r ⟨n, hn⟩ e else 0) |>.trans
    (Finset.sum_congr rfl fun J _ => by simp only [dif_pos J.isLt]) |> fun h => by
      refine Eq.trans ?_ h
      refine congrArg₂ (· + ·) (congrArg₂ (· + ·) (congrArg₂ (· + ·) (congrArg (0 + ·) ?_) ?_) ?_) ?_ <;>
      · refine Finset.sum_congr rfl fun j _ => ?_
        have hj := j.isLt
        rw [dif_pos (by omega)]
        rfl

/-! ## The output block at a point of key tile 3, and the output array -/

section Region1

variable {V : (c : Dev nD) → (b : Ref sig .tc) → Buf (Elt Ideal) ((c : Thread nD τ).loc b)} {c : Dev nD}
variable {x : Fin 8 → Fin 2048 → Fin 1024 → ℝ} {wq wk wv : Fin 1024 → Fin 1024 → ℝ}
  {w1 : Fin 1024 → Fin 4096 → ℝ} {b1 : Fin 4096 → ℝ} {w2 : Fin 4096 → Fin 1024 → ℝ} {b2 : Fin 1024 → ℝ}
  {mask : Fin 8 → Fin 2048 → Fin 2048 → Bool} {negw : ℝ}

/-- The running weighted sum over the running sum, at a point of key tile 3, is the row's attention output. -/
theorem ctx_real (h : EntryReal V c x wq wk wv w1 b1 w2 b2 mask negw) (t : Fin cfg1.N) (h1 : t.val % 4 = 3) (r : Fin 512) (e' : Fin 1024) :
    k1_pay5 (F := Ideal) ((outsAt1 V c t.val t.isLt).2.2.2) ((outsAt1 V c t.val t.isLt).2.2.1) (ix2 r e')
      = ((Spec.ctx x wq wk wv mask negw (bOf t) (qOf t r) e' : ℝ) : EReal) := by
  have T := tracked h t.val t.isLt r e'
  rw [h1] at T
  rw [pay5_at]
  refine (tracks_div _ _ _ _ _ T (accS_three_pos x wq wk mask negw _ _)).trans ?_
  unfold Spec.ctx
  rw [accS_three, accSV_three]

/-- The stored block, over this point's running sums. -/
theorem out_block (t : Fin cfg1.N) (h0 : ¬t.val % 4 = 0) (h1 : t.val % 4 = 3) :
    (outsAt1 V c t.val t.isLt).1
      = k1_pay4 (F := Ideal) (k1_pay5 (F := Ideal) ((outsAt1 V c t.val t.isLt).2.2.2) ((outsAt1 V c t.val t.isLt).2.2.1))
          (k1_pay10 (F := Ideal) (k1_pay6 (F := Ideal) ((outsAt1 V c t.val t.isLt).2.2.2) ((outsAt1 V c t.val t.isLt).2.2.1))
            (k1_pay7 (F := Ideal) ((outsAt1 V c t.val t.isLt).2.2.2) ((outsAt1 V c t.val t.isLt).2.2.1) (w1s (iblk1 V c 4 t) 0) (b1s (iblk1 V c 5 t) 0) (w2s (iblk1 V c 6 t) 0))
            (k1_pay8 (F := Ideal) ((outsAt1 V c t.val t.isLt).2.2.2) ((outsAt1 V c t.val t.isLt).2.2.1) (w1s (iblk1 V c 4 t) 1) (b1s (iblk1 V c 5 t) 1))
            (k1_pay9 (w2s (iblk1 V c 6 t) 1))
            (w1s (iblk1 V c 4 t) 2) (b1s (iblk1 V c 5 t) 2) (w2s (iblk1 V c 6 t) 2) (w1s (iblk1 V c 4 t) 3) (b1s (iblk1 V c 5 t) 3) (w2s (iblk1 V c 6 t) 3))
          (k1_pay11 (iblk1 V c 7 t)) := by
  rw [outsAt1_C V c t h0 h1]
  unfold caseC
  dsimp only
  rw [out1_C_8_eq, sout1_C_1_eq, sout1_C_2_eq]

/-- At a point of key tile 3 the stored block holds the result of the point's rows. -/
theorem out_real (h : EntryReal V c x wq wk wv w1 b1 w2 b2 mask negw) (t : Fin cfg1.N) (h0 : ¬t.val % 4 = 0) (h1 : t.val % 4 = 3) (r : Fin 512) (e : Fin 1024) :
    (outsAt1 V c t.val t.isLt).1 (ix3 (0 : Fin 1) r e)
      = ((Spec.out x wq wk wv w1 b1 w2 b2 mask negw (bOf t) (qOf t r) e : ℝ) : EReal) := by
  rw [out_block t h0 h1]
  refine (out_formula _ _ (iblk1 V c 4 t) (iblk1 V c 5 t) (iblk1 V c 6 t) (iblk1 V c 7 t) r e
    (fun e' => Spec.ctx x wq wk wv mask negw (bOf t) (qOf t r) e') w1 b1 w2 b2
    (fun e' => ctx_real h t h1 r e')
    (fun e' J => (blk1_4_at V c t e' J).trans (h.hw1 _ _)) (fun J => (blk1_5_at V c t J).trans (h.hb1 _))
    (fun J e => (blk1_6_at V c t J e).trans (h.hw2 _ _)) (fun e => (blk1_7_at V c t e).trans (h.hb2 _))).trans ?_
  rfl

variable (x wq wk wv w1 b1 w2 b2 mask negw)

/-- What the output array ends holding. -/
def outArr : S8x2048x1024.Idx → EReal := fun i => ((Spec.out x wq wk wv w1 b1 w2 b2 mask negw (i 0 : Fin 8) (i 1 : Fin 2048) (i 2 : Fin 1024) : ℝ) : EReal)

variable {x wq wk wv w1 b1 w2 b2 mask negw}

/-- WHAT A POINT OF KEY TILE 3 WRITES BACK is its block of `outArr`. -/
theorem flushed1_8_eq (h : EntryReal V c x wq wk wv w1 b1 w2 b2 mask negw) (t : Fin cfg1.N) (hf : (cfg1.win 8).flush t = true) :
    (dat1 V c).flushed 8 t = ((cfg1.win 8).blk t).view.read (Elt Ideal) (outArr x wq wk wv w1 b1 w2 b2 mask negw) := by
  have h1 : t.val % 4 = 3 := (flush1_8 t).mp hf
  have h0 : ¬t.val % 4 = 0 := by omega
  show (cfg1.win 8).cut (grid1.coords t) ((dat1 V c).after 8 t) = _
  rw [after1_8]
  funext j
  obtain ⟨j0, r, e, rfl⟩ : ∃ (j0 : Fin 1) (r : Fin 512) (e : Fin 1024), j = ix3 j0 r e := ⟨j 0, j 1, j 2, eq_ix3 j⟩
  obtain rfl : j0 = 0 := Subsingleton.elim _ _
  show (outsAt1 V c t.val t.isLt).1 (ix3 (0 : Fin 1) r e) = outArr x wq wk wv w1 b1 w2 b2 mask negw (((cfg1.win 8).blk t).view.emb (ix3 (0 : Fin 1) r e))
  rw [out_real h t h0 h1 r e]
  unfold outArr
  obtain ⟨-, -, -, -, -, -, -, -, ⟨e0, e1, e2⟩⟩ := idx1 t
  have hb : ((((cfg1.win 8).blk t).view.emb (ix3 (0 : Fin 1) r e)) 0 : Fin 8) = bOf t :=
    Fin.ext (by show win1_8.index t (0 : Fin 3) * 1 + 1 * (0 : ℕ) = t.val / 16; omega)
  have hq : ((((cfg1.win 8).blk t).view.emb (ix3 (0 : Fin 1) r e)) 1 : Fin 2048) = qOf t r :=
    Fin.ext (by show win1_8.index t (1 : Fin 3) * 512 + 1 * r.val = t.val / 4 % 4 * 512 + r.val; omega)
  have he : ((((cfg1.win 8).blk t).view.emb (ix3 (0 : Fin 1) r e)) 2 : Fin 1024) = e :=
    Fin.ext (by show win1_8.index t (2 : Fin 3) * 1024 + 1 * e.val = e.val; omega)
  rw [hb, hq, he]

/-- An index of the output array is in point `t`'s block iff each coordinate is in the block's range. -/
theorem mem_blk1_8 (t : Fin cfg1.N) (i : S8x2048x1024.Idx) :
    i ∈ ((cfg1.win 8).blk t).view.set ↔ ∀ a : Fin 3, win1_8.index t a * S1x512x1024.size a ≤ (i a).val ∧ (i a).val < win1_8.index t a * S1x512x1024.size a + S1x512x1024.size a := by
  show i ∈ ((View.whole main_v11).slice (win1_8.rect t)).set ↔ _
  rw [View.set_slice_whole, Rect.mem_set_unit]
  exact Iff.rfl

/-- Every index is written back by the key-tile-3 point of its batch and query tile. -/
theorem cover1_8 (i : S8x2048x1024.Idx) :
    ∃ t : Fin cfg1.N, (cfg1.win 8).flush t = true ∧ i ∈ ((cfg1.win 8).blk t).view.set := by
  have hi0 : (i 0).val < 8 := (i 0).isLt
  have hi1 : (i 1).val < 2048 := (i 1).isLt
  have hi2 : (i 2).val < 1024 := (i 2).isLt
  have hN : cfg1.N = 128 := N_1
  have htv : (i 0).val * 16 + (i 1).val / 512 * 4 + 3 < cfg1.N := by omega
  refine ⟨⟨(i 0).val * 16 + (i 1).val / 512 * 4 + 3, htv⟩, (flush1_8 _).mpr (by show ((i 0).val * 16 + (i 1).val / 512 * 4 + 3) % 4 = 3; omega), ?_⟩
  rw [mem_blk1_8]
  obtain ⟨-, -, -, -, -, -, -, -, ⟨e0, e1, e2⟩⟩ := idx1 ⟨(i 0).val * 16 + (i 1).val / 512 * 4 + 3, htv⟩
  have e0' : win1_8.index ⟨(i 0).val * 16 + (i 1).val / 512 * 4 + 3, htv⟩ (0 : Fin 3) = ((i 0).val * 16 + (i 1).val / 512 * 4 + 3) / 16 := e0
  have e1' : win1_8.index ⟨(i 0).val * 16 + (i 1).val / 512 * 4 + 3, htv⟩ (1 : Fin 3) = ((i 0).val * 16 + (i 1).val / 512 * 4 + 3) / 4 % 4 := e1
  have e2' : win1_8.index ⟨(i 0).val * 16 + (i 1).val / 512 * 4 + 3, htv⟩ (2 : Fin 3) = 0 := e2
  intro a
  match a with
  | ⟨0, _⟩ => show win1_8.index _ (0 : Fin 3) * 1 ≤ (i 0).val ∧ (i 0).val < win1_8.index _ (0 : Fin 3) * 1 + 1; rw [e0']; omega
  | ⟨1, _⟩ => show win1_8.index _ (1 : Fin 3) * 512 ≤ (i 1).val ∧ (i 1).val < win1_8.index _ (1 : Fin 3) * 512 + 512; rw [e1']; omega
  | ⟨2, _⟩ => show win1_8.index _ (2 : Fin 3) * 1024 ≤ (i 2).val ∧ (i 2).val < win1_8.index _ (2 : Fin 3) * 1024 + 1024; rw [e2']; omega

/-- THE OUTPUT ARRAY after the region. -/
theorem arr1_8 (h : EntryReal V c x wq wk wv w1 b1 w2 b2 mask negw) : (dat1 V c).arrAt 8 cfg1.N = outArr x wq wk wv w1 b1 w2 b2 mask negw :=
  (dat1 V c).arrAt_eq_of_cover 8 (outArr x wq wk wv w1 b1 w2 b2 mask negw) (fun t hf => flushed1_8_eq h t hf) cover1_8

end Region1

end Cert.KernelIdeal.Hand

end
-- ==== Proof.QkvValue.lean ====
/-
  What the projection region leaves in its three output arrays, at the ideal instance and at ANY contents `V` of the
  core's buffers when the region is entered: each output array is the plain matrix product of the flattened input
  (16384 rows of 1024) with that output's 1024 × 1024 weight matrix,
      out (r, f) = ∑ e, input (r, e) * weight (e, f).
  The steps.  (1) The body's store for an output, read at an index of the 1024 × 1024 staging buffer, is the sum over
  the contracted coordinate of the loaded input block times the loaded weight block: over the extended reals the two
  narrowing format changes and the same-shape casts are identities, the accumulator is zero, and the product's
  dimension record is the plain one.  (2) The printed index maps, decided once over the 16 grid points: the input and
  the three outputs are at block (t, 0) at point t, the weights at block (0, 0).  (3) So what point t writes back is
  block t of the whole-array product.  (4) Every index (r, f) of an output lies in the block of point r / 1024, and
  every point writes back.  (5) Hence the array after the launch is the product.
-/
import proofs.«108464_j44547400794204_2_alg».proof.Proof.Region0
import proofs.«108464_j44547400794204_2_alg».proof.Proof.LibPlainProduct
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## The body's stores, read at an index -/

/-- The zero offsets of the one rectangle the body uses. -/
theorem hzQ : (![0, 0] : Fin 2 → Nat) = fun _ => 0 := funext fun a => by fin_cases a <;> rfl

/-- The body's product contracts the first operand's second axis with the second operand's first and has no batch
    axis: the plain product of two 1024 × 1024 matrices. -/
theorem dotQ_plain : dot_S1024x1024_S1024x1024_S1024x1024_1_0_0_1_n_n = DotDims.plain 1024 1024 1024 := rfl

/-- Output window 4's store at `(p, q)`: row `p` of the loaded input block times column `q` of the loaded weight block. -/
theorem out0_4_at (x0 : Vec Ideal S1024x1024 .f32) (x1 : Vec Ideal S1024x1024 .bf16) (p q : Fin 1024) :
    out0_4 x0 x1 (ix2 p q) = ∑ e : Fin 1024, x0 (ix2 p e) * x1 (ix2 e q) := by
  unfold out0_4
  rw [View.canon_unit_zero hzQ]
  simp only [View.ld_unit_zero (S := S1024x1024) hzQ]
  unfold k0_pay2 k0_pay1
  simp only [shapeCast_self]
  rw [truncf_apply, PlainProduct.matmul_at _ dotQ_plain, constant_apply, Ideal.ofBits_zero_f32, zero_add]
  rfl

/-- Output window 5's store at `(p, q)`: row `p` of the loaded input block times column `q` of the loaded weight block. -/
theorem out0_5_at (x0 : Vec Ideal S1024x1024 .f32) (x1 : Vec Ideal S1024x1024 .bf16) (p q : Fin 1024) :
    out0_5 x0 x1 (ix2 p q) = ∑ e : Fin 1024, x0 (ix2 p e) * x1 (ix2 e q) := by
  unfold out0_5
  rw [View.canon_unit_zero hzQ]
  simp only [View.ld_unit_zero (S := S1024x1024) hzQ]
  unfold k0_pay3 k0_pay1
  simp only [shapeCast_self]
  rw [truncf_apply, PlainProduct.matmul_at _ dotQ_plain, constant_apply, Ideal.ofBits_zero_f32, zero_add]
  rfl

/-- Output window 6's store at `(p, q)`: row `p` of the loaded input block times column `q` of the loaded weight block. -/
theorem out0_6_at (x0 : Vec Ideal S1024x1024 .f32) (x1 : Vec Ideal S1024x1024 .bf16) (p q : Fin 1024) :
    out0_6 x0 x1 (ix2 p q) = ∑ e : Fin 1024, x0 (ix2 p e) * x1 (ix2 e q) := by
  unfold out0_6
  rw [View.canon_unit_zero hzQ]
  simp only [View.ld_unit_zero (S := S1024x1024) hzQ]
  unfold k0_pay4 k0_pay1
  simp only [shapeCast_self]
  rw [truncf_apply, PlainProduct.matmul_at _ dotQ_plain, constant_apply, Ideal.ofBits_zero_f32, zero_add]
  rfl

/-! ## The index maps over the grid, and the input blocks as parts of their arrays -/

section Blocks
variable {F : FTy → Type} [FloatOps F]
variable (V : (c : Dev nD) → (b : Ref sig .tc) → Buf (Elt F) ((c : Thread nD τ).loc b))

/-- The printed index maps, decided over the 16 grid points: at point `t` the input and each output are at block
    `(t, 0)`, each weight matrix at block `(0, 0)`. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The input's block at point `t` is rows `1024 t … 1024 t + 1023` of the input array. -/
theorem iblk0_0_at (c : Dev nD) (t : Fin cfg0.N) (p e : Fin 1024) (k : S16384x1024.Idx)
    (hk0 : (k 0).val = t.val * 1024 + p.val) (hk1 : (k 1).val = e.val) :
    (iblk0 V c 0 t : Vec F S1024x1024 .f32) (ix2 p e) = (V c (Pipeline.arrRef spec0 0) : S16384x1024.Idx → Elt F .f32) k := by
  obtain ⟨h00, h01, -⟩ := idx_facts0 t
  unfold iblk0
  rw [View.read_apply]
  show V c (Pipeline.arrRef spec0 0) _ = V c (Pipeline.arrRef spec0 0) _
  congr 1
  funext a
  apply Fin.ext
  match a with
  | ⟨0, _⟩ => show win0_0.index t 0 * 1024 + 1 * p.val = (k 0).val; rw [h00, hk0]; omega
  | ⟨1, _⟩ => show win0_0.index t 1 * 1024 + 1 * e.val = (k 1).val; rw [h01, hk1]; omega

/-- Weight window 1's block at any point is its whole array. -/
theorem iblk0_1_at (c : Dev nD) (t : Fin cfg0.N) (e q : Fin 1024) :
    (iblk0 V c 1 t : Vec F S1024x1024 .bf16) (ix2 e q) = (V c (Pipeline.arrRef spec0 1) : S1024x1024.Idx → Elt F .bf16) (ix2 e q) := by
  obtain ⟨-, -, hw0, hw1, -⟩ := idx_facts0 t
  unfold iblk0
  rw [View.read_apply]
  show V c (Pipeline.arrRef spec0 1) _ = V c (Pipeline.arrRef spec0 1) _
  congr 1
  funext a
  apply Fin.ext
  match a with
  | ⟨0, _⟩ => show win0_1.index t 0 * 1024 + 1 * e.val = e.val; rw [hw0]; omega
  | ⟨1, _⟩ => show win0_1.index t 1 * 1024 + 1 * q.val = q.val; rw [hw1]; omega

/-- Weight window 2's block at any point is its whole array. -/
theorem iblk0_2_at (c : Dev nD) (t : Fin cfg0.N) (e q : Fin 1024) :
    (iblk0 V c 2 t : Vec F S1024x1024 .bf16) (ix2 e q) = (V c (Pipeline.arrRef spec0 2) : S1024x1024.Idx → Elt F .bf16) (ix2 e q) := by
  obtain ⟨-, -, -, -, hw0, hw1, -⟩ := idx_facts0 t
  unfold iblk0
  rw [View.read_apply]
  show V c (Pipeline.arrRef spec0 2) _ = V c (Pipeline.arrRef spec0 2) _
  congr 1
  funext a
  apply Fin.ext
  match a with
  | ⟨0, _⟩ => show win0_2.index t 0 * 1024 + 1 * e.val = e.val; rw [hw0]; omega
  | ⟨1, _⟩ => show win0_2.index t 1 * 1024 + 1 * q.val = q.val; rw [hw1]; omega

/-- Weight window 3's block at any point is its whole array. -/
theorem iblk0_3_at (c : Dev nD) (t : Fin cfg0.N) (e q : Fin 1024) :
    (iblk0 V c 3 t : Vec F S1024x1024 .bf16) (ix2 e q) = (V c (Pipeline.arrRef spec0 3) : S1024x1024.Idx → Elt F .bf16) (ix2 e q) := by
  obtain ⟨-, -, -, -, -, -, hw0, hw1, -⟩ := idx_facts0 t
  unfold iblk0
  rw [View.read_apply]
  show V c (Pipeline.arrRef spec0 3) _ = V c (Pipeline.arrRef spec0 3) _
  congr 1
  funext a
  apply Fin.ext
  match a with
  | ⟨0, _⟩ => show win0_3.index t 0 * 1024 + 1 * e.val = e.val; rw [hw0]; omega
  | ⟨1, _⟩ => show win0_3.index t 1 * 1024 + 1 * q.val = q.val; rw [hw1]; omega

end Blocks

/-! ## The arrays after the launch -/

section AtIdeal
variable (V : (c : Dev nD) → (b : Ref sig .tc) → Buf (Elt Ideal) ((c : Thread nD τ).loc b))

/-- The rows of a 16384 × 1024 array times a 1024 × 1024 matrix, entry by entry. -/
def rowsTimes (X : S16384x1024.Idx → EReal) (M : S1024x1024.Idx → EReal) : S16384x1024.Idx → EReal :=
  fun i => ∑ e : Fin 1024, X (ix2 (i 0 : Fin 16384) e) * M (ix2 e (i 1 : Fin 1024))

/-- Its entry at `(r, f)`. -/
theorem rowsTimes_at (X : S16384x1024.Idx → EReal) (M : S1024x1024.Idx → EReal) (r : Fin 16384) (f : Fin 1024) :
    rowsTimes X M (ix2 r f) = ∑ e : Fin 1024, X (ix2 r e) * M (ix2 e f) := rfl

/-! ### Output window 4 (weights: window 1) -/

/-- What point `t` writes back to output window 4's array is block `t` of the product of the input array with window
    1's weight array, both as the region finds them. -/
theorem flushed0_4_eq (c : Dev nD) (t : Fin cfg0.N) :
    (dat0 (F := Ideal) V c).flushed 4 t
      = ((cfg0.win 4).blk t).view.read (Elt Ideal) (rowsTimes (V c (Pipeline.arrRef spec0 0)) (V c (Pipeline.arrRef spec0 1))) := by
  show (cfg0.win 4).cut (grid0.coords t) ((dat0 (F := Ideal) V c).after 4 t) = _
  rw [after0_4]
  obtain ⟨-, -, -, -, -, -, -, -, hw0, hw1, -⟩ := idx_facts0 t
  funext j
  have hp : (j 0).val < 1024 := (j 0).isLt
  have hq : (j 1).val < 1024 := (j 1).isLt
  have hx : (cfg0.win 4).xinj (grid0.coords t) j = ix2 (⟨(j 0).val, hp⟩ : Fin 1024) (⟨(j 1).val, hq⟩ : Fin 1024) :=
    funext fun a => by match a with | ⟨0, _⟩ => rfl | ⟨1, _⟩ => rfl
  rw [View.read_apply]
  show out0_4 (iblk0 V c 0 t) (iblk0 V c 1 t) ((cfg0.win 4).xinj (grid0.coords t) j)
    = rowsTimes (V c (Pipeline.arrRef spec0 0)) (V c (Pipeline.arrRef spec0 1)) (((cfg0.win 4).blk t).view.emb j)
  rw [hx]
  refine (out0_4_at (iblk0 V c 0 t) (iblk0 V c 1 t) _ _).trans ?_
  unfold rowsTimes
  refine Finset.sum_congr rfl fun e _ => ?_
  have e0 := iblk0_0_at V c t ⟨(j 0).val, hp⟩ e (ix2 ((((cfg0.win 4).blk t).view.emb j) 0 : Fin 16384) e)
    (by show win0_4.index t 0 * 1024 + 1 * (j 0).val = t.val * 1024 + (j 0).val; rw [hw0]; omega) rfl
  have hq' : (⟨(j 1).val, hq⟩ : Fin 1024) = ((((cfg0.win 4).blk t).view.emb j) 1 : Fin 1024) :=
    Fin.ext (by show (j 1).val = win0_4.index t 1 * 1024 + 1 * (j 1).val; rw [hw1]; omega)
  have e1 := iblk0_1_at V c t e ⟨(j 1).val, hq⟩
  rw [e0, e1, hq']

/-- An index of output window 4's array is in point `t`'s block iff each coordinate is in the block's range on its axis. -/
theorem mem_blk0_4 (t : Fin cfg0.N) (i : S16384x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v6_0).slice (win0_4.rect t)).set ↔ _
  rw [View.set_slice_whole, Rect.mem_set_unit]
  exact Iff.rfl

/-- Every index `(r, f)` of the array is in the block of point `r / 1024`, which writes back. -/
theorem cover0_4 (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  have hN : cfg0.N = 16 := N_0
  obtain ⟨t, ht⟩ : ∃ t : Fin cfg0.N, t.val = (i 0).val / 1024 := ⟨⟨(i 0).val / 1024, by rw [hN]; omega⟩, rfl⟩
  obtain ⟨-, -, -, -, -, -, -, -, hw0, hw1, -⟩ := idx_facts0 t
  refine ⟨t, flush0_4 t, ?_⟩
  rw [mem_blk0_4]
  intro a
  match a with
  | ⟨0, _⟩ => show win0_4.index t 0 * 1024 ≤ (i 0).val ∧ (i 0).val < win0_4.index t 0 * 1024 + 1024; rw [hw0, ht]; omega
  | ⟨1, _⟩ => show win0_4.index t 1 * 1024 ≤ (i 1).val ∧ (i 1).val < win0_4.index t 1 * 1024 + 1024; rw [hw1]; omega

/-- OUTPUT WINDOW 4'S ARRAY AFTER THE LAUNCH: the input array times window 1's weight array. -/
theorem arr0_4_eq (c : Dev nD) :
    (dat0 (F := Ideal) V c).arrAt 4 cfg0.N = rowsTimes (V c (Pipeline.arrRef spec0 0)) (V c (Pipeline.arrRef spec0 1)) :=
  (dat0 (F := Ideal) V c).arrAt_eq_of_cover 4 _ (fun t _ => flushed0_4_eq V c t) cover0_4

/-- The same at an index `(r, f)`; `rowsTimes_at` reads the right side as `∑ e, input (r, e) * weight (e, f)`. -/
theorem arr0_4 (c : Dev nD) (r : Fin 16384) (f : Fin 1024) :
    (dat0 (F := Ideal) V c).arrAt 4 cfg0.N (ix2 r f)
      = rowsTimes (V c (Pipeline.arrRef spec0 0)) (V c (Pipeline.arrRef spec0 1)) (ix2 r f) :=
  congrFun (arr0_4_eq V c) _

/-! ### Output window 5 (weights: window 2) -/

/-- What point `t` writes back to output window 5's array is block `t` of the product of the input array with window
    2's weight array, both as the region finds them. -/
theorem flushed0_5_eq (c : Dev nD) (t : Fin cfg0.N) :
    (dat0 (F := Ideal) V c).flushed 5 t
      = ((cfg0.win 5).blk t).view.read (Elt Ideal) (rowsTimes (V c (Pipeline.arrRef spec0 0)) (V c (Pipeline.arrRef spec0 2))) := by
  show (cfg0.win 5).cut (grid0.coords t) ((dat0 (F := Ideal) V c).after 5 t) = _
  rw [after0_5]
  obtain ⟨-, -, -, -, -, -, -, -, -, -, hw0, hw1, -⟩ := idx_facts0 t
  funext j
  have hp : (j 0).val < 1024 := (j 0).isLt
  have hq : (j 1).val < 1024 := (j 1).isLt
  have hx : (cfg0.win 5).xinj (grid0.coords t) j = ix2 (⟨(j 0).val, hp⟩ : Fin 1024) (⟨(j 1).val, hq⟩ : Fin 1024) :=
    funext fun a => by match a with | ⟨0, _⟩ => rfl | ⟨1, _⟩ => rfl
  rw [View.read_apply]
  show out0_5 (iblk0 V c 0 t) (iblk0 V c 2 t) ((cfg0.win 5).xinj (grid0.coords t) j)
    = rowsTimes (V c (Pipeline.arrRef spec0 0)) (V c (Pipeline.arrRef spec0 2)) (((cfg0.win 5).blk t).view.emb j)
  rw [hx]
  refine (out0_5_at (iblk0 V c 0 t) (iblk0 V c 2 t) _ _).trans ?_
  unfold rowsTimes
  refine Finset.sum_congr rfl fun e _ => ?_
  have e0 := iblk0_0_at V c t ⟨(j 0).val, hp⟩ e (ix2 ((((cfg0.win 5).blk t).view.emb j) 0 : Fin 16384) e)
    (by show win0_5.index t 0 * 1024 + 1 * (j 0).val = t.val * 1024 + (j 0).val; rw [hw0]; omega) rfl
  have hq' : (⟨(j 1).val, hq⟩ : Fin 1024) = ((((cfg0.win 5).blk t).view.emb j) 1 : Fin 1024) :=
    Fin.ext (by show (j 1).val = win0_5.index t 1 * 1024 + 1 * (j 1).val; rw [hw1]; omega)
  have e1 := iblk0_2_at V c t e ⟨(j 1).val, hq⟩
  rw [e0, e1, hq']

/-- An index of output window 5's array is in point `t`'s block iff each coordinate is in the block's range on its axis. -/
theorem mem_blk0_5 (t : Fin cfg0.N) (i : S16384x1024.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v6_1).slice (win0_5.rect t)).set ↔ _
  rw [View.set_slice_whole, Rect.mem_set_unit]
  exact Iff.rfl

/-- Every index `(r, f)` of the array is in the block of point `r / 1024`, which writes back. -/
theorem cover0_5 (i : S16384x1024.Idx) :
    ∃ t : Fin cfg0.N, (cfg0.win 5).flush t = true ∧ i ∈ ((cfg0.win 5).blk t).view.set := by
  have hi0 : (i 0).val < 16384 := (i 0).isLt
  have hi1 : (i 1).val < 1024 := (i 1).isLt
  have hN : cfg0.N = 16 := N_0
  obtain ⟨t, ht⟩ : ∃ t : Fin cfg0.N, t.val = (i 0).val / 1024 := ⟨⟨(i 0).val / 1024, by rw [hN]; omega⟩, rfl⟩
  obtain ⟨-, -, -, -, -, -, -, -, -, -, hw0, hw1, -⟩ := idx_facts0 t
  refine ⟨t, flush0_5 t, ?_⟩
  rw [mem_blk0_5]
  intro a
  match a with
  | ⟨0, _⟩ => show win0_5.index t 0 * 1024 ≤ (i 0).val ∧ (i 0).val < win0_5.index t 0 * 1024 + 1024; rw [hw0, ht]; omega
  | ⟨1, _⟩ => show win0_5.index t 1 * 1024 ≤ (i 1).val ∧ (i 1).val < win0_5.index t 1 * 1024 + 1024; rw [hw1]; omega

/-- OUTPUT WINDOW 5'S ARRAY AFTER THE LAUNCH: the input array times window 2's weight array. -/
theorem arr0_5_eq (c : Dev nD) :
    (dat0 (F := Ideal) V c).arrAt 5 cfg0.N = rowsTimes (V c (Pipeline.arrRef spec0 0)) (V c (Pipeline.arrRef spec0 2)) :=
  (dat0 (F := Ideal) V c).arrAt_eq_of_cover 5 _ (fun t _ => flushed0_5_eq V c t) cover0_5

/-- The same at an index `(r, f)`; `rowsTimes_at` reads the right side as `∑ e, input (r, e) * weight (e, f)`. -/
theorem arr0_5 (c : Dev nD) (r : Fin 16384) (f : Fin 1024) :
    (dat0 (F := Ideal) V c).arrAt 5 cfg0.N (ix2 r f)
      = rowsTimes (V c (Pipeline.arrRef spec0 0)) (V c (Pipeline.arrRef spec0 2)) (ix2 r f) :=
  congrFun (arr0_5_eq V c) _

/-! ### Output window 6 (weights: window 3) -/

/-- What point `t` writes back to output window 6's array is block `t` of the product of the input array with window
    3's weight array, both as the region finds them. -/
theorem flushed0_6_eq (c : Dev nD) (t : Fin cfg0.N) :
    (dat0 (F := Ideal) V c).flushed 6 t
      = ((cfg0.win 6).blk t).view.read (Elt Ideal) (rowsTimes (V c (Pipeline.arrRef spec0 0)) (V c (Pipeline.arrRef spec0 3))) := by
  show (cfg0.win 6).cut (grid0.coords t) ((dat0 (F := Ideal) V c).after 6 t) = _
  rw [after0_6]
  obtain ⟨-, -, -, -, -, -, -, -, -, -, -, -, hw0, hw1⟩ := idx_facts0 t
  funext j
  have hp : (j 0).val < 1024 := (j 0).isLt
  have hq : (j 1).val < 1024 := (j 1).isLt
  have hx : (cfg0.win 6).xinj (grid0.coords t) j = ix2 (⟨(j 0).val, hp⟩ : Fin 1024) (⟨(j 1).val, hq⟩ : Fin 1024) :=
    funext fun a => by match a with | ⟨0, _⟩ => rfl | ⟨1, _⟩ => rfl
  rw [View.read_apply]
  show out0_6 (iblk0 V c 0 t) (iblk0 V c 3 t) ((cfg0.win 6).xinj (grid0.coords t) j)
    = rowsTimes (V c (Pipeline.arrRef spec0 0)) (V c (Pipeline.arrRef spec0 3)) (((cfg0.win 6).blk t).view.emb j)
  rw [hx]
  refine (out0_6_at (iblk0 V c 0 t) (iblk0 V c 3 t) _ _).trans ?_
  unfold rowsTimes
  refine Finset.sum_congr rfl fun e _ => ?_
  have e0 := iblk0_0_at V c t ⟨(j 0).val, hp⟩ e (ix2 ((((cfg0.win 6).blk t).view.emb j) 0 : Fin 16384) e)
    (by show win0_6.index t 0 * 1024 + 1 * (j 0).val = t.val * 1024 + (j 0).val; rw [hw0]; omega) rfl
  have hq' : (⟨(j 1).val, hq⟩ : Fin 1024) = ((((cfg0.win 6).blk t).view.emb j) 1 : Fin 1024) :=
    Fin.ext (by show (j 1).val = win0_6.index t 1 * 1024 + 1 * (j 1).val; rw [hw1]; omega)
  have e1 := iblk0_3_at V c t e ⟨(j 1).val, hq⟩
  rw [e0, e1, hq']

/-- An index of output window 6's array is in point `t`'s block iff each coordinate is in the block's range on its axis. -/
theorem mem_blk0_6 (t : Fin cfg0.N) (i : S16384x1024.Idx) :
    i ∈ ((cfg0.win 6).blk t).view.set ↔ ∀ a : Fin 2, win0_6.index t a * S1024x1024.size a ≤ (i a).val
      ∧ (i a).val < win0_6.index t a * S1024x1024.size a + S1024x1024.size a := by
  show i ∈ ((View.whole main_v6_2).slice (win0_6.rect t)).set ↔ _
  rw [View.set_slice_whole, Rect.mem_set_unit]
  exact Iff.rfl

/-- Every index `(r, f)` of the array is in the block of point `r / 1024`, which writes back. -/
theorem cover0_6 (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  have hN : cfg0.N = 16 := N_0
  obtain ⟨t, ht⟩ : ∃ t : Fin cfg0.N, t.val = (i 0).val / 1024 := ⟨⟨(i 0).val / 1024, by rw [hN]; omega⟩, rfl⟩
  obtain ⟨-, -, -, -, -, -, -, -, -, -, -, -, hw0, hw1⟩ := idx_facts0 t
  refine ⟨t, flush0_6 t, ?_⟩
  rw [mem_blk0_6]
  intro a
  match a with
  | ⟨0, _⟩ => show win0_6.index t 0 * 1024 ≤ (i 0).val ∧ (i 0).val < win0_6.index t 0 * 1024 + 1024; rw [hw0, ht]; omega
  | ⟨1, _⟩ => show win0_6.index t 1 * 1024 ≤ (i 1).val ∧ (i 1).val < win0_6.index t 1 * 1024 + 1024; rw [hw1]; omega

/-- OUTPUT WINDOW 6'S ARRAY AFTER THE LAUNCH: the input array times window 3's weight array. -/
theorem arr0_6_eq (c : Dev nD) :
    (dat0 (F := Ideal) V c).arrAt 6 cfg0.N = rowsTimes (V c (Pipeline.arrRef spec0 0)) (V c (Pipeline.arrRef spec0 3)) :=
  (dat0 (F := Ideal) V c).arrAt_eq_of_cover 6 _ (fun t _ => flushed0_6_eq V c t) cover0_6

/-- The same at an index `(r, f)`; `rowsTimes_at` reads the right side as `∑ e, input (r, e) * weight (e, f)`. -/
theorem arr0_6 (c : Dev nD) (r : Fin 16384) (f : Fin 1024) :
    (dat0 (F := Ideal) V c).arrAt 6 cfg0.N (ix2 r f)
      = rowsTimes (V c (Pipeline.arrRef spec0 0)) (V c (Pipeline.arrRef spec0 3)) (ix2 r f) :=
  congrFun (arr0_6_eq V c) _

end AtIdeal

end Cert.KernelIdeal.Hand

end
-- ==== Proof.Entry.lean ====
/-
  What the attention region is entered with, from the launch memory.  The first host stretch rounds the five weight arrays
  to the narrow format (the identity on the extended reals) and flattens the input to 16384 rows; the projection region
  leaves rows × weights in its three outputs; the second host stretch reshapes those back to batches and widens the mask
  bits to words.  So, when the float arguments hold real numbers, the attention region's query, key and value arrays hold
  the real projections, its mask words are 0 or 1, and its feed-forward arrays are the (real) arguments.
-/
import proofs.«108464_j44547400794204_2_alg».proof.Proof.Run
import proofs.«108464_j44547400794204_2_alg».proof.Proof.QkvValue
import proofs.«108464_j44547400794204_2_alg».proof.Proof.R1Track
import Idealize.ShloMosaic.Lib.StableHlo.Run

set_option maxRecDepth 16384
set_option pp.maxSteps 4000
set_option pp.deepTerms false
set_option pp.proofs false

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Attn

variable (m : (ℓ : Loc nD τ sig) → Buf (Elt Ideal) ℓ) (ρ : Dev nD → PrngReg) (c : Dev nD)

/-! ## The first host stretch -/

/-- The flattened input: row `b · 2048 + t` is row `t` of batch `b`. -/
theorem W1_v5_at (b : Fin 8) (t : Fin 2048) (e : Fin 1024) :
    W1 m ρ c (Proc.devRef .tc main_v5) (ix2 (⟨b.val * 2048 + t.val, by have := b.isLt; have := t.isLt; omega⟩ : Fin 16384) e)
      = m ((c : Thread nD τ).loc main_arg0) (ix3 b t e) := by
  show StableHlo.after hostOps0 (W0 m ρ c) (Proc.devRef .tc main_v5) _ = _
  after_results
  show shapeCast S16384x1024 (W0 m ρ c (Proc.devRef .tc main_arg0)) shapeCasts_S8x2048x1024_S16384x1024 _ = _
  refine (shapeCast_apply _ _ _ (ix3 b t e) ?_).trans rfl
  rw [Shape.rowMajor_val_two, Shape.rowMajor_val_three]
  show (b.val * 2048 + t.val) * 1024 + e.val = (b.val * 2048 + t.val) * 1024 + e.val
  rfl

/-- A weight array rounded to the narrow format is the array. -/
theorem W1_v0_eq : W1 m ρ c (Proc.devRef .tc main_v0) = m ((c : Thread nD τ).loc main_arg1) := by
  show StableHlo.after hostOps0 (W0 m ρ c) (Proc.devRef .tc main_v0) = _
  after_results
  rfl

/-- A weight array rounded to the narrow format is the array. -/
theorem W1_v1_eq : W1 m ρ c (Proc.devRef .tc main_v1) = m ((c : Thread nD τ).loc main_arg2) := by
  show StableHlo.after hostOps0 (W0 m ρ c) (Proc.devRef .tc main_v1) = _
  after_results
  rfl

/-- A weight array rounded to the narrow format is the array. -/
theorem W1_v2_eq : W1 m ρ c (Proc.devRef .tc main_v2) = m ((c : Thread nD τ).loc main_arg3) := by
  show StableHlo.after hostOps0 (W0 m ρ c) (Proc.devRef .tc main_v2) = _
  after_results
  rfl

/-- A weight array rounded to the narrow format is the array. -/
theorem W1_v3_eq : W1 m ρ c (Proc.devRef .tc main_v3) = m ((c : Thread nD τ).loc main_arg4) := by
  show StableHlo.after hostOps0 (W0 m ρ c) (Proc.devRef .tc main_v3) = _
  after_results
  rfl

/-- A weight array rounded to the narrow format is the array. -/
theorem W1_v4_eq : W1 m ρ c (Proc.devRef .tc main_v4) = m ((c : Thread nD τ).loc main_arg6) := by
  show StableHlo.after hostOps0 (W0 m ρ c) (Proc.devRef .tc main_v4) = _
  after_results
  rfl

/-! ## Buffers the second host stretch and the projection region leave alone -/

theorem W3_main_v3_eq : W3 m ρ c (Proc.devRef .tc main_v3) = W1 m ρ c (Proc.devRef .tc main_v3) :=
  (StableHlo.after_of_forall_not_mem (b := Proc.devRef .tc main_v3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_of_ne m ρ c main_v3 (by decide))

theorem W3_main_v4_eq : W3 m ρ c (Proc.devRef .tc main_v4) = W1 m ρ c (Proc.devRef .tc main_v4) :=
  (StableHlo.after_of_forall_not_mem (b := Proc.devRef .tc main_v4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_of_ne m ρ c main_v4 (by decide))

theorem W3_main_arg5_eq : W3 m ρ c (Proc.devRef .tc main_arg5) = W1 m ρ c (Proc.devRef .tc main_arg5) :=
  (StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_of_ne m ρ c main_arg5 (by decide))

theorem W3_main_arg7_eq : W3 m ρ c (Proc.devRef .tc main_arg7) = W1 m ρ c (Proc.devRef .tc main_arg7) :=
  (StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_of_ne m ρ c main_arg7 (by decide))

theorem W3_main_arg8_eq : W3 m ρ c (Proc.devRef .tc main_arg8) = W1 m ρ c (Proc.devRef .tc main_arg8) :=
  (StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_of_ne m ρ c main_arg8 (by decide))

theorem W1_main_arg5_eq : W1 m ρ c (Proc.devRef .tc main_arg5) = m ((c : Thread nD τ).loc main_arg5) :=
  StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_main_arg7_eq : W1 m ρ c (Proc.devRef .tc main_arg7) = m ((c : Thread nD τ).loc main_arg7) :=
  StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_main_arg8_eq : W1 m ρ c (Proc.devRef .tc main_arg8) = m ((c : Thread nD τ).loc main_arg8) :=
  StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## The second host stretch -/

/-- A projection reshaped back to batches. -/
theorem W3_v7_at (b : Fin 8) (t : Fin 2048) (e : Fin 1024) :
    W3 m ρ c (Proc.devRef .tc main_v7) (ix3 b t e)
      = W2 m ρ c (Proc.devRef .tc main_v6_0) (ix2 (⟨b.val * 2048 + t.val, by have := b.isLt; have := t.isLt; omega⟩ : Fin 16384) e) := by
  show StableHlo.after hostOps1 (W2 m ρ c) (Proc.devRef .tc main_v7) _ = _
  after_results
  show shapeCast S8x2048x1024 (W2 m ρ c (Proc.devRef .tc main_v6_0)) shapeCasts_S16384x1024_S8x2048x1024 _ = _
  refine shapeCast_apply _ _ _ (ix2 (⟨b.val * 2048 + t.val, by have := b.isLt; have := t.isLt; omega⟩ : Fin 16384) e) ?_
  rw [Shape.rowMajor_val_two, Shape.rowMajor_val_three]
  show (b.val * 2048 + t.val) * 1024 + e.val = (b.val * 2048 + t.val) * 1024 + e.val
  rfl

/-- A projection reshaped back to batches. -/
theorem W3_v8_at (b : Fin 8) (t : Fin 2048) (e : Fin 1024) :
    W3 m ρ c (Proc.devRef .tc main_v8) (ix3 b t e)
      = W2 m ρ c (Proc.devRef .tc main_v6_1) (ix2 (⟨b.val * 2048 + t.val, by have := b.isLt; have := t.isLt; omega⟩ : Fin 16384) e) := by
  show StableHlo.after hostOps1 (W2 m ρ c) (Proc.devRef .tc main_v8) _ = _
  after_results
  show shapeCast S8x2048x1024 (W2 m ρ c (Proc.devRef .tc main_v6_1)) shapeCasts_S16384x1024_S8x2048x1024 _ = _
  refine shapeCast_apply _ _ _ (ix2 (⟨b.val * 2048 + t.val, by have := b.isLt; have := t.isLt; omega⟩ : Fin 16384) e) ?_
  rw [Shape.rowMajor_val_two, Shape.rowMajor_val_three]
  show (b.val * 2048 + t.val) * 1024 + e.val = (b.val * 2048 + t.val) * 1024 + e.val
  rfl

/-- A projection reshaped back to batches. -/
theorem W3_v9_at (b : Fin 8) (t : Fin 2048) (e : Fin 1024) :
    W3 m ρ c (Proc.devRef .tc main_v9) (ix3 b t e)
      = W2 m ρ c (Proc.devRef .tc main_v6_2) (ix2 (⟨b.val * 2048 + t.val, by have := b.isLt; have := t.isLt; omega⟩ : Fin 16384) e) := by
  show StableHlo.after hostOps1 (W2 m ρ c) (Proc.devRef .tc main_v9) _ = _
  after_results
  show shapeCast S8x2048x1024 (W2 m ρ c (Proc.devRef .tc main_v6_2)) shapeCasts_S16384x1024_S8x2048x1024 _ = _
  refine shapeCast_apply _ _ _ (ix2 (⟨b.val * 2048 + t.val, by have := b.isLt; have := t.isLt; omega⟩ : Fin 16384) e) ?_
  rw [Shape.rowMajor_val_two, Shape.rowMajor_val_three]
  show (b.val * 2048 + t.val) * 1024 + e.val = (b.val * 2048 + t.val) * 1024 + e.val
  rfl

/-- The mask widened to words. -/
theorem W3_v10_at (i : S8x2048x2048.Idx) :
    W3 m ρ c (Proc.devRef .tc main_v10) i = (m ((c : Thread nD τ).loc main_arg8) i).setWidth 32 := by
  show StableHlo.after hostOps1 (W2 m ρ c) (Proc.devRef .tc main_v10) i = _
  after_results
  show extui 32 (W2 m ρ c (Proc.devRef .tc main_arg8)) natLt_1_32 i = _
  rw [extui_apply]
  have e8 : W2 m ρ c (Proc.devRef .tc main_arg8) = m ((c : Thread nD τ).loc main_arg8) :=
    (W2_of_ne m ρ c main_arg8 (by decide)).trans (W1_main_arg8_eq m ρ c)
  rw [e8]

/-! ## The entry facts -/

/-- A width-1 word widened to 32 bits is 1 or 0. -/
theorem setWidth_one_bit (w : BitVec 1) : w.setWidth 32 = if decide (w = 1#1) = true then 1#32 else 0#32 := by
  rcases BitVec.eq_zero_or_eq_one w with h | h <;> subst h <;> decide

/-- THE ENTRY FACTS: with the float arguments' entries real numbers `X0 … X7`, the attention region is entered with the
    real projections, 0/1 mask words and the real feed-forward arrays. -/
theorem entry_real (X0 : S8x2048x1024.Idx → ℝ) (X1 X2 X3 : S1024x1024.Idx → ℝ) (X4 : S1024x4096.Idx → ℝ) (X5 : S4096.Idx → ℝ)
    (X6 : S4096x1024.Idx → ℝ) (X7 : S1024.Idx → ℝ)
    (h0 : ∀ i, m ((c : Thread nD τ).loc main_arg0) i = ((X0 i : ℝ) : EReal)) (h1 : ∀ i, m ((c : Thread nD τ).loc main_arg1) i = ((X1 i : ℝ) : EReal))
    (h2 : ∀ i, m ((c : Thread nD τ).loc main_arg2) i = ((X2 i : ℝ) : EReal)) (h3 : ∀ i, m ((c : Thread nD τ).loc main_arg3) i = ((X3 i : ℝ) : EReal))
    (h4 : ∀ i, m ((c : Thread nD τ).loc main_arg4) i = ((X4 i : ℝ) : EReal)) (h5 : ∀ i, m ((c : Thread nD τ).loc main_arg5) i = ((X5 i : ℝ) : EReal))
    (h6 : ∀ i, m ((c : Thread nD τ).loc main_arg6) i = ((X6 i : ℝ) : EReal)) (h7 : ∀ i, m ((c : Thread nD τ).loc main_arg7) i = ((X7 i : ℝ) : EReal)) :
    EntryReal (V3 m ρ) c (fun b t e => X0 (ix3 b t e)) (fun e f => X1 (ix2 e f)) (fun e f => X2 (ix2 e f)) (fun e f => X3 (ix2 e f))
      (fun e j => X4 (ix2 e j)) (fun j => X5 (ix1 j)) (fun j e => X6 (ix2 j e)) (fun e => X7 (ix1 e))
      (fun b q k => decide (m ((c : Thread nD τ).loc main_arg8) (ix3 b q k) = 1#1)) (-1000000000) where
  hq := fun b t e => by
    show W3 m ρ c (Proc.devRef .tc main_v7) (ix3 b t e) = _
    rw [W3_v7_at]
    have hW : W2 m ρ c (Proc.devRef .tc main_v6_0) = rowsTimes (V1 m ρ c (Pipeline.arrRef spec0 0)) (V1 m ρ c (Pipeline.arrRef spec0 1)) :=
      (W2_arr m ρ c 4).trans (arr0_4_eq (V1 m ρ) c)
    rw [hW, rowsTimes_at]
    show @Eq EReal _ _
    unfold Spec.proj
    rw [SoftmaxRow.coe_sum]
    refine Finset.sum_congr rfl fun e' _ => ?_
    rw [EReal.coe_mul]
    exact congrArg₂ (· * ·) ((W1_v5_at m ρ c b t e').trans (h0 _)) ((congrFun (W1_v0_eq m ρ c) _).trans (h1 _))
  hk := fun b t e => by
    show W3 m ρ c (Proc.devRef .tc main_v8) (ix3 b t e) = _
    rw [W3_v8_at]
    have hW : W2 m ρ c (Proc.devRef .tc main_v6_1) = rowsTimes (V1 m ρ c (Pipeline.arrRef spec0 0)) (V1 m ρ c (Pipeline.arrRef spec0 2)) :=
      (W2_arr m ρ c 5).trans (arr0_5_eq (V1 m ρ) c)
    rw [hW, rowsTimes_at]
    show @Eq EReal _ _
    unfold Spec.proj
    rw [SoftmaxRow.coe_sum]
    refine Finset.sum_congr rfl fun e' _ => ?_
    rw [EReal.coe_mul]
    exact congrArg₂ (· * ·) ((W1_v5_at m ρ c b t e').trans (h0 _)) ((congrFun (W1_v1_eq m ρ c) _).trans (h2 _))
  hv := fun b t e => by
    show W3 m ρ c (Proc.devRef .tc main_v9) (ix3 b t e) = _
    rw [W3_v9_at]
    have hW : W2 m ρ c (Proc.devRef .tc main_v6_2) = rowsTimes (V1 m ρ c (Pipeline.arrRef spec0 0)) (V1 m ρ c (Pipeline.arrRef spec0 3)) :=
      (W2_arr m ρ c 6).trans (arr0_6_eq (V1 m ρ) c)
    rw [hW, rowsTimes_at]
    show @Eq EReal _ _
    unfold Spec.proj
    rw [SoftmaxRow.coe_sum]
    refine Finset.sum_congr rfl fun e' _ => ?_
    rw [EReal.coe_mul]
    exact congrArg₂ (· * ·) ((W1_v5_at m ρ c b t e').trans (h0 _)) ((congrFun (W1_v2_eq m ρ c) _).trans (h3 _))
  hm := fun b q k => by
    show W3 m ρ c (Proc.devRef .tc main_v10) (ix3 b q k) = _
    rw [W3_v10_at]
    exact setWidth_one_bit _
  hw1 := fun e j => (congrFun ((W3_main_v3_eq m ρ c).trans (W1_v3_eq m ρ c)) _).trans (h4 _)
  hb1 := fun j => (congrFun ((W3_main_arg5_eq m ρ c).trans (W1_main_arg5_eq m ρ c)) _).trans (h5 _)
  hw2 := fun j e => (congrFun ((W3_main_v4_eq m ρ c).trans (W1_v4_eq m ρ c)) _).trans (h6 _)
  hb2 := fun e => (congrFun ((W3_main_arg7_eq m ρ c).trans (W1_main_arg7_eq m ρ c)) _).trans (h7 _)
  hneg := negw_eq

end Cert.KernelIdeal.Hand

end
-- ==== Proof.RefAt.lean ====
/-
  The reference program's result, read at an index, is the coercion of the real-valued specification, when every float
  input is a real number.

  The program is read one operation at a time through the generated index lemmas. The three projections are real sums
  `∑_e x b t e · w e f`. The score is the query–key product divided by `sqrt 1024 = 32`, that is multiplied by 1/32, or
  the fill constant where the mask bit is set; both are reals. The softmax is written out as a row maximum folded from
  -∞, a maximum with -∞ (which changes nothing), a subtraction, an exponential, a row sum and a division: read at an
  index this is the weight of an entry of a real row, `exp σ_k / ∑_u exp σ_u`, whatever real maximum was subtracted.
  The weights applied to the values give `∑_k (exp σ_k / S) · v_k = (∑_k exp σ_k · v_k) / S`. The feed-forward layer is
  two more real sums with their biases, a maximum with zero, and the residual addition. At every stage the value is the
  coercion of a real number, because the coercion ℝ → EReal commutes with finite sums, products, sums of two terms and
  the maximum of two terms.
-/
import Mathlib
import Idealize.ShloMosaic.Lib.IdealHost
import Idealize.ShloMosaic.Lib.ValueIdx
import Idealize.ShloMosaic.PureOps.Reduce
import proofs.«108464_j44547400794204_2_alg».proof.Proof.Spec
import proofs.«108464_j44547400794204_2_alg».proof.Proof.MathAttn
import proofs.«108464_j44547400794204_2_alg».proof.Proof.LibSoftmaxRow
import proofs.«108464_j44547400794204_2_alg».proof.Proof.Gen.ReferenceIdeal.Read

noncomputable section

namespace Attn.RefAt

open Cert.ReferenceIdeal Cert.ReferenceIdeal.Gen Cert.ReferenceIdeal.Read Idealize.ShloMosaic Idealize.ShloMosaic.ValueIdx

/-- Two rank-3 indices are equal when their coordinates are. -/
local macro "idx3" : tactic =>
  `(tactic| (funext a; match a with | ⟨0, _⟩ => rfl | ⟨1, _⟩ => rfl | ⟨2, _⟩ => rfl))
/-- Two rank-2 indices are equal when their coordinates are. -/
local macro "idx2" : tactic =>
  `(tactic| (funext a; match a with | ⟨0, _⟩ => rfl | ⟨1, _⟩ => rfl))
/-- Two rank-1 indices are equal when their coordinates are. -/
local macro "idx1" : tactic =>
  `(tactic| (funext a; match a with | ⟨0, _⟩ => rfl))

/-! ## The three projections -/

/-- A projection of real rows by a real matrix, read at an index, is the real sum. -/
theorem proj_at (x : Fin 8 → Fin 2048 → Fin 1024 → ℝ) (w : Fin 1024 → Fin 1024 → ℝ)
    (A0 : (⟨S8x2048x1024, .f32⟩ : BufTy).Contents (Elt Ideal)) (A1 : (⟨S1024x1024, .f32⟩ : BufTy).Contents (Elt Ideal))
    (h0 : ∀ b t e, A0 (ix3 b t e) = (x b t e : EReal)) (h1 : ∀ e f, A1 (ix2 e f) = (w e f : EReal))
    (b : Fin 8) (t : Fin 2048) (f : Fin 1024) :
    val_main_v0 (F := Ideal) A0 A1 (ix3 b t f) = ((Spec.proj x w b t f : ℝ) : EReal) := by
  rw [val_main_v0_apply]
  unfold Spec.proj
  rw [SoftmaxRow.coe_sum]
  refine Finset.sum_congr rfl fun k _ => ?_
  rw [show lidx_main_v0 (ix3 b t f) k = ix3 b t k from by idx3,
    show ridx_main_v0 (ix3 b t f) k = ix2 k f from by idx2, h0, h1, EReal.coe_mul]

/-! ## The scaled, masked score -/

/-- The word of 1024.0. -/
theorem ofBits_1024 : Ideal.ofBits .f32 0x44800000#32 = ((1024 : ℝ) : EReal) := by
  simp [Ideal.ofBits, Ideal.ieee, -EReal.coe_mul]; norm_num

/-- The square root of 1024 is 32. -/
theorem sqrt_1024 : Ideal.sqrt ((1024 : ℝ) : EReal) = ((32 : ℝ) : EReal) := by
  rw [Ideal.sqrt_coe, if_neg (by norm_num)]
  congr 1
  rw [show (1024 : ℝ) = 32 ^ 2 by norm_num]
  exact Real.sqrt_sq (by norm_num)

/-- The query–key product, read at an index, is the real sum over the features. -/
theorem dot_at (x : Fin 8 → Fin 2048 → Fin 1024 → ℝ) (wq wk : Fin 1024 → Fin 1024 → ℝ)
    (A0 : (⟨S8x2048x1024, .f32⟩ : BufTy).Contents (Elt Ideal)) (A1 A2 : (⟨S1024x1024, .f32⟩ : BufTy).Contents (Elt Ideal))
    (h0 : ∀ b t e, A0 (ix3 b t e) = (x b t e : EReal)) (h1 : ∀ e f, A1 (ix2 e f) = (wq e f : EReal))
    (h2 : ∀ e f, A2 (ix2 e f) = (wk e f : EReal)) (b : Fin 8) (q k : Fin 2048) :
    val_main_v3 (F := Ideal) A0 A1 A2 (ix3 b q k)
      = ((∑ e : Fin 1024, Spec.proj x wq b q e * Spec.proj x wk b k e : ℝ) : EReal) := by
  rw [val_main_v3_apply, SoftmaxRow.coe_sum]
  refine Finset.sum_congr rfl fun e _ => ?_
  rw [show lidx_main_v3 (ix3 b q k) e = ix3 b q e from by idx3,
    show ridx_main_v3 (ix3 b q k) e = ix3 b k e from by idx3,
    proj_at x wq A0 A1 h0 h1, EReal.coe_mul]
  exact congrArg _ (proj_at x wk A0 A2 h0 h2 b k e)

/-- The divisor broadcast over the scores is 32 everywhere. -/
theorem scale_at (i : S8x2048x2048.Idx) : val_main_v5 (F := Ideal) i = ((32 : ℝ) : EReal) := by
  rw [val_main_v5_apply, val_main_v4_apply]
  unfold val_main_cst
  rw [constant_apply, Ideal.hostUnary_sqrt_def, ofBits_1024, sqrt_1024]

/-- The fill value broadcast over the scores is the word of the fill constant everywhere. -/
theorem fill_at (i : S8x2048x2048.Idx) :
    val_main_call0_v0 (F := Ideal) i = Ideal.ofBits .f32 0xCE6E6B28#32 := by
  unfold val_main_call0_v0 val_main_cst_0
  rw [broadcastInDim_scalar_apply, constant_apply]

/-- The masked, scaled score, read at an index, is the real score. -/
theorem score_at (x : Fin 8 → Fin 2048 → Fin 1024 → ℝ) (wq wk : Fin 1024 → Fin 1024 → ℝ)
    (mask : Fin 8 → Fin 2048 → Fin 2048 → Bool) (negw : ℝ)
    (hneg : Ideal.ofBits .f32 0xCE6E6B28#32 = (negw : EReal))
    (A0 : (⟨S8x2048x1024, .f32⟩ : BufTy).Contents (Elt Ideal)) (A1 A2 : (⟨S1024x1024, .f32⟩ : BufTy).Contents (Elt Ideal))
    (A8 : (⟨S8x2048x2048, .i1⟩ : BufTy).Contents (Elt Ideal))
    (h0 : ∀ b t e, A0 (ix3 b t e) = (x b t e : EReal)) (h1 : ∀ e f, A1 (ix2 e f) = (wq e f : EReal))
    (h2 : ∀ e f, A2 (ix2 e f) = (wk e f : EReal))
    (h8 : ∀ b q k, A8 (ix3 b q k) = if mask b q k then 1#1 else 0#1) (b : Fin 8) (q k : Fin 2048) :
    val_main_v7 (F := Ideal) A0 A1 A2 A8 (ix3 b q k) = ((Spec.score x wq wk mask negw b q k : ℝ) : EReal) := by
  rw [val_main_v7_apply, h8, fill_at, hneg, val_main_v6_apply, Ideal.hostDivf_def, scale_at,
    Ideal.div_coe (by norm_num), dot_at x wq wk A0 A1 A2 h0 h1 h2, ← EReal.coe_mul]
  unfold Spec.score
  cases mask b q k
  · rw [if_neg (by decide), if_neg (by decide)]; exact select_zero _ _
  · rw [if_pos rfl, if_pos rfl]; exact select_one _ _

/-! ## The softmax row -/

/-- The scores lose their last axis under the row reductions. -/
theorem reduces_d2 : S8x2048x2048.Reduces [2] S8x2048 := by decide

/-- The reduced index (b, q) with key `k` put back is (b, q, k). -/
theorem lift_at (b : Fin 8) (q : Fin 2048) (k : Fin (S8x2048x2048.size 2)) :
    reduces_d2.lift (ix2 b q) k = ix3 b q (⟨k.val, k.isLt⟩ : Fin 2048) := by
  funext c; apply Fin.ext
  match c with
  | ⟨0, _⟩ => rfl
  | ⟨1, _⟩ => rfl
  | ⟨2, _⟩ => rfl

section Row

variable (x : Fin 8 → Fin 2048 → Fin 1024 → ℝ) (wq wk : Fin 1024 → Fin 1024 → ℝ)
  (mask : Fin 8 → Fin 2048 → Fin 2048 → Bool) (negw : ℝ)
  (hneg : Ideal.ofBits .f32 0xCE6E6B28#32 = (negw : EReal))
  (A0 : (⟨S8x2048x1024, .f32⟩ : BufTy).Contents (Elt Ideal)) (A1 A2 : (⟨S1024x1024, .f32⟩ : BufTy).Contents (Elt Ideal))
  (A8 : (⟨S8x2048x2048, .i1⟩ : BufTy).Contents (Elt Ideal))
  (h0 : ∀ b t e, A0 (ix3 b t e) = (x b t e : EReal)) (h1 : ∀ e f, A1 (ix2 e f) = (wq e f : EReal))
  (h2 : ∀ e f, A2 (ix2 e f) = (wk e f : EReal))
  (h8 : ∀ b q k, A8 (ix3 b q k) = if mask b q k then 1#1 else 0#1)

include hneg h0 h1 h2 h8

/-- The row maximum, read at (b, q), is the fold of `max` from -∞ over the row of real scores. -/
theorem max_at (b : Fin 8) (q : Fin 2048) :
    val_main_v8 (F := Ideal) A0 A1 A2 A8 (ix2 b q)
      = SoftmaxRow.rowMax (fun k : Fin 2048 => ((Spec.score x wq wk mask negw b q k : ℝ) : EReal)) := by
  unfold val_main_v8
  refine (Host.reduce_eq_fold_single FloatOps.maximumf _ _ reducesTo_S8x2048x2048_S8x2048_d2 reduces_d2 h_S_
    (ix2 b q)).trans ?_
  have hf : (val_main_v7 (F := Ideal) A0 A1 A2 A8 ∘ reduces_d2.lift (ix2 b q))
      = fun k : Fin 2048 => ((Spec.score x wq wk mask negw b q k : ℝ) : EReal) := funext fun k => by
    show val_main_v7 (F := Ideal) A0 A1 A2 A8 (reduces_d2.lift (ix2 b q) k) = _
    rw [lift_at]
    exact score_at x wq wk mask negw hneg A0 A1 A2 A8 h0 h1 h2 h8 b q _
  exact congrArg (fun f => Finset.fold max (Ideal.ofBits .f32 0xFF800000#32) f (Finset.univ : Finset (Fin 2048))) hf

/-- The shift broadcast along the row is the row maximum: the maximum with -∞ changes nothing. -/
theorem shift_at (b : Fin 8) (q k : Fin 2048) :
    val_main_v12 (F := Ideal) A0 A1 A2 A8 (ix3 b q k)
      = SoftmaxRow.rowMax (fun k : Fin 2048 => ((Spec.score x wq wk mask negw b q k : ℝ) : EReal)) := by
  rw [val_main_v12_apply, val_main_v11_apply,
    show idx_main_v11 (idx_main_v12 (ix3 b q k)) = ix2 b q from by idx2,
    val_main_v10_apply, val_main_v9_apply]
  unfold val_main_cst_2
  rw [constant_apply, Ideal.maximumf_def, SoftmaxRow.negInf, max_at x wq wk mask negw hneg A0 A1 A2 A8 h0 h1 h2 h8]
  exact max_eq_right bot_le

/-- The exponential of the shifted score. -/
theorem exp_at (b : Fin 8) (q k : Fin 2048) :
    val_main_v14 (F := Ideal) A0 A1 A2 A8 (ix3 b q k)
      = SoftmaxRow.rowExp (fun k : Fin 2048 => ((Spec.score x wq wk mask negw b q k : ℝ) : EReal)) k := by
  rw [val_main_v14_apply, val_main_v13_apply, Ideal.hostUnary_exp_def, Ideal.subf_def,
    score_at x wq wk mask negw hneg A0 A1 A2 A8 h0 h1 h2 h8,
    shift_at x wq wk mask negw hneg A0 A1 A2 A8 h0 h1 h2 h8]
  rfl

/-- The row's sum of exponentials. -/
theorem sum_at (b : Fin 8) (q : Fin 2048) :
    val_main_v15 (F := Ideal) A0 A1 A2 A8 (ix2 b q)
      = ∑ u : Fin 2048, SoftmaxRow.rowExp (fun k : Fin 2048 => ((Spec.score x wq wk mask negw b q k : ℝ) : EReal)) u := by
  rw [val_main_v15_apply]
  unfold val_main_cst_3
  rw [constant_apply, Ideal.ofBits_zero_f32, zero_add]
  refine Finset.sum_congr rfl fun u _ => ?_
  rw [show idx_main_v15 (ix2 b q) u = ix3 b q u from by idx3]
  exact exp_at x wq wk mask negw hneg A0 A1 A2 A8 h0 h1 h2 h8 b q u

/-- The softmax weight, in unshifted form. -/
theorem wt_at (b : Fin 8) (q k : Fin 2048) :
    val_main_v18 (F := Ideal) A0 A1 A2 A8 (ix3 b q k)
      = ((Real.exp (Spec.score x wq wk mask negw b q k)
          / ∑ u : Fin 2048, Real.exp (Spec.score x wq wk mask negw b q u) : ℝ) : EReal) := by
  rw [val_main_v18_apply, Ideal.hostDivf_def, val_main_v17_apply, val_main_v16_apply,
    show idx_main_v16 (idx_main_v17 (ix3 b q k)) = ix2 b q from by idx2,
    sum_at x wq wk mask negw hneg A0 A1 A2 A8 h0 h1 h2 h8,
    exp_at x wq wk mask negw hneg A0 A1 A2 A8 h0 h1 h2 h8]
  exact Attn.rowWt_eq (by norm_num) (fun k : Fin 2048 => Spec.score x wq wk mask negw b q k) k

end Row

/-! ## Attention applied to the values, and the feed-forward layer -/

/-- The coercion of a maximum of reals is the maximum of the coercions. -/
theorem coe_max (r s : ℝ) : ((max r s : ℝ) : EReal) = max (r : EReal) (s : EReal) :=
  EReal.coe_strictMono.monotone.map_max

section Out

variable (x : Fin 8 → Fin 2048 → Fin 1024 → ℝ) (wq wk wv : Fin 1024 → Fin 1024 → ℝ)
  (w1 : Fin 1024 → Fin 4096 → ℝ) (b1 : Fin 4096 → ℝ) (w2 : Fin 4096 → Fin 1024 → ℝ) (b2 : Fin 1024 → ℝ)
  (mask : Fin 8 → Fin 2048 → Fin 2048 → Bool) (negw : ℝ)
  (hneg : Ideal.ofBits .f32 0xCE6E6B28#32 = (negw : EReal))
  (A0 : (⟨S8x2048x1024, .f32⟩ : BufTy).Contents (Elt Ideal)) (A1 A2 A3 : (⟨S1024x1024, .f32⟩ : BufTy).Contents (Elt Ideal))
  (A4 : (⟨S1024x4096, .f32⟩ : BufTy).Contents (Elt Ideal)) (A5 : (⟨S4096, .f32⟩ : BufTy).Contents (Elt Ideal))
  (A6 : (⟨S4096x1024, .f32⟩ : BufTy).Contents (Elt Ideal)) (A7 : (⟨S1024, .f32⟩ : BufTy).Contents (Elt Ideal))
  (A8 : (⟨S8x2048x2048, .i1⟩ : BufTy).Contents (Elt Ideal))
  (h0 : ∀ b t e, A0 (ix3 b t e) = (x b t e : EReal)) (h1 : ∀ e f, A1 (ix2 e f) = (wq e f : EReal))
  (h2 : ∀ e f, A2 (ix2 e f) = (wk e f : EReal)) (h3 : ∀ e f, A3 (ix2 e f) = (wv e f : EReal))
  (h4 : ∀ e j, A4 (ix2 e j) = (w1 e j : EReal)) (h5 : ∀ j, A5 (ix1 j) = (b1 j : EReal))
  (h6 : ∀ j e, A6 (ix2 j e) = (w2 j e : EReal)) (h7 : ∀ e, A7 (ix1 e) = (b2 e : EReal))
  (h8 : ∀ b q k, A8 (ix3 b q k) = if mask b q k then 1#1 else 0#1)

include hneg h0 h1 h2 h3 h8 in
/-- The weights applied to the values: a sum of quotients by the row's sum is the quotient of the sum. -/
theorem ctx_at (b : Fin 8) (q : Fin 2048) (e : Fin 1024) :
    val_main_v19 (F := Ideal) A0 A1 A2 A3 A8 (ix3 b q e) = ((Spec.ctx x wq wk wv mask negw b q e : ℝ) : EReal) := by
  rw [val_main_v19_apply]
  unfold Spec.ctx
  rw [Finset.sum_div, SoftmaxRow.coe_sum]
  refine Finset.sum_congr rfl fun k _ => ?_
  rw [show lidx_main_v19 (ix3 b q e) k = ix3 b q k from by idx3,
    show ridx_main_v19 (ix3 b q e) k = ix3 b k e from by idx3,
    wt_at x wq wk mask negw hneg A0 A1 A2 A8 h0 h1 h2 h8,
    show val_main_v2 (F := Ideal) A0 A3 (ix3 b k e) = ((Spec.proj x wv b k e : ℝ) : EReal) from
      proj_at x wv A0 A3 h0 h3 b k e,
    ← EReal.coe_mul, div_mul_eq_mul_div]

include hneg h0 h1 h2 h3 h4 h5 h8 in
/-- The hidden layer. -/
theorem hid_at (b : Fin 8) (t : Fin 2048) (j : Fin 4096) :
    val_main_v24 (F := Ideal) A0 A1 A2 A3 A4 A5 A8 (ix3 b t j)
      = ((Spec.hid x wq wk wv w1 b1 mask negw b t j : ℝ) : EReal) := by
  rw [val_main_v24_apply, Ideal.maximumf_def, val_main_v23_apply, Ideal.addf_def, val_main_v20_apply,
    val_main_v22_apply, val_main_v21_apply,
    show idx_main_v21 (idx_main_v22 (ix3 b t j)) = ix1 j from by idx1, h5]
  unfold val_main_call1_v0 val_main_call1_cst
  rw [broadcastInDim_scalar_apply, constant_apply, Ideal.ofBits_zero_f32]
  unfold Spec.hid
  rw [coe_max, EReal.coe_zero, EReal.coe_add, SoftmaxRow.coe_sum]
  refine congrArg (fun z => max (z + (b1 j : EReal)) 0) (Finset.sum_congr rfl fun e _ => ?_)
  rw [show lidx_main_v20 (ix3 b t j) e = ix3 b t e from by idx3,
    show ridx_main_v20 (ix3 b t j) e = ix2 e j from by idx2,
    ctx_at x wq wk wv mask negw hneg A0 A1 A2 A3 A8 h0 h1 h2 h3 h8, h4, EReal.coe_mul]

include hneg h0 h1 h2 h3 h4 h5 h6 h7 h8 in
/-- The result: the second product plus its bias plus the residual. -/
theorem out_at (b : Fin 8) (t : Fin 2048) (e : Fin 1024) :
    val_main_v29 (F := Ideal) A0 A1 A2 A3 A4 A5 A6 A7 A8 (ix3 b t e)
      = ((Spec.out x wq wk wv w1 b1 w2 b2 mask negw b t e : ℝ) : EReal) := by
  rw [val_main_v29_apply, Ideal.addf_def, val_main_v28_apply, Ideal.addf_def, val_main_v25_apply,
    val_main_v27_apply, val_main_v26_apply,
    show idx_main_v26 (idx_main_v27 (ix3 b t e)) = ix1 e from by idx1, h7,
    ctx_at x wq wk wv mask negw hneg A0 A1 A2 A3 A8 h0 h1 h2 h3 h8]
  unfold Spec.out
  rw [EReal.coe_add, EReal.coe_add, SoftmaxRow.coe_sum]
  refine congrArg (fun z => z + (b2 e : EReal) + ((Spec.ctx x wq wk wv mask negw b t e : ℝ) : EReal))
    (Finset.sum_congr rfl fun j _ => ?_)
  rw [show lidx_main_v25 (ix3 b t e) j = ix3 b t j from by idx3,
    show ridx_main_v25 (ix3 b t e) j = ix2 j e from by idx2,
    hid_at x wq wk wv w1 b1 mask negw hneg A0 A1 A2 A3 A4 A5 A8 h0 h1 h2 h3 h4 h5 h8, h6, EReal.coe_mul]

end Out

/-- The reference program's result, read at an index, is the coercion of the real-valued specification, when the float
    inputs are the coercions of real arrays, the mask array holds the boolean mask's bits, and the fill constant's
    word denotes the real `negw`. -/
theorem ref_at (x : Fin 8 → Fin 2048 → Fin 1024 → ℝ) (wq wk wv : Fin 1024 → Fin 1024 → ℝ)
    (w1 : Fin 1024 → Fin 4096 → ℝ) (b1 : Fin 4096 → ℝ) (w2 : Fin 4096 → Fin 1024 → ℝ) (b2 : Fin 1024 → ℝ)
    (mask : Fin 8 → Fin 2048 → Fin 2048 → Bool) (negw : ℝ)
    (hneg : Ideal.ofBits .f32 0xCE6E6B28#32 = (negw : EReal))
    (A0 : (⟨S8x2048x1024, .f32⟩ : BufTy).Contents (Elt Ideal))
    (A1 A2 A3 : (⟨S1024x1024, .f32⟩ : BufTy).Contents (Elt Ideal))
    (A4 : (⟨S1024x4096, .f32⟩ : BufTy).Contents (Elt Ideal)) (A5 : (⟨S4096, .f32⟩ : BufTy).Contents (Elt Ideal))
    (A6 : (⟨S4096x1024, .f32⟩ : BufTy).Contents (Elt Ideal)) (A7 : (⟨S1024, .f32⟩ : BufTy).Contents (Elt Ideal))
    (A8 : (⟨S8x2048x2048, .i1⟩ : BufTy).Contents (Elt Ideal))
    (h0 : ∀ b t e, A0 (ix3 b t e) = (x b t e : EReal)) (h1 : ∀ e f, A1 (ix2 e f) = (wq e f : EReal))
    (h2 : ∀ e f, A2 (ix2 e f) = (wk e f : EReal)) (h3 : ∀ e f, A3 (ix2 e f) = (wv e f : EReal))
    (h4 : ∀ e j, A4 (ix2 e j) = (w1 e j : EReal)) (h5 : ∀ j, A5 (ix1 j) = (b1 j : EReal))
    (h6 : ∀ j e, A6 (ix2 j e) = (w2 j e : EReal)) (h7 : ∀ e, A7 (ix1 e) = (b2 e : EReal))
    (h8 : ∀ b q k, A8 (ix3 b q k) = if mask b q k then 1#1 else 0#1)
    (b : Fin 8) (t : Fin 2048) (e : Fin 1024) :
    Cert.ReferenceIdeal.Read.val_main_v29 (F := Ideal) A0 A1 A2 A3 A4 A5 A6 A7 A8 (ix3 b t e)
      = ((Attn.Spec.out x wq wk wv w1 b1 w2 b2 mask negw b t e : ℝ) : EReal) :=
  out_at x wq wk wv w1 b1 w2 b2 mask negw hneg A0 A1 A2 A3 A4 A5 A6 A7 A8 h0 h1 h2 h3 h4 h5 h6 h7 h8 b t e

end Attn.RefAt
end
-- ==== Proof.LibFiniteReal.lean ====
/-
  From "every entry's absolute value compares below +∞" to "every entry is a real number", at the ideal instance.

  A printed finiteness precondition asks, array by array, `jnp.all(jnp.abs(x) < inf)`: a host `abs`, a comparison against the
  broadcast word of +∞, and an all-reduce by `and` into a scalar. `posInf`: that word denotes ⊤. `real_of_abs_lt`: an
  extended real whose absolute value `max x (-x)` compares below ⊤ is neither infinity, hence a real. `all_real`: if the
  and-reduce of the comparisons over the whole array is 1, every entry of the array is real — for any shape and any list
  of reduced axes, the result a scalar. A certificate opens its own precondition's conjunction (`IntOp.andi_eq_one`) and
  hands each conjunct to `all_real`.
-/
import Idealize.ShloMosaic.Lib.ReduceAll
import Idealize.ShloMosaic.Lib.Affine
import Idealize.ShloMosaic.Lib.ValueIdx
import Idealize.ShloMosaic.PureOps.Ideal.Laws

noncomputable section

namespace FiniteReal

open Idealize.ShloMosaic Idealize.ShloMosaic.ValueIdx

/-- A scalar has one index. -/
instance scalarIdx_subsingleton : Subsingleton (⟨0, ![]⟩ : Shape).Idx := ⟨fun _ _ => funext fun d => d.elim0⟩

/-- The word of +∞ denotes the top of the extended reals. -/
theorem posInf : Ideal.ofBits .f32 0x7F800000#32 = (⊤ : EReal) := by simp [Ideal.ofBits, Ideal.ieee]

/-- An extended real whose absolute value compares below +∞ is a real number. -/
theorem real_of_abs_lt (x : EReal) (h : Ideal.cmp .olt (max x (-x)) (Ideal.ofBits .f32 0x7F800000#32) = 1#1) :
    ∃ r : ℝ, x = (r : EReal) := by
  rw [posInf] at h
  have hlt : max x (-x) < ⊤ := by
    by_contra hn
    have : Ideal.cmp .olt (max x (-x)) ⊤ = 0#1 := by
      unfold Ideal.cmp
      simp [hn]
    rw [this] at h
    exact absurd h (by decide)
  have h1 : x ≠ ⊤ := fun e => by rw [e] at hlt; simp at hlt
  have h2 : x ≠ ⊥ := fun e => by rw [e] at hlt; simp at hlt
  exact ⟨x.toReal, (EReal.coe_toReal h1 h2).symm⟩

/-- One array's answer: if all its entries' absolute values compare below +∞, every entry is real. -/
theorem all_real {s : Shape} {axes : List (Fin s.rank)} (x : FVec Ideal s .f32)
    (hb : (⟨0, ![]⟩ : Shape).BroadcastsInDim s (![] : Fin 0 → Fin s.rank))
    (h : s.ReducesTo axes (⟨0, ![]⟩ : Shape)) (hu : 0 < (⟨0, ![]⟩ : Shape).numel) (init : IVec (⟨0, ![]⟩ : Shape) 1)
    (e : Host.reduce IntOp.andi (cmpf .olt (Host.absf x)
      (broadcastInDim s ![] hb (constant (F := Ideal) (⟨0, ![]⟩ : Shape) .f32 0x7F800000#32))) init h hu ix0 = 1#1)
    (i : s.Idx) : ∃ r : ℝ, x i = (r : EReal) :=
  real_of_abs_lt (x i) (Host.reduce_andi_all _ init h hu ix0 e i)

end FiniteReal

end
-- ==== Proof.Finite.lean ====
/-
  From the printed finiteness precondition to real numbers.  The precondition is one scalar: the conjunction, over the
  eight float arguments, of "every entry's absolute value compares below +∞".  If it is 1, every entry of every float
  argument is a real number.
-/
import proofs.«108464_j44547400794204_2_alg».proof.Pre_finite_inputs
import proofs.«108464_j44547400794204_2_alg».proof.Proof.LibFiniteReal

noncomputable section

namespace Cert.Proof.Finite

open Cert.Pre_finite_inputs Idealize.ShloMosaic Idealize.ShloMosaic.ValueIdx

theorem reals_of_pre [Cert.Pre_finite_inputs.Facts] (a0 : FVec Ideal S8x2048x1024 .f32) (a1 a2 a3 : FVec Ideal S1024x1024 .f32)
    (a4 : FVec Ideal S1024x4096 .f32) (a5 : FVec Ideal S4096 .f32) (a6 : FVec Ideal S4096x1024 .f32) (a7 : FVec Ideal S1024 .f32)
    (a8 : IVec S8x2048x2048 1)
    (h : Cert.Pre_finite_inputs.fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) := by
  have h0 := congrFun h ix0
  dsimp only [fn, fn_part1, fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => FiniteReal.all_real a0 _ _ _ _ e0 i, fun i => FiniteReal.all_real a1 _ _ _ _ e1 i,
    fun i => FiniteReal.all_real a2 _ _ _ _ e2 i, fun i => FiniteReal.all_real a3 _ _ _ _ e3 i,
    fun i => FiniteReal.all_real a4 _ _ _ _ e4 i, fun i => FiniteReal.all_real a5 _ _ _ _ e5 i,
    fun i => FiniteReal.all_real a6 _ _ _ _ e6 i, fun i => FiniteReal.all_real a7 _ _ _ _ e7 i⟩

end Cert.Proof.Finite

end
-- ==== Proof.Algebraic.lean ====
/-
  The fifth claim: at the extended reals the idealized kernel and the idealized reference, run from memories that agree on
  the nine arguments, end with the same result.  The precondition makes every float argument's entry a real number; with
  those reals, the kernel's result array (the attention region's output array, by the whole-program run) and the
  reference's result term are both, index by index, the coercion of the one real-valued specification.
-/
import proofs.«108464_j44547400794204_2_alg».proof.Defs
import proofs.«108464_j44547400794204_2_alg».proof.Proof.Run
import proofs.«108464_j44547400794204_2_alg».proof.Proof.R1Out
import proofs.«108464_j44547400794204_2_alg».proof.Proof.Entry
import proofs.«108464_j44547400794204_2_alg».proof.Proof.RefAt
import proofs.«108464_j44547400794204_2_alg».proof.Proof.Finite
import proofs.«108464_j44547400794204_2_alg».proof.Proof.Gen.ReferenceIdeal.Run
import proofs.«108464_j44547400794204_2_alg».proof.Proof.Gen.ReferenceIdeal.Read
import proofs.«108464_j44547400794204_2_alg».proof.Proof.Gen.Pre_finite_inputs

set_option maxRecDepth 16384
set_option pp.maxSteps 4000
set_option pp.deepTerms false
set_option pp.proofs false

noncomputable section

namespace Cert.Proof.Claims

open Idealize.ShloMosaic Idealize.ShloMosaic.TcCoe Idealize.SL.Sem Idealize.ShloMosaic.ValueIdx

/-- A width-1 word is 1 or 0 according to whether it is 1. -/
theorem one_bit (w : BitVec 1) : w = if decide (w = 1#1) = true then 1#1 else 0#1 := by
  rcases BitVec.eq_zero_or_eq_one w with h | h <;> subst h <;> decide

theorem algebraic : Cert.algebraic_KernelIdeal_ReferenceIdeal := by
  intro m ρ m' ρ' hpre hagree
  have H := fun c => Cert.Proof.Finite.reals_of_pre _ _ _ _ _ _ _ _ _ (hpre c)
  have r0 : ∀ (c : Dev Cert.KernelIdeal.nD) i, ∃ r : ℝ, m ((c.tc : Thread Cert.KernelIdeal.nD Cert.KernelIdeal.τ).loc Cert.KernelIdeal.main_arg0) i = ((r : ℝ) : EReal) := fun c i => (H c).1 i
  have r1 : ∀ (c : Dev Cert.KernelIdeal.nD) i, ∃ r : ℝ, m ((c.tc : Thread Cert.KernelIdeal.nD Cert.KernelIdeal.τ).loc Cert.KernelIdeal.main_arg1) i = ((r : ℝ) : EReal) := fun c i => (H c).2.1 i
  have r2 : ∀ (c : Dev Cert.KernelIdeal.nD) i, ∃ r : ℝ, m ((c.tc : Thread Cert.KernelIdeal.nD Cert.KernelIdeal.τ).loc Cert.KernelIdeal.main_arg2) i = ((r : ℝ) : EReal) := fun c i => (H c).2.2.1 i
  have r3 : ∀ (c : Dev Cert.KernelIdeal.nD) i, ∃ r : ℝ, m ((c.tc : Thread Cert.KernelIdeal.nD Cert.KernelIdeal.τ).loc Cert.KernelIdeal.main_arg3) i = ((r : ℝ) : EReal) := fun c i => (H c).2.2.2.1 i
  have r4 : ∀ (c : Dev Cert.KernelIdeal.nD) i, ∃ r : ℝ, m ((c.tc : Thread Cert.KernelIdeal.nD Cert.KernelIdeal.τ).loc Cert.KernelIdeal.main_arg4) i = ((r : ℝ) : EReal) := fun c i => (H c).2.2.2.2.1 i
  have r5 : ∀ (c : Dev Cert.KernelIdeal.nD) i, ∃ r : ℝ, m ((c.tc : Thread Cert.KernelIdeal.nD Cert.KernelIdeal.τ).loc Cert.KernelIdeal.main_arg5) i = ((r : ℝ) : EReal) := fun c i => (H c).2.2.2.2.2.1 i
  have r6 : ∀ (c : Dev Cert.KernelIdeal.nD) i, ∃ r : ℝ, m ((c.tc : Thread Cert.KernelIdeal.nD Cert.KernelIdeal.τ).loc Cert.KernelIdeal.main_arg6) i = ((r : ℝ) : EReal) := fun c i => (H c).2.2.2.2.2.2.1 i
  have r7 : ∀ (c : Dev Cert.KernelIdeal.nD) i, ∃ r : ℝ, m ((c.tc : Thread Cert.KernelIdeal.nD Cert.KernelIdeal.τ).loc Cert.KernelIdeal.main_arg7) i = ((r : ℝ) : EReal) := fun c i => (H c).2.2.2.2.2.2.2 i
  choose X0 h0 using r0
  choose X1 h1 using r1
  choose X2 h2 using r2
  choose X3 h3 using r3
  choose X4 h4 using r4
  choose X5 h5 using r5
  choose X6 h6 using r6
  choose X7 h7 using r7
  refine ⟨fun (c : Dev Cert.KernelIdeal.nD) => Cert.KernelIdeal.Hand.outArr (fun b t e => X0 c (ix3 b t e)) (fun e f => X1 c (ix2 e f)) (fun e f => X2 c (ix2 e f)) (fun e f => X3 c (ix2 e f))
      (fun e j => X4 c (ix2 e j)) (fun j => X5 c (ix1 j)) (fun j e => X6 c (ix2 j e)) (fun e => X7 c (ix1 e))
      (fun b q k => decide (m ((c.tc : Thread Cert.KernelIdeal.nD Cert.KernelIdeal.τ).loc Cert.KernelIdeal.main_arg8) (ix3 b q k) = 1#1)) (-1000000000), ?_, ?_⟩
  · refine (θ_run Cert.KernelIdeal.defs _ _).mono (fun r h c => ⟨(h c).1.trans ?_, (h c).2⟩) (Cert.KernelIdeal.Hand.run_named (F := Ideal) m ρ)
    exact Cert.KernelIdeal.Hand.arr1_8 (Cert.KernelIdeal.Hand.entry_real m ρ c (X0 c) (X1 c) (X2 c) (X3 c) (X4 c) (X5 c) (X6 c) (X7 c)
      (h0 c) (h1 c) (h2 c) (h3 c) (h4 c) (h5 c) (h6 c) (h7 c))
  · refine (θ_run Cert.ReferenceIdeal.defs _ _).mono (fun r h c => ⟨(h c).1.trans ?_, (h c).2⟩) (Cert.ReferenceIdeal.Value.run (F := Ideal) m' ρ')
    rw [Cert.ReferenceIdeal.Read.val_main_v29_eq]
    obtain ⟨a0, a1, a2, a3, a4, a5, a6, a7, a8⟩ := hagree c
    funext i
    obtain ⟨b, t, e, rfl⟩ : ∃ (b : Fin 8) (t : Fin 2048) (e : Fin 1024), i = ix3 b t e := ⟨i 0, i 1, i 2, eq_ix3 i⟩
    refine (Attn.RefAt.ref_at (fun b t e => X0 c (ix3 b t e)) (fun e f => X1 c (ix2 e f)) (fun e f => X2 c (ix2 e f)) (fun e f => X3 c (ix2 e f))
      (fun e j => X4 c (ix2 e j)) (fun j => X5 c (ix1 j)) (fun j e => X6 c (ix2 j e)) (fun e => X7 c (ix1 e))
      (fun b q k => decide (m ((c.tc : Thread Cert.KernelIdeal.nD Cert.KernelIdeal.τ).loc Cert.KernelIdeal.main_arg8) (ix3 b q k) = 1#1)) (-1000000000) Cert.KernelIdeal.Hand.negw_eq _ _ _ _ _ _ _ _ _
      (fun b t e => (congrFun a0 _).trans (h0 c _)) (fun e f => (congrFun a1 _).trans (h1 c _))
      (fun e f => (congrFun a2 _).trans (h2 c _)) (fun e f => (congrFun a3 _).trans (h3 c _))
      (fun e j => (congrFun a4 _).trans (h4 c _)) (fun j => (congrFun a5 _).trans (h5 c _))
      (fun j e => (congrFun a6 _).trans (h6 c _)) (fun e => (congrFun a7 _).trans (h7 c _))
      (fun b q k => (congrFun a8 _).trans (one_bit _)) b t e).trans ?_
    rfl

end Cert.Proof.Claims

end
-- ==== Proof.lean ====
/-
  The certificate.  A masked single-head attention layer followed by a feed-forward layer with a residual, computed two
  ways: by two kernel launches — a projection of the input rows into queries, keys and values, then attention walked key
  tile by key tile with a running maximum, a running sum of exponentials and a running weighted sum of values, normalised
  at the last key tile and followed by the feed-forward layer over four slices of the hidden axis — and by the plain
  formula: scores, mask, softmax, weighted sum of values, feed-forward layer.
  * Each kernel program runs to the end, faults nowhere and leaves its arguments unchanged (Frames: the whole-program run
    over the two launches, at the word level and at the extended reals); the reference's frame is its run.
  * The idealization rewrote nothing.
  * Over the extended reals, for finite inputs, both compute one real-valued function (Algebraic): rescaling the running
    sums by exp(old maximum − new maximum) keeps them equal to exp(−maximum) times the unshifted sums, so the final
    quotient is the softmax-weighted sum whatever the maxima were; sums taken in blocks are the whole sums; the scale
    1/32 is the quotient by √1024.  Finiteness is used: with an infinite score the rescaling identities fail.
-/
import proofs.«108464_j44547400794204_2_alg».proof.Defs
import proofs.«108464_j44547400794204_2_alg».proof.Proof.Gen.Kernel
import proofs.«108464_j44547400794204_2_alg».proof.Proof.Gen.KernelIdeal
import proofs.«108464_j44547400794204_2_alg».proof.Proof.Gen.ReferenceIdeal
import proofs.«108464_j44547400794204_2_alg».proof.Proof.Gen.Pre_finite_inputs
import proofs.«108464_j44547400794204_2_alg».proof.Proof.Frames
import proofs.«108464_j44547400794204_2_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
